-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v5) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x1536x2048 : Shape := ⟨3, ![8, 1536, 2048]⟩
abbrev S8x2048x2816 : Shape := ⟨3, ![8, 2048, 2816]⟩
abbrev S8x1408x2048 : Shape := ⟨3, ![8, 1408, 2048]⟩
abbrev S_ : Shape := ⟨0, ![]⟩

class Facts : Prop where
  bcast_S_S8x1536x2048 : S_.BroadcastsInDim S8x1536x2048 (![] : Fin 0 → Fin S8x1536x2048.rank)
  reducesTo_S8x1536x2048_S_d0_1_2 : S8x1536x2048.ReducesTo [0, 1, 2] S_
  h_S_ : 0 < S_.numel
  bcast_S_S8x2048x2816 : S_.BroadcastsInDim S8x2048x2816 (![] : Fin 0 → Fin S8x2048x2816.rank)
  reducesTo_S8x2048x2816_S_d0_1_2 : S8x2048x2816.ReducesTo [0, 1, 2] S_
  bcast_S_S8x1408x2048 : S_.BroadcastsInDim S8x1408x2048 (![] : Fin 0 → Fin S8x1408x2048.rank)
  reducesTo_S8x1408x2048_S_d0_1_2 : S8x1408x2048.ReducesTo [0, 1, 2] S_

variable [Facts]

def fn {F : FTy → Type} [FloatOps F] (main_arg0 : FVec F S8x1536x2048 .f32) (main_arg1 : FVec F S8x2048x2816 .f32) (main_arg2 : FVec F S8x1408x2048 .f32) : IVec S_ 1 :=
  let main_v0 : FVec F S8x1536x2048 .f32 := Host.absf main_arg0
  let main_cst : FVec F S_ .f32 := constant S_ .f32 0x7F800000#32
  let main_v1 : FVec F S8x1536x2048 .f32 := broadcastInDim S8x1536x2048 ![] bcast_S_S8x1536x2048 main_cst
  let main_v2 : IVec S8x1536x2048 1 := cmpf .olt main_v0 main_v1
  let main_c : IVec S_ 1 := constantI S_ 1 1#1
  let main_v3 : IVec S_ 1 := (fun x v => Host.reduce IntOp.andi x v reducesTo_S8x1536x2048_S_d0_1_2 h_S_) main_v2 main_c
  let main_v4 : FVec F S8x2048x2816 .f32 := Host.absf main_arg1
  let main_cst_0 : FVec F S_ .f32 := constant S_ .f32 0x7F800000#32
  let main_v5 : FVec F S8x2048x2816 .f32 := broadcastInDim S8x2048x2816 ![] bcast_S_S8x2048x2816 main_cst_0
  let main_v6 : IVec S8x2048x2816 1 := cmpf .olt main_v4 main_v5
  let main_c_1 : IVec S_ 1 := constantI S_ 1 1#1
  let main_v7 : IVec S_ 1 := (fun x v => Host.reduce IntOp.andi x v reducesTo_S8x2048x2816_S_d0_1_2 h_S_) main_v6 main_c_1
  let main_v8 : IVec S_ 1 := andi main_v3 main_v7
  let main_v9 : FVec F S8x1408x2048 .f32 := Host.absf main_arg2
  let main_cst_2 : FVec F S_ .f32 := constant S_ .f32 0x7F800000#32
  let main_v10 : FVec F S8x1408x2048 .f32 := broadcastInDim S8x1408x2048 ![] bcast_S_S8x1408x2048 main_cst_2
  let main_v11 : IVec S8x1408x2048 1 := cmpf .olt main_v9 main_v10
  let main_c_3 : IVec S_ 1 := constantI S_ 1 1#1
  let main_v12 : IVec S_ 1 := (fun x v => Host.reduce IntOp.andi x v reducesTo_S8x1408x2048_S_d0_1_2 h_S_) main_v11 main_c_3
  let main_v13 : IVec S_ 1 := andi main_v8 main_v12
  main_v13
-- ==== Kernel.lean ====
abbrev S8x1536x2048 : Shape := ⟨3, ![8, 1536, 2048]⟩
abbrev S8x2048x2816 : Shape := ⟨3, ![8, 2048, 2816]⟩
abbrev S8x1408x2048 : Shape := ⟨3, ![8, 1408, 2048]⟩
abbrev S8x1536x1408 : Shape := ⟨3, ![8, 1536, 1408]⟩
abbrev S1x512x512 : Shape := ⟨3, ![1, 512, 512]⟩
abbrev S1x512x1408 : Shape := ⟨3, ![1, 512, 1408]⟩
abbrev S512x1408 : Shape := ⟨2, ![512, 1408]⟩
abbrev S512x512 : Shape := ⟨2, ![512, 512]⟩
abbrev S1x1408x2048 : Shape := ⟨3, ![1, 1408, 2048]⟩
abbrev S1x512x2048 : Shape := ⟨3, ![1, 512, 2048]⟩
abbrev S1408x2048 : Shape := ⟨2, ![1408, 2048]⟩
abbrev S512x2048 : Shape := ⟨2, ![512, 2048]⟩

abbrev nBuf : Space → Nat
  | .hbm => 5
  | .vmem => 16
  | .smem => 0
  | _ => 0

abbrev bufTy : (tb : Table) → Fin (tcTables nBuf tb) → BufTy
  | .hbm, ⟨0, _⟩ => ⟨S8x1536x2048, .f32⟩
  | .hbm, ⟨1, _⟩ => ⟨S8x2048x2816, .f32⟩
  | .hbm, ⟨2, _⟩ => ⟨S8x1408x2048, .f32⟩
  | .hbm, ⟨3, _⟩ => ⟨S8x1536x1408, .bf16⟩
  | .hbm, ⟨4, _⟩ => ⟨S8x1536x2048, .f32⟩
  | .local _ .vmem, ⟨0, _⟩ => ⟨S1x512x512, .f32⟩
  | .local _ .vmem, ⟨1, _⟩ => ⟨S1x512x512, .f32⟩
  | .local _ .vmem, ⟨2, _⟩ => ⟨S1x512x1408, .f32⟩
  | .local _ .vmem, ⟨3, _⟩ => ⟨S1x512x1408, .f32⟩
  | .local _ .vmem, ⟨4, _⟩ => ⟨S1x512x1408, .f32⟩
  | .local _ .vmem, ⟨5, _⟩ => ⟨S1x512x1408, .f32⟩
  | .local _ .vmem, ⟨6, _⟩ => ⟨S1x512x1408, .bf16⟩
  | .local _ .vmem, ⟨7, _⟩ => ⟨S1x512x1408, .bf16⟩
  | .local _ .vmem, ⟨8, _⟩ => ⟨S512x1408, .f32⟩
  | .local _ .vmem, ⟨9, _⟩ => ⟨S512x1408, .f32⟩
  | .local _ .vmem, ⟨10, _⟩ => ⟨S1x512x1408, .bf16⟩
  | .local _ .vmem, ⟨11, _⟩ => ⟨S1x512x1408, .bf16⟩
  | .local _ .vmem, ⟨12, _⟩ => ⟨S1x1408x2048, .f32⟩
  | .local _ .vmem, ⟨13, _⟩ => ⟨S1x1408x2048, .f32⟩
  | .local _ .vmem, ⟨14, _⟩ => ⟨S1x512x2048, .f32⟩
  | .local _ .vmem, ⟨15, _⟩ => ⟨S1x512x2048, .f32⟩
  | _, _ => ⟨S8x1536x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_scratch1 : Ref sig .tc := ⟨.vmem, 9, rfl⟩
abbrev cc1_stg0_0 : Ref sig .tc := ⟨.vmem, 10, rfl⟩
abbrev cc1_stg0_1 : Ref sig .tc := ⟨.vmem, 11, rfl⟩
abbrev cc1_stg1_0 : Ref sig .tc := ⟨.vmem, 12, rfl⟩
abbrev cc1_stg1_1 : Ref sig .tc := ⟨.vmem, 13, rfl⟩
abbrev cc1_stg2_0 : Ref sig .tc := ⟨.vmem, 14, rfl⟩
abbrev cc1_stg2_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc1_sem0_0 : DmaSem sig := 8
abbrev cc1_sem0_1 : DmaSem sig := 9
abbrev cc1_sem1_0 : DmaSem sig := 10
abbrev cc1_sem1_1 : DmaSem sig := 11
abbrev cc1_sem2_0 : DmaSem sig := 12
abbrev cc1_sem2_1 : DmaSem sig := 13

abbrev nD : Nat := 1
abbrev τ : Topo := Topo.v7x

variable {F : FTy → Type} [FloatOps F]

abbrev grid0 : Pipeline.Grid := ⟨3, ![8, 3, 4], ![false, false, false]⟩

def k0_cond2 (i : grid0.Coords) : BitVec 1 :=
  let arg2 : BitVec 32 := BitVec.ofNat 32 (i 2).val
  let c3_i32 : BitVec 32 := 3#32
  let v24 : BitVec 1 := Scalar.cmpi .eq arg2 c3_i32
  let v25 : BitVec 32 := Scalar.extui v24
  let c0_i32_18 : BitVec 32 := 0#32
  let v26 : BitVec 1 := Scalar.cmpi .ne v25 c0_i32_18
  v26

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg2.toNat, c0_i32.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let c0_i32 : BitVec 32 := 0#32
  ![arg0.toNat, arg2.toNat, c1_i32.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

abbrev stage0_0 : Fin 2 → Memref sig .tc .vmem S1x512x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S1x512x1408 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 2 → Memref sig .tc .vmem S1x512x1408 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false, true]

abbrev stage0_3 : Fin 2 → Memref sig .tc .vmem S1x512x1408 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

abbrev grid1 : Pipeline.Grid := ⟨2, ![8, 3], ![false, false]⟩

def cc1_transform_0 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc1_transform_1 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc1_transform_2 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage1_0 : Fin 2 → Memref sig .tc .vmem S1x512x1408 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 2 → Memref sig .tc .vmem S1x1408x2048 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, false]

abbrev stage1_2 : Fin 2 → Memref sig .tc .vmem S1x512x2048 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true]

class Facts₀ : Prop where
  inb_S512x1408_S512x1408_0_0 : ∀ a, (![0, 0] : Fin 2 → Nat) a + S512x1408.size a ≤ S512x1408.size a
  h_S512x1408 : 0 < S512x1408.numel
  shapeCasts_S512x1408_S512x1408 : S512x1408.ShapeCasts S512x1408
  inb_S1x512x512_S1x512x512_0_0_0 : ∀ a, (![0, 0, 0] : Fin 3 → Nat) a + S1x512x512.size a ≤ S1x512x512.size a
  h_S1x512x512 : 0 < S1x512x512.numel
  shapeCasts_S1x512x512_S512x512 : S1x512x512.ShapeCasts S512x512
  bitsLt_bf16_f32 : FTy.bits .bf16 < FTy.bits .f32
  inb_S1x512x1408_S1x512x1408_0_0_0 : ∀ a, (![0, 0, 0] : Fin 3 → Nat) a + S1x512x1408.size a ≤ S1x512x1408.size a
  h_S1x512x1408 : 0 < S1x512x1408.numel
  shapeCasts_S1x512x1408_S512x1408 : S1x512x1408.ShapeCasts S512x1408
  shapeCasts_S512x1408_S1x512x1408 : S512x1408.ShapeCasts S1x512x1408
  packedbf16_S1x512x1408_S1x512x1408_0_0_0 : (Rect.unit (s := S1x512x1408) ![0, 0, 0] S1x512x1408.size inb_S1x512x1408_S1x512x1408_0_0_0).PackedRows (EltTy.packing .bf16)
  inb_S1x1408x2048_S1x1408x2048_0_0_0 : ∀ a, (![0, 0, 0] : Fin 3 → Nat) a + S1x1408x2048.size a ≤ S1x1408x2048.size a
  h_S1x1408x2048 : 0 < S1x1408x2048.numel
  shapeCasts_S1x1408x2048_S1408x2048 : S1x1408x2048.ShapeCasts S1408x2048
  inb_S1x512x2048_S1x512x2048_0_0_0 : ∀ a, (![0, 0, 0] : Fin 3 → Nat) a + S1x512x2048.size a ≤ S1x512x2048.size a
  h_S1x512x2048 : 0 < S1x512x2048.numel
  shapeCasts_S1x512x2048_S512x2048 : S1x512x2048.ShapeCasts S512x2048
  shapeCasts_S512x2048_S1x512x2048 : S512x2048.ShapeCasts S1x512x2048
  dot_S512x512_S512x1408_S512x1408_1_0_0_1_n_n_wf : DotDims.WF S512x512 S512x1408 S512x1408 [1] [0] [0] [1] [] []
  dot_S512x1408_S1408x2048_S512x2048_1_0_0_1_n_n_wf : DotDims.WF S512x1408 S1408x2048 S512x2048 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x512x512.size a ≤ S8x1536x2048.size a
  hwx0_0 : ∀ i : grid0.Coords, EltTy.bits .f32 = 32 ∨ (Rect.block (s := S8x1536x2048) S1x512x512.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x512x1408.size a ≤ S8x2048x2816.size a
  hwx0_1 : ∀ i : grid0.Coords, EltTy.bits .f32 = 32 ∨ (Rect.block (s := S8x2048x2816) S1x512x1408.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x512x1408.size a ≤ S8x2048x2816.size a
  hwx0_2 : ∀ i : grid0.Coords, EltTy.bits .f32 = 32 ∨ (Rect.block (s := S8x2048x2816) S1x512x1408.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x512x1408.size a ≤ S8x1536x1408.size a
  hwx0_3 : ∀ i : grid0.Coords, EltTy.bits .bf16 = 32 ∨ (Rect.block (s := S8x1536x1408) S1x512x1408.size (cc0_transform_3 i) (hinb0_3 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1x512x1408.size a ≤ S8x1536x1408.size a
  hwx1_0 : ∀ i : grid1.Coords, EltTy.bits .bf16 = 32 ∨ (Rect.block (s := S8x1536x1408) S1x512x1408.size (cc1_transform_0 i) (hinb1_0 i)).WholeWords (EltTy.packing .bf16)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1x1408x2048.size a ≤ S8x1408x2048.size a
  hwx1_1 : ∀ i : grid1.Coords, EltTy.bits .f32 = 32 ∨ (Rect.block (s := S8x1408x2048) S1x1408x2048.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1x512x2048.size a ≤ S8x1536x2048.size a
  hwx1_2 : ∀ i : grid1.Coords, EltTy.bits .f32 = 32 ∨ (Rect.block (s := S8x1536x2048) S1x512x2048.size (cc1_transform_2 i) (hinb1_2 i)).WholeWords (EltTy.packing .f32)

variable [Facts₀]

def dot_S512x512_S512x1408_S512x1408_1_0_0_1_n_n : DotDims S512x512 S512x1408 S512x1408 where
  lhsContracting := [1]
  rhsContracting := [0]
  lhsNonContracting := [0]
  rhsNonContracting := [1]
  lhsBatch := []
  rhsBatch := []
  wf := dot_S512x512_S512x1408_S512x1408_1_0_0_1_n_n_wf
def dot_S512x1408_S1408x2048_S512x2048_1_0_0_1_n_n : DotDims S512x1408 S1408x2048 S512x2048 where
  lhsContracting := [1]
  rhsContracting := [0]
  lhsNonContracting := [0]
  rhsNonContracting := [1]
  lhsBatch := []
  rhsBatch := []
  wf := dot_S512x1408_S1408x2048_S512x2048_1_0_0_1_n_n_wf

abbrev win0_0 : Pipeline.Window sig grid0 :=
  Pipeline.Window.ofSpec (Memref.whole main_arg0) S1x512x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1x512x1408.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg1) S1x512x1408.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v0) S1x512x1408.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev idle0 : Fin 4 → grid0.Coords → Bool := fun | 0 => fun _ => false | 1 => fun _ => false | 2 => fun _ => false | 3 => fun i => !(k0_cond2 i == 1#1) | ⟨_ + 4, h⟩ => absurd h (Nat.not_lt.2 (Nat.le_add_left _ _))

abbrev win1_0 : Pipeline.Window sig grid1 :=
  Pipeline.Window.ofSpec (Memref.whole main_v0) S1x512x1408.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg2) S1x1408x2048.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v1) S1x512x2048.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

class Facts : Prop extends Facts₀ where

variable [Facts]
-- ==== ReferenceIdeal.lean ====
abbrev S8x1536x2048 : Shape := ⟨3, ![8, 1536, 2048]⟩
abbrev S8x2048x2816 : Shape := ⟨3, ![8, 2048, 2816]⟩
abbrev S8x1408x2048 : Shape := ⟨3, ![8, 1408, 2048]⟩
abbrev S8x1536x2816 : Shape := ⟨3, ![8, 1536, 2816]⟩
abbrev S8x1536x1408 : Shape := ⟨3, ![8, 1536, 1408]⟩
abbrev S_ : Shape := ⟨0, ![]⟩

abbrev nBuf : Space → Nat
  | .hbm => 17
  | .vmem => 0
  | .smem => 0
  | _ => 0

abbrev bufTy : (tb : Table) → Fin (tcTables nBuf tb) → BufTy
  | .hbm, ⟨0, _⟩ => ⟨S8x1536x2048, .f32⟩
  | .hbm, ⟨1, _⟩ => ⟨S8x2048x2816, .f32⟩
  | .hbm, ⟨2, _⟩ => ⟨S8x1408x2048, .f32⟩
  | .hbm, ⟨3, _⟩ => ⟨S8x1536x2816, .f32⟩
  | .hbm, ⟨4, _⟩ => ⟨S8x1536x1408, .f32⟩
  | .hbm, ⟨5, _⟩ => ⟨S8x1536x1408, .f32⟩
  | .hbm, ⟨6, _⟩ => ⟨S8x1536x1408, .f32⟩
  | .hbm, ⟨7, _⟩ => ⟨S8x1536x1408, .f32⟩
  | .hbm, ⟨8, _⟩ => ⟨S_, .f32⟩
  | .hbm, ⟨9, _⟩ => ⟨S8x1536x1408, .f32⟩
  | .hbm, ⟨10, _⟩ => ⟨S8x1536x1408, .f32⟩
  | .hbm, ⟨11, _⟩ => ⟨S_, .f32⟩
  | .hbm, ⟨12, _⟩ => ⟨S8x1536x1408, .f32⟩
  | .hbm, ⟨13, _⟩ => ⟨S8x1536x1408, .f32⟩
  | .hbm, ⟨14, _⟩ => ⟨S8x1536x1408, .f32⟩
  | .hbm, ⟨15, _⟩ => ⟨S8x1536x1408, .f32⟩
  | .hbm, ⟨16, _⟩ => ⟨S8x1536x2048, .f32⟩
  | _, _ => ⟨S8x1536x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_call0_v0 : Ref sig .tc := ⟨.hbm, 6, rfl⟩
abbrev main_call0_v1 : Ref sig .tc := ⟨.hbm, 7, rfl⟩
abbrev main_call0_cst : Ref sig .tc := ⟨.hbm, 8, rfl⟩
abbrev main_call0_v2 : Ref sig .tc := ⟨.hbm, 9, rfl⟩
abbrev main_call0_v3 : Ref sig .tc := ⟨.hbm, 10, rfl⟩
abbrev main_call0_cst_0 : Ref sig .tc := ⟨.hbm, 11, rfl⟩
abbrev main_call0_v4 : Ref sig .tc := ⟨.hbm, 12, rfl⟩
abbrev main_call0_v5 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩

abbrev nD : Nat := 1
abbrev τ : Topo := Topo.v7x

variable {F : FTy → Type} [FloatOps F]

class Facts₀ : Prop where
  slices_S8x1536x2816_S8x1536x1408_0_0_0 : S8x1536x2816.Slices ![0, 0, 0] S8x1536x1408
  slices_S8x1536x2816_S8x1536x1408_0_0_1408 : S8x1536x2816.Slices ![0, 0, 1408] S8x1536x1408
  bcast_S_S8x1536x1408 : S_.BroadcastsInDim S8x1536x1408 (![] : Fin 0 → Fin S8x1536x1408.rank)
  dot_S8x1536x2048_S8x2048x2816_S8x1536x2816_2_1_1_2_0_0_wf : DotDims.WF S8x1536x2048 S8x2048x2816 S8x1536x2816 [2] [1] [1] [2] [0] [0]
  dot_S8x1536x1408_S8x1408x2048_S8x1536x2048_2_1_1_2_0_0_wf : DotDims.WF S8x1536x1408 S8x1408x2048 S8x1536x2048 [2] [1] [1] [2] [0] [0]

variable [Facts₀]

def dot_S8x1536x2048_S8x2048x2816_S8x1536x2816_2_1_1_2_0_0 : DotDims S8x1536x2048 S8x2048x2816 S8x1536x2816 where
  lhsContracting := [2]
  rhsContracting := [1]
  lhsNonContracting := [1]
  rhsNonContracting := [2]
  lhsBatch := [0]
  rhsBatch := [0]
  wf := dot_S8x1536x2048_S8x2048x2816_S8x1536x2816_2_1_1_2_0_0_wf
def dot_S8x1536x1408_S8x1408x2048_S8x1536x2048_2_1_1_2_0_0 : DotDims S8x1536x1408 S8x1408x2048 S8x1536x2048 where
  lhsContracting := [2]
  rhsContracting := [1]
  lhsNonContracting := [1]
  rhsNonContracting := [2]
  lhsBatch := [0]
  rhsBatch := [0]
  wf := dot_S8x1536x1408_S8x1408x2048_S8x1536x2048_2_1_1_2_0_0_wf

class Facts : Prop extends Facts₀ where

variable [Facts]
-- ==== Proof.Region0BodyBits.lean ====
import proofs.«167459_j88605175316749_1_alg».proof.Proof.Gen.Kernel.Launch
import proofs.«167459_j88605175316749_1_alg».proof.Proof.Gen.Kernel.Skeleton
import proofs.«167459_j88605175316749_1_alg».proof.Proof.Gen.Kernel.Points
import Idealize.ShloMosaic.Lib.Pipeline.FrameBody
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.Kernel.R0

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

/-! # The accumulating kernel's body, one grid point at a time

The body at grid point (g, m, k): at k = 0 it first zeroes its two accumulators; at every k it adds to each accumulator
the product of the point's x-tile with the point's gate (resp. up) weight tile; at k = 3 it stores the gated product
of the two finished accumulators into its output block. Three cases of the two conditions meet on the grid. -/

/-- "k = 0", as the body computes it from the grid coordinates. -/
abbrev condFirst (i : grid0.Coords) : Prop := (Scalar.cmpi .ne (Scalar.extui (Scalar.cmpi .eq (BitVec.ofNat 32 (i 2).val) 0#32)) 0#32) = 1#1
/-- "k = 3", as the body computes it. -/
abbrev condLast (i : grid0.Coords) : Prop := k0_cond2 i = 1#1

theorem hz2 : (![0, 0] : Fin 2 → ℕ) = fun _ => 0 := by funext a; fin_cases a <;> rfl
theorem hz3 : (![0, 0, 0] : Fin 3 → ℕ) = fun _ => 0 := by funext a; fin_cases a <;> rfl

/-- A store through the whole-buffer rectangle, made last and read back, is its payload. -/
theorem read_store_whole {S : Shape} {κ : Kind} {sp : Space} {e : EltTy} (v : View sig κ sp S e) (f : v.ty.Contents (Elt F))
    {off : Fin S.rank → ℕ} (h : off = fun _ => 0) (inb : ∀ a, off a + S.size a ≤ S.size a) (w : S.Idx → Elt F e)
    (L : List (View.Piece (Elt F) S e)) :
    v.read (Elt F) (v.writes (Elt F) f (⟨Rect.unit (s := S) off S.size inb, w⟩ :: L)) = w := by
  subst h
  rw [View.read_writes_eq_canon _ _ _ (fun y => ⟨_, List.mem_cons_self, by
    show y ∈ (Rect.whole S).set; rw [Rect.set_whole]; exact Finset.mem_univ y⟩)]
  exact View.canon_cons_unit_zero rfl _ _ _

theorem read_store_whole2 {κ : Kind} {sp : Space} {e : EltTy} (v : View sig κ sp S512x1408 e) (f : v.ty.Contents (Elt F)) (w : S512x1408.Idx → Elt F e)
    (L : List (View.Piece (Elt F) S512x1408 e)) :
    v.read (Elt F) (v.writes (Elt F) f (⟨Rect.unit (s := S512x1408) ![0, 0] S512x1408.size inb_S512x1408_S512x1408_0_0, w⟩ :: L)) = w :=
  read_store_whole v f hz2 _ w L
theorem read_store_whole3 {κ : Kind} {sp : Space} {e : EltTy} (v : View sig κ sp S1x512x1408 e) (f : v.ty.Contents (Elt F)) (w : S1x512x1408.Idx → Elt F e)
    (L : List (View.Piece (Elt F) S1x512x1408 e)) :
    v.read (Elt F) (v.writes (Elt F) f (⟨Rect.unit (s := S1x512x1408) ![0, 0, 0] S1x512x1408.size inb_S1x512x1408_S1x512x1408_0_0_0, w⟩ :: L)) = w :=
  read_store_whole v f hz3 _ w L

set_option maxHeartbeats 1000000 in
/-- k = 0: the accumulators, whatever they held, end at the first tile's products added to zeros. -/
theorem run_first (c : Dev nD) (i : grid0.Coords)
    (arg3 : Memref sig .tc .vmem S1x512x512 .f32) (harg3 : arg3.IsWhole) (arg4 : Memref sig .tc .vmem S1x512x1408 .f32) (harg4 : arg4.IsWhole)
    (arg5 : Memref sig .tc .vmem S1x512x1408 .f32) (harg5 : arg5.IsWhole) (arg6 : Memref sig .tc .vmem S1x512x1408 .bf16) (harg6 : arg6.IsWhole)
    (arg7 : Memref sig .tc .vmem S512x1408 .f32) (harg7 : arg7.IsWhole) (arg8 : Memref sig .tc .vmem S512x1408 .f32) (harg8 : arg8.IsWhole)
    (hc0 : condFirst i) (hc1 : ¬ condLast i)
    (x0 : Vec F S1x512x512 .f32) (x1 x2 : Vec F S1x512x1408 .f32) (xi3 : Vec F S1x512x1408 .bf16)
    (E : Set ℕ) (K : PUnit → sProp 𝕄) :
    iprop(owns (c : Thread nD τ) arg3 fullShare x0 ∗ owns (c : Thread nD τ) arg4 fullShare x1 ∗ owns (c : Thread nD τ) arg5 fullShare x2
        ∗ owns (c : Thread nD τ) arg6 fullShare xi3 ∗ (∃ d, owns (c : Thread nD τ) arg7 fullShare d) ∗ (∃ d, owns (c : Thread nD τ) arg8 fullShare d)
        ∗ (iprop(owns (c : Thread nD τ) arg3 fullShare x0 ∗ owns (c : Thread nD τ) arg4 fullShare x1 ∗ owns (c : Thread nD τ) arg5 fullShare x2
            ∗ owns (c : Thread nD τ) arg6 fullShare xi3 ∗ owns (c : Thread nD τ) arg7 fullShare (k0_pay4 x0 x1 k0_pay1)
            ∗ owns (c : Thread nD τ) arg8 fullShare (k0_pay5 x0 x2 k0_pay2)) -∗ K ⟨⟩))
      ⊢ wp frame (wpE (defs₀ (F := F)) Variants.none c none) E (cc0__kernel_a i arg3 harg3 arg4 harg4 arg5 harg5 arg6 harg6 arg7 harg7 arg8 harg8) K := by
  simp only [cc0__kernel_a_eq_skeleton]; unfold cc0__kernel_a_skel
  unfold owns
  iintro ⟨⟨%f0, %hf0, H0⟩, ⟨%f1, %hf1, H1⟩, ⟨%f2, %hf2, H2⟩, ⟨%f3, %hf3, H3⟩, ⟨%d7, %f7, %hf7, H7⟩, ⟨%d8, %f8, %hf8, H8⟩, Hk⟩
  subst hf0; subst hf1; subst hf2; subst hf3
  sl_exec (disch := first | exact hc0 | exact hc1)
  sl_step
  iapply Hk
  isplitl [H0]
  · iexists _; isplitr; · ipureintro; rfl
    iexact H0
  isplitl [H1]
  · iexists _; isplitr; · ipureintro; rfl
    iexact H1
  isplitl [H2]
  · iexists _; isplitr; · ipureintro; rfl
    iexact H2
  isplitl [H3]
  · iexists _; isplitr; · ipureintro; rfl
    iexact H3
  isplitl [H7]
  · iexists _; isplitr
    swap; · iexact H7
    ipureintro
    refine (read_store_whole2 _ _ _ _).trans ?_
    sl_unfold_words
    simp only [View.readAt_eq_ld, View.ld_unit_zero (S := S1x512x512) hz3, View.ld_unit_zero (S := S1x512x1408) hz3,
      View.ld_unit_zero (S := S512x1408) hz2, View.readCov_unit_zero (S := S512x1408) _ hz2]
  iexists _; isplitr
  swap; · iexact H8
  · ipureintro
    refine (read_store_whole2 _ _ _ _).trans ?_
    sl_unfold_words
    simp only [View.readAt_eq_ld, View.ld_unit_zero (S := S1x512x512) hz3, View.ld_unit_zero (S := S1x512x1408) hz3,
      View.ld_unit_zero (S := S512x1408) hz2, View.readCov_unit_zero (S := S512x1408) _ hz2]

set_option maxHeartbeats 1000000 in
/-- 0 < k < 3: each accumulator gains the tile's product. -/
theorem run_mid (c : Dev nD) (i : grid0.Coords)
    (arg3 : Memref sig .tc .vmem S1x512x512 .f32) (harg3 : arg3.IsWhole) (arg4 : Memref sig .tc .vmem S1x512x1408 .f32) (harg4 : arg4.IsWhole)
    (arg5 : Memref sig .tc .vmem S1x512x1408 .f32) (harg5 : arg5.IsWhole) (arg6 : Memref sig .tc .vmem S1x512x1408 .bf16) (harg6 : arg6.IsWhole)
    (arg7 : Memref sig .tc .vmem S512x1408 .f32) (harg7 : arg7.IsWhole) (arg8 : Memref sig .tc .vmem S512x1408 .f32) (harg8 : arg8.IsWhole)
    (hc0 : ¬ condFirst i) (hc1 : ¬ condLast i)
    (x0 : Vec F S1x512x512 .f32) (x1 x2 : Vec F S1x512x1408 .f32) (xi3 : Vec F S1x512x1408 .bf16) (s0 s1 : Vec F S512x1408 .f32)
    (E : Set ℕ) (K : PUnit → sProp 𝕄) :
    iprop(owns (c : Thread nD τ) arg3 fullShare x0 ∗ owns (c : Thread nD τ) arg4 fullShare x1 ∗ owns (c : Thread nD τ) arg5 fullShare x2
        ∗ owns (c : Thread nD τ) arg6 fullShare xi3 ∗ owns (c : Thread nD τ) arg7 fullShare s0 ∗ owns (c : Thread nD τ) arg8 fullShare s1
        ∗ (iprop(owns (c : Thread nD τ) arg3 fullShare x0 ∗ owns (c : Thread nD τ) arg4 fullShare x1 ∗ owns (c : Thread nD τ) arg5 fullShare x2
            ∗ owns (c : Thread nD τ) arg6 fullShare xi3 ∗ owns (c : Thread nD τ) arg7 fullShare (k0_pay4 x0 x1 s0)
            ∗ owns (c : Thread nD τ) arg8 fullShare (k0_pay5 x0 x2 s1)) -∗ K ⟨⟩))
      ⊢ wp frame (wpE (defs₀ (F := F)) Variants.none c none) E (cc0__kernel_a i arg3 harg3 arg4 harg4 arg5 harg5 arg6 harg6 arg7 harg7 arg8 harg8) K := by
  simp only [cc0__kernel_a_eq_skeleton]; unfold cc0__kernel_a_skel
  unfold owns
  iintro ⟨⟨%f0, %hf0, H0⟩, ⟨%f1, %hf1, H1⟩, ⟨%f2, %hf2, H2⟩, ⟨%f3, %hf3, H3⟩, ⟨%f7, %hf7, H7⟩, ⟨%f8, %hf8, H8⟩, Hk⟩
  subst hf0; subst hf1; subst hf2; subst hf3; subst hf7; subst hf8
  sl_exec (disch := first | exact hc0 | exact hc1)
  sl_step
  iapply Hk
  isplitl [H0]
  · iexists _; isplitr; · ipureintro; rfl
    iexact H0
  isplitl [H1]
  · iexists _; isplitr; · ipureintro; rfl
    iexact H1
  isplitl [H2]
  · iexists _; isplitr; · ipureintro; rfl
    iexact H2
  isplitl [H3]
  · iexists _; isplitr; · ipureintro; rfl
    iexact H3
  isplitl [H7]
  · iexists _; isplitr
    swap; · iexact H7
    ipureintro
    refine (read_store_whole2 _ _ _ _).trans ?_
    sl_unfold_words
    simp only [View.readAt_eq_ld, View.ld_unit_zero (S := S1x512x512) hz3, View.ld_unit_zero (S := S1x512x1408) hz3,
      View.ld_unit_zero (S := S512x1408) hz2, View.readCov_unit_zero (S := S512x1408) _ hz2]
  iexists _; isplitr
  swap; · iexact H8
  · ipureintro
    refine (read_store_whole2 _ _ _ _).trans ?_
    sl_unfold_words
    simp only [View.readAt_eq_ld, View.ld_unit_zero (S := S1x512x512) hz3, View.ld_unit_zero (S := S1x512x1408) hz3,
      View.ld_unit_zero (S := S512x1408) hz2, View.readCov_unit_zero (S := S512x1408) _ hz2]

set_option maxHeartbeats 1000000 in
/-- k = 3: each accumulator gains the last tile's product, and the output block takes the gated product of the two. -/
theorem run_last (c : Dev nD) (i : grid0.Coords)
    (arg3 : Memref sig .tc .vmem S1x512x512 .f32) (harg3 : arg3.IsWhole) (arg4 : Memref sig .tc .vmem S1x512x1408 .f32) (harg4 : arg4.IsWhole)
    (arg5 : Memref sig .tc .vmem S1x512x1408 .f32) (harg5 : arg5.IsWhole) (arg6 : Memref sig .tc .vmem S1x512x1408 .bf16) (harg6 : arg6.IsWhole)
    (arg7 : Memref sig .tc .vmem S512x1408 .f32) (harg7 : arg7.IsWhole) (arg8 : Memref sig .tc .vmem S512x1408 .f32) (harg8 : arg8.IsWhole)
    (hc0 : ¬ condFirst i) (hc1 : condLast i)
    (x0 : Vec F S1x512x512 .f32) (x1 x2 : Vec F S1x512x1408 .f32) (s0 s1 : Vec F S512x1408 .f32)
    (E : Set ℕ) (K : PUnit → sProp 𝕄) :
    iprop(owns (c : Thread nD τ) arg3 fullShare x0 ∗ owns (c : Thread nD τ) arg4 fullShare x1 ∗ owns (c : Thread nD τ) arg5 fullShare x2
        ∗ (∃ d, owns (c : Thread nD τ) arg6 fullShare d) ∗ owns (c : Thread nD τ) arg7 fullShare s0 ∗ owns (c : Thread nD τ) arg8 fullShare s1
        ∗ (iprop(owns (c : Thread nD τ) arg3 fullShare x0 ∗ owns (c : Thread nD τ) arg4 fullShare x1 ∗ owns (c : Thread nD τ) arg5 fullShare x2
            ∗ owns (c : Thread nD τ) arg6 fullShare (k0_pay6 (k0_pay4 x0 x1 s0) (k0_pay5 x0 x2 s1)) ∗ owns (c : Thread nD τ) arg7 fullShare (k0_pay4 x0 x1 s0)
            ∗ owns (c : Thread nD τ) arg8 fullShare (k0_pay5 x0 x2 s1)) -∗ K ⟨⟩))
      ⊢ wp frame (wpE (defs₀ (F := F)) Variants.none c none) E (cc0__kernel_a i arg3 harg3 arg4 harg4 arg5 harg5 arg6 harg6 arg7 harg7 arg8 harg8) K := by
  simp only [cc0__kernel_a_eq_skeleton]; unfold cc0__kernel_a_skel
  unfold owns
  iintro ⟨⟨%f0, %hf0, H0⟩, ⟨%f1, %hf1, H1⟩, ⟨%f2, %hf2, H2⟩, ⟨%d3, %f3, %hf3, H3⟩, ⟨%f7, %hf7, H7⟩, ⟨%f8, %hf8, H8⟩, Hk⟩
  subst hf0; subst hf1; subst hf2; subst hf7; subst hf8
  sl_exec (disch := first | exact hc0 | exact hc1)
  sl_step
  iapply Hk
  isplitl [H0]
  · iexists _; isplitr; · ipureintro; rfl
    iexact H0
  isplitl [H1]
  · iexists _; isplitr; · ipureintro; rfl
    iexact H1
  isplitl [H2]
  · iexists _; isplitr; · ipureintro; rfl
    iexact H2
  isplitl [H3]
  · iexists _; isplitr
    swap; · iexact H3
    ipureintro
    refine (read_store_whole3 _ _ _ _).trans ?_
    sl_unfold_words
    simp only [View.readAt_eq_ld, View.ld_unit_zero (S := S1x512x512) hz3, View.ld_unit_zero (S := S1x512x1408) hz3,
      View.ld_unit_zero (S := S512x1408) hz2, View.readCov_unit_zero (S := S512x1408) _ hz2]
  isplitl [H7]
  · iexists _; isplitr
    swap; · iexact H7
    ipureintro
    refine (read_store_whole2 _ _ _ _).trans ?_
    sl_unfold_words
    simp only [View.readAt_eq_ld, View.ld_unit_zero (S := S1x512x512) hz3, View.ld_unit_zero (S := S1x512x1408) hz3,
      View.ld_unit_zero (S := S512x1408) hz2, View.readCov_unit_zero (S := S512x1408) _ hz2]
  iexists _; isplitr
  swap; · iexact H8
  · ipureintro
    refine (read_store_whole2 _ _ _ _).trans ?_
    sl_unfold_words
    simp only [View.readAt_eq_ld, View.ld_unit_zero (S := S1x512x512) hz3, View.ld_unit_zero (S := S1x512x1408) hz3,
      View.ld_unit_zero (S := S512x1408) hz2, View.readCov_unit_zero (S := S512x1408) _ hz2]

end Cert.Kernel.R0
end
-- ==== Proof.Region0DatBits.lean ====
import proofs.«167459_j88605175316749_1_alg».proof.Proof.Gen.Kernel.Launch
import proofs.«167459_j88605175316749_1_alg».proof.Proof.Gen.Kernel.Skeleton
import proofs.«167459_j88605175316749_1_alg».proof.Proof.Gen.Kernel.Points
import proofs.«167459_j88605175316749_1_alg».proof.Proof.Region0BodyBits
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.Kernel.R0

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

/-! # The accumulating region's proof data

Grid point t = (g, m, k), k fastest. The two accumulators after point t hold the partial products over the tiles 0..k of
the point's row block; the output block is written (and written back) at k = 3 only. -/

variable (V : (c : Dev nD) → (b : Ref sig .tc) → Buf (Elt F) ((c : Thread nD τ).loc b))

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-! ## The conditions over the grid -/

theorem hcondFirst : ∀ t : Fin cfg0.N, condFirst (grid0.coords t) ↔ t.val % 4 = 0 :=
  (by decide +kernel : ∀ t : Fin grid0.N, condFirst (grid0.coords t) ↔ t.val % 4 = 0)
theorem hcondLast : ∀ t : Fin cfg0.N, condLast (grid0.coords t) ↔ t.val % 4 = 3 :=
  (by decide +kernel : ∀ t : Fin grid0.N, condLast (grid0.coords t) ↔ t.val % 4 = 3)
/-- Away from k = 3 the output window is idle and not written back; at k = 3 it is live. -/
theorem idleAt3 : ∀ t : Fin cfg0.N, ¬ condLast (grid0.coords t) → cfg0.idle 3 (grid0.coords t) = true := by decide +kernel
theorem noFlush3 : ∀ t : Fin cfg0.N, ¬ condLast (grid0.coords t) → (cfg0.win 3).flush t = false := by decide +kernel
theorem liveAt3 : ∀ t : Fin cfg0.N, condLast (grid0.coords t) → cfg0.idle 3 (grid0.coords t) = false := by decide +kernel

/-! ## The accumulators, point by point -/

/-- One point's contribution added to the gate accumulator `s`. -/
def stepG (c : Dev nD) (n : ℕ) (s : Vec F S512x1408 .f32) : Vec F S512x1408 .f32 :=
  if h : n < cfg0.N then k0_pay4 (iblk0 V c 0 ⟨n, h⟩) (iblk0 V c 1 ⟨n, h⟩) s else s
/-- One point's contribution added to the up accumulator `s`. -/
def stepU (c : Dev nD) (n : ℕ) (s : Vec F S512x1408 .f32) : Vec F S512x1408 .f32 :=
  if h : n < cfg0.N then k0_pay5 (iblk0 V c 0 ⟨n, h⟩) (iblk0 V c 2 ⟨n, h⟩) s else s

/-- The gate accumulator after point `n`: restarted from zeros where k = 0. -/
def accG (c : Dev nD) : ℕ → Vec F S512x1408 .f32
  | 0 => stepG V c 0 k0_pay1
  | n + 1 => if (n + 1) % 4 = 0 then stepG V c (n + 1) k0_pay1 else stepG V c (n + 1) (accG c n)
/-- The up accumulator after point `n`. -/
def accU (c : Dev nD) : ℕ → Vec F S512x1408 .f32
  | 0 => stepU V c 0 k0_pay2
  | n + 1 => if (n + 1) % 4 = 0 then stepU V c (n + 1) k0_pay2 else stepU V c (n + 1) (accU c n)

theorem accG_first (c : Dev nD) (t : Fin cfg0.N) (h : t.val % 4 = 0) :
    accG V c t.val = k0_pay4 (iblk0 V c 0 t) (iblk0 V c 1 t) k0_pay1 := by
  obtain ⟨n, hn⟩ := t
  cases n with
  | zero => unfold accG stepG; rw [dif_pos hn]
  | succ n => unfold accG stepG; rw [if_pos h, dif_pos hn]
theorem accG_next (c : Dev nD) (t : Fin cfg0.N) (h : t.val % 4 ≠ 0) :
    accG V c t.val = k0_pay4 (iblk0 V c 0 t) (iblk0 V c 1 t) (accG V c (t.val - 1)) := by
  obtain ⟨n, hn⟩ := t
  cases n with
  | zero => exact absurd rfl h
  | succ n => rw [accG]; unfold stepG; rw [if_neg h, dif_pos hn]; rfl
theorem accU_first (c : Dev nD) (t : Fin cfg0.N) (h : t.val % 4 = 0) :
    accU V c t.val = k0_pay5 (iblk0 V c 0 t) (iblk0 V c 2 t) k0_pay2 := by
  obtain ⟨n, hn⟩ := t
  cases n with
  | zero => unfold accU stepU; rw [dif_pos hn]
  | succ n => unfold accU stepU; rw [if_pos h, dif_pos hn]
theorem accU_next (c : Dev nD) (t : Fin cfg0.N) (h : t.val % 4 ≠ 0) :
    accU V c t.val = k0_pay5 (iblk0 V c 0 t) (iblk0 V c 2 t) (accU V c (t.val - 1)) := by
  obtain ⟨n, hn⟩ := t
  cases n with
  | zero => exact absurd rfl h
  | succ n => rw [accU]; unfold stepU; rw [if_neg h, dif_pos hn]; rfl

/-! ## The proof data -/

/-- The scoped buffers the kernel neither stages nor names (the other region's staging buffers), each at some contents. -/
def others (c : Dev nD) : sProp 𝕄 :=
  iprop((∃ f : Buf (Elt F) ((c : Thread nD τ).loc cc1_stg0_0), ((c : Thread nD τ).loc cc1_stg0_0) ↦{fullShare} f) ∗ (∃ f : Buf (Elt F) ((c : Thread nD τ).loc cc1_stg0_1), ((c : Thread nD τ).loc cc1_stg0_1) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg1_1), ((c : Thread nD τ).loc cc1_stg1_1) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg2_1), ((c : Thread nD τ).loc cc1_stg2_1) ↦{fullShare} f))

/-- The invariant before point `t`: the two accumulators hold what the point before left, unless `t` restarts them
    (k = 0), where they may hold anything; the other scoped buffers and the generator register ride along. -/
def inv0 (c : Dev nD) (t : Fin (cfg0.N + 1)) : sProp 𝕄 :=
  iprop((∃ s0 s1, ⌜t.val % 4 ≠ 0 → s0 = accG V c (t.val - 1) ∧ s1 = accU V c (t.val - 1)⌝
      ∗ owns (c : Thread nD τ) (Memref.whole cc0_scratch0 : Memref sig .tc .vmem S512x1408 .f32) fullShare s0
      ∗ owns (c : Thread nD τ) (Memref.whole cc0_scratch1 : Memref sig .tc .vmem S512x1408 .f32) fullShare s1)
    ∗ others (F := F) c ∗ ∃ r, prngReg c r)

/-- The proof data of the accumulating region on core `c`: the arrays as the region finds them; after the body each input
    buffer at its block, the output buffer at the gated product of the two accumulators; the two windows on the weight
    array each at half of it. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => k0_pay6 (accG V c t.val) (accU V c t.val)
  Φ t := inv0 V c t
  q w := match w with
    | ⟨0, _⟩ => fullShare
    | ⟨1, _⟩ => fullShare.left
    | ⟨2, _⟩ => fullShare.right
    | ⟨3, _⟩ => fullShare
  owed _ := 0

theorem A_eq0 (c : Dev nD) (w : Fin cfg0.W) : (dat0 V c).A w = V c (Pipeline.arrRef spec0 w) := by dsimp only [dat0]
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = k0_pay6 (accG V c t.val) (accU V c t.val) := by dsimp only [dat0]

/-- Each input's current staging buffer holds its block at every point. -/
theorem before0_0 (c : Dev nD) (t : Fin cfg0.N) (d) : (dat0 V c).before 0 t d = iblk0 V c 0 t :=
  ((dat0 V c).before_in_eq_fetched 0 rfl (fun _ => rfl) (fun _ _ _ => rfl) (fun t => by rw [after0_0]; unfold Dat.blockOf iblk0; rw [A_eq0]; try rfl) t d).trans
    (by unfold Dat.fetched Dat.blockOf iblk0; rw [A_eq0]; try rfl)
theorem before0_1 (c : Dev nD) (t : Fin cfg0.N) (d) : (dat0 V c).before 1 t d = iblk0 V c 1 t :=
  ((dat0 V c).before_in_eq_fetched 1 rfl (fun _ => rfl) (fun _ _ _ => rfl) (fun t => by rw [after0_1]; unfold Dat.blockOf iblk0; rw [A_eq0]; try rfl) t d).trans
    (by unfold Dat.fetched Dat.blockOf iblk0; rw [A_eq0]; try rfl)
theorem before0_2 (c : Dev nD) (t : Fin cfg0.N) (d) : (dat0 V c).before 2 t d = iblk0 V c 2 t :=
  ((dat0 V c).before_in_eq_fetched 2 rfl (fun _ => rfl) (fun _ _ _ => rfl) (fun t => by rw [after0_2]; unfold Dat.blockOf iblk0; rw [A_eq0]; try rfl) t d).trans
    (by unfold Dat.fetched Dat.blockOf iblk0; rw [A_eq0]; try rfl)

end Cert.Kernel.R0
end
-- ==== Proof.Region0OblBits.lean ====
import proofs.«167459_j88605175316749_1_alg».proof.Proof.Gen.Kernel.Launch
import proofs.«167459_j88605175316749_1_alg».proof.Proof.Gen.Kernel.Skeleton
import proofs.«167459_j88605175316749_1_alg».proof.Proof.Gen.Kernel.Points
import proofs.«167459_j88605175316749_1_alg».proof.Proof.Region0DatBits
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.Kernel.R0

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

/-! # The accumulating region's body obligation -/

variable (V : (c : Dev nD) → (b : Ref sig .tc) → Buf (Elt F) ((c : Thread nD τ).loc b))

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d)))

/-- what it returns where the output window is idle (k ≠ 3): the output buffer as it was handed, -/
def bodyPostIdle0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ (∃ d, owns (c : Thread nD τ) (st0_3 t) fullShare ((dat0 V c).before 3 t d)))

/-- and where it is live (k = 3): the output buffer at the gated product. -/
def bodyPostLive0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t))

theorem succ_sub (t : Fin cfg0.N) : t.succ.val - 1 = t.val := by simp

/-- k = 0. -/
theorem sound_first (c : Dev nD) (t : Fin cfg0.N) (h0 : condFirst (grid0.coords t)) (h1 : ¬ condLast (grid0.coords t)) :
    bodyPre0 V c t ⊢ wp frame (wpE (defs₀ (F := F)) Variants.none c none) Set.univ (bodyAt0 t) (fun _ => bodyPostIdle0 V c t) := by
  have ht : t.val % 4 = 0 := (hcondFirst t).mp h0
  unfold bodyPre0 bodyPostIdle0 bodyAt0
  simp only [before0_0, before0_1, before0_2]
  rw [show (dat0 V c).Φ t.castSucc = inv0 V c t.castSucc from rfl, show (dat0 V c).Φ t.succ = inv0 V c t.succ from rfl,
    show (dat0 V c).owesAt () t.succ = (dat0 V c).owesAt () t.castSucc from rfl, after0_0, after0_1, after0_2]
  unfold inv0
  iintro ⟨⟨⟨%s0, %s1, %hs, HS0, HS1⟩, Hoth, Hp⟩, Ho, ⟨%d0, H0⟩, ⟨%d1, H1⟩, ⟨%d2, H2⟩, ⟨%d3, H3⟩⟩
  iapply (run_first c (grid0.coords t) _ _ _ _ _ _ _ _ _ _ _ _ h0 h1 (iblk0 V c 0 t) (iblk0 V c 1 t) (iblk0 V c 2 t) ((dat0 V c).before 3 t d3) Set.univ _)
  isplitl [H0]; · iexact H0
  isplitl [H1]; · iexact H1
  isplitl [H2]; · iexact H2
  isplitl [H3]; · iexact H3
  isplitl [HS0]; · iexists _; iexact HS0
  isplitl [HS1]; · iexists _; iexact HS1
  iintro ⟨H0, H1, H2, H3, HS0, HS1⟩
  isplitl [HS0 HS1 Hoth Hp]
  · isplitl [HS0 HS1]
    · iexists _, _; isplitr
      swap; · isplitl [HS0] <;> iassumption
      ipureintro; intro _; rw [succ_sub]; exact ⟨(accG_first V c t ht).symm, (accU_first V c t ht).symm⟩
    isplitl [Hoth] <;> iassumption
  isplitl [Ho]; · iexact Ho
  isplitl [H0]; · iexact H0
  isplitl [H1]; · iexact H1
  isplitl [H2]; · iexact H2
  iexists _; iexact H3

/-- 0 < k < 3. -/
theorem sound_mid (c : Dev nD) (t : Fin cfg0.N) (h0 : ¬ condFirst (grid0.coords t)) (h1 : ¬ condLast (grid0.coords t)) :
    bodyPre0 V c t ⊢ wp frame (wpE (defs₀ (F := F)) Variants.none c none) Set.univ (bodyAt0 t) (fun _ => bodyPostIdle0 V c t) := by
  have ht : t.val % 4 ≠ 0 := fun e => h0 ((hcondFirst t).mpr e)
  unfold bodyPre0 bodyPostIdle0 bodyAt0
  simp only [before0_0, before0_1, before0_2]
  rw [show (dat0 V c).Φ t.castSucc = inv0 V c t.castSucc from rfl, show (dat0 V c).Φ t.succ = inv0 V c t.succ from rfl,
    show (dat0 V c).owesAt () t.succ = (dat0 V c).owesAt () t.castSucc from rfl, after0_0, after0_1, after0_2]
  unfold inv0
  iintro ⟨⟨⟨%s0, %s1, %hs, HS0, HS1⟩, Hoth, Hp⟩, Ho, ⟨%d0, H0⟩, ⟨%d1, H1⟩, ⟨%d2, H2⟩, ⟨%d3, H3⟩⟩
  obtain ⟨rfl, rfl⟩ := hs ht
  iapply (run_mid c (grid0.coords t) _ _ _ _ _ _ _ _ _ _ _ _ h0 h1 (iblk0 V c 0 t) (iblk0 V c 1 t) (iblk0 V c 2 t) ((dat0 V c).before 3 t d3) (accG V c (t.val - 1)) (accU V c (t.val - 1)) Set.univ _)
  isplitl [H0]; · iexact H0
  isplitl [H1]; · iexact H1
  isplitl [H2]; · iexact H2
  isplitl [H3]; · iexact H3
  isplitl [HS0]; · iexact HS0
  isplitl [HS1]; · iexact HS1
  iintro ⟨H0, H1, H2, H3, HS0, HS1⟩
  isplitl [HS0 HS1 Hoth Hp]
  · isplitl [HS0 HS1]
    · iexists _, _; isplitr
      swap; · isplitl [HS0] <;> iassumption
      ipureintro; intro _; rw [succ_sub]; exact ⟨(accG_next V c t ht).symm, (accU_next V c t ht).symm⟩
    isplitl [Hoth] <;> iassumption
  isplitl [Ho]; · iexact Ho
  isplitl [H0]; · iexact H0
  isplitl [H1]; · iexact H1
  isplitl [H2]; · iexact H2
  iexists _; iexact H3

/-- k = 3. -/
theorem sound_last (c : Dev nD) (t : Fin cfg0.N) (h0 : ¬ condFirst (grid0.coords t)) (h1 : condLast (grid0.coords t)) :
    bodyPre0 V c t ⊢ wp frame (wpE (defs₀ (F := F)) Variants.none c none) Set.univ (bodyAt0 t) (fun _ => bodyPostLive0 V c t) := by
  have ht : t.val % 4 ≠ 0 := fun e => h0 ((hcondFirst t).mpr e)
  have ht3 : t.val % 4 = 3 := (hcondLast t).mp h1
  unfold bodyPre0 bodyPostLive0 bodyAt0
  simp only [before0_0, before0_1, before0_2]
  rw [show (dat0 V c).Φ t.castSucc = inv0 V c t.castSucc from rfl, show (dat0 V c).Φ t.succ = inv0 V c t.succ from rfl,
    show (dat0 V c).owesAt () t.succ = (dat0 V c).owesAt () t.castSucc from rfl, after0_0, after0_1, after0_2, after0_3,
    accG_next V c t ht, accU_next V c t ht]
  unfold inv0
  iintro ⟨⟨⟨%s0, %s1, %hs, HS0, HS1⟩, Hoth, Hp⟩, Ho, ⟨%d0, H0⟩, ⟨%d1, H1⟩, ⟨%d2, H2⟩, ⟨%d3, H3⟩⟩
  obtain ⟨rfl, rfl⟩ := hs ht
  iapply (run_last c (grid0.coords t) _ _ _ _ _ _ _ _ _ _ _ _ h0 h1 (iblk0 V c 0 t) (iblk0 V c 1 t) (iblk0 V c 2 t) (accG V c (t.val - 1)) (accU V c (t.val - 1)) Set.univ _)
  isplitl [H0]; · iexact H0
  isplitl [H1]; · iexact H1
  isplitl [H2]; · iexact H2
  isplitl [H3]; · iexists _; iexact H3
  isplitl [HS0]; · iexact HS0
  isplitl [HS1]; · iexact HS1
  iintro ⟨H0, H1, H2, H3, HS0, HS1⟩
  isplitl [HS0 HS1 Hoth Hp]
  · isplitl [HS0 HS1]
    · iexists _, _; isplitr
      swap; · isplitl [HS0] <;> iassumption
      ipureintro; intro hne; exact absurd (show t.succ.val % 4 = 0 by rw [Fin.val_succ]; omega) hne
    isplitl [Hoth] <;> iassumption
  isplitl [Ho]; · iexact Ho
  isplitl [H0]; · iexact H0
  isplitl [H1]; · iexact H1
  isplitl [H2]; · iexact H2
  iexact H3

/-- The library's body obligation, at every point. -/
theorem body_obligation0 (c : Dev nD) : BodyObligation (dat0 (F := F) V c) (defs₀ (F := F)) Variants.none () Set.univ := fun t => by
  rw [bigSep_W0, bigSep_W0]
  by_cases h1 : condLast (grid0.coords t)
  · have h0 : ¬ condFirst (grid0.coords t) := fun h => by
      have := (hcondFirst t).mp h; have := (hcondLast t).mp h1; omega
    rw [show cfg0.idle 3 (cfg0.grid.coords t) = false from liveAt3 t h1]
    exact sound_last V c t h0 h1
  · rw [show cfg0.idle 3 (cfg0.grid.coords t) = true from idleAt3 t h1, noFlush3 t h1]
    by_cases h0 : condFirst (grid0.coords t)
    · exact sound_first V c t h0 h1
    · exact sound_mid V c t h0 h1

end Cert.Kernel.R0
end
-- ==== Proof.Region1Bits.lean ====
/- Region 1 of the kernel program (the second pallas_call: the product of the activation block with
   the down-projection weights), at a PARAMETER `V` — the TensorCore's buffer contents when the region is
   entered — and generic in the float instance: each window's block at a grid point, what the body leaves in
   the output window's buffer as a function of the two input blocks, the body's triple, the pipeline's proof
   data and the body obligation at every point. -/
import proofs.«167459_j88605175316749_1_alg».proof.Proof.Gen.Kernel.Launch
import proofs.«167459_j88605175316749_1_alg».proof.Proof.Gen.Kernel.Skeleton
import proofs.«167459_j88605175316749_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.R1

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! ## The windows' blocks -/

/-- Window `w`'s block at point `t`, read off its array as the region finds it (`V`). -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's current staging buffer holds its block at every point, for any proof data whose array is
    `V`'s and whose body leaves the block in place. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- Input window 1's current staging buffer holds its block at every point, fetched there or not: where it is
    not fetched its block index has not moved, and the body left the block in place. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-! ## The body's accesses -/

abbrev r1_0 : Rect S1x512x1408 := Rect.unit (s := S1x512x1408) ![0, 0, 0] S1x512x1408.size inb_S1x512x1408_S1x512x1408_0_0_0
abbrev r1_1 : Rect S1x1408x2048 := Rect.unit (s := S1x1408x2048) ![0, 0, 0] S1x1408x2048.size inb_S1x1408x2048_S1x1408x2048_0_0_0
abbrev r1_2 : Rect S1x512x2048 := Rect.unit (s := S1x512x2048) ![0, 0, 0] S1x512x2048.size inb_S1x512x2048_S1x512x2048_0_0_0

/-! ## What the body leaves in the output window's buffer -/

/-- Window 2's staging buffer after the body, from the two input windows' blocks: its one store, of the
    payload over what the two loads read. -/
def out1_2 (x0 : Vec F S1x512x1408 .bf16) (x1 : Vec F S1x1408x2048 .f32) : Vec F S1x512x2048 .f32 :=
  View.canon [⟨r1_2, k1_pay1 (View.ld x0 r1_0) (View.ld x1 r1_1)⟩]

/-- The store's rectangle is the whole buffer, so it covers it. -/
theorem cover1_2 (p0 : Vec F S1x512x2048 .f32) (y : S1x512x2048.Idx) :
    ∃ pc ∈ ([⟨r1_2, p0⟩] : List (View.Piece (Elt F) S1x512x2048 .f32)), y ∈ pc.1.set :=
  View.cover_of_tiled [⟨r1_2, p0⟩] S1x512x2048.size (by rfl) y

/-! ## The body's triple -/

set_option maxHeartbeats 1000000 in
/-- The kernel body on whole staging memrefs, the inputs' at contents `x0`, `x1` and the output's at anything,
    runs to the continuation holding the inputs' as they were and the output's at `out1_2 x0 x1`. -/
theorem sound_kernel1 (c : Dev nD) (E : Set ℕ) (i : grid1.Coords) (arg2 : Memref sig .tc .vmem S1x512x1408 .bf16) (harg2 : arg2.IsWhole) (arg3 : Memref sig .tc .vmem S1x1408x2048 .f32) (harg3 : arg3.IsWhole) (arg4 : Memref sig .tc .vmem S1x512x2048 .f32) (harg4 : arg4.IsWhole)
    (x0 : Vec F S1x512x1408 .bf16) (x1 : Vec F S1x1408x2048 .f32) (K : PUnit → sProp 𝕄) :
    iprop(owns (c : Thread nD τ) arg2 fullShare x0 ∗ owns (c : Thread nD τ) arg3 fullShare x1 ∗ (∃ d, owns (c : Thread nD τ) arg4 fullShare d)
        ∗ (iprop(owns (c : Thread nD τ) arg2 fullShare x0 ∗ owns (c : Thread nD τ) arg3 fullShare x1 ∗ owns (c : Thread nD τ) arg4 fullShare (out1_2 x0 x1)) -∗ K ⟨⟩))
      ⊢ wp frame (wpE (defs₀ (F := F)) Variants.none c none) E (cc1__kernel_b i arg2 harg2 arg3 harg3 arg4 harg4) K := by
  simp only [cc1__kernel_b_eq_skeleton]; unfold cc1__kernel_b_skel
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover1_2 _)

/-! ## The pipeline's proof data -/

/-- The proof data of pipeline 1 on core `c`: the arrays as the region finds them (`V`); after the body at
    point `t` each input's buffer at its block and the output's at `out1_2` of the input blocks; the invariant
    the scoped rest and the generator register, untouched; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => out1_2 (iblk1 V c 0 t) (iblk1 V c 1 t)
  Φ _ := Pipeline.ΦA spec1 c
  q _ := fullShare
  owed _ := 0

/-- The proof data's arrays are the region-entry contents. -/
theorem A_eq1 (c : Dev nD) (w : Fin cfg1.W) : (dat1 V c).A w = V c (Pipeline.arrRef spec1 w) := by
  dsimp only [dat1]

/-- What the body leaves, window by window. -/
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = out1_2 (iblk1 V c 0 t) (iblk1 V c 1 t) := by dsimp only [dat1]

/-- Each input's current staging buffer holds its block at every point, fetched there or not. -/
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d

/-! ## The body obligation, at a generic point -/

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t))

/-- The body at any point: the inputs' memrefs hold their blocks, so `sound_kernel1` applies; the invariant and
    the core's `owes` pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1]
  rw [show (dat1 V c).Φ t.succ = (dat1 V c).Φ t.castSucc from rfl,
    show (dat1 V c).owesAt () t.succ = (dat1 V c).owesAt () t.castSucc from rfl,
    after1_0, after1_1, after1_2]
  iintro ⟨HΦ, Ho, ⟨%d0, H0⟩, ⟨%d1, H1⟩, ⟨%d2, H2⟩⟩
  iapply (sound_kernel1 c Set.univ _ _ _ _ _ _ _ (iblk1 V c 0 t) (iblk1 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The library's body obligation, at every point. -/
theorem body_obligation1 (c : Dev nD) : BodyObligation (dat1 (F := F) V c) (defs₀ (F := F)) Variants.none () Set.univ := fun t => by
  rw [bigSep_W1, bigSep_W1]
  exact sound_body1 V c t

end Cert.Kernel.R1

end
-- ==== Proof.FamilyBits.lean ====
import proofs.«167459_j88605175316749_1_alg».proof.Proof.Gen.Kernel.Launch
import proofs.«167459_j88605175316749_1_alg».proof.Proof.Gen.Kernel.Skeleton
import proofs.«167459_j88605175316749_1_alg».proof.Proof.Gen.Kernel.Points
import proofs.«167459_j88605175316749_1_alg».proof.Proof.Region0OblBits
import proofs.«167459_j88605175316749_1_alg».proof.Proof.Region1Bits
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.Kernel.Whole

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

/-! # The program's two regions in sequence: the buffer contents at the boundaries, and the proof data family

@main is the accumulating region, which writes the activation array, then the product region, which reads it and writes
the result. Nothing else touches a buffer. -/

variable (m : (ℓ : Loc nD τ sig) → Buf (Elt F) ℓ)

/-- Core `c`'s buffers at launch; -/
abbrev W0 : Dev nD → Valuation τ sig (Elt F) := fun c b => m (c, b)
/-- the same read at the TensorCore's references (what the first region's proof data take). -/
abbrev V0 : (c : Dev nD) → (b : Ref sig .tc) → Buf (Elt F) ((c : Thread nD τ).loc b) := fun c b => W0 m c b
/-- After the first region: the activation array at what its write-backs leave, every other buffer as launched. -/
def W1 (c : Dev nD) : Valuation τ sig (Elt F) :=
  Function.update (W0 m c) main_v0 ((R0.dat0 (V0 m) c).arrAt 3 cfg0.N)
abbrev V1 : (c : Dev nD) → (b : Ref sig .tc) → Buf (Elt F) ((c : Thread nD τ).loc b) := fun c b => W1 m c b
/-- After the second region: the result array at what its write-backs leave. -/
def W2 (c : Dev nD) : Valuation τ sig (Elt F) :=
  Function.update (W1 m c) main_v1 ((R1.dat1 (V1 m) c).arrAt 2 cfg1.N)
abbrev V2 : (c : Dev nD) → (b : Ref sig .tc) → Buf (Elt F) ((c : Thread nD τ).loc b) := fun c b => W2 m c b

theorem W1_v0 (c : Dev nD) : W1 m c main_v0 = (R0.dat0 (V0 m) c).arrAt 3 cfg0.N := by
  unfold W1; exact Function.update_self ..
theorem W1_of (c : Dev nD) (r : Ref sig .tc) (h : r ≠ main_v0) : W1 m c r = W0 m c r := by
  unfold W1; exact Function.update_of_ne (StableHlo.devRef_ne_of_ne h) ..
theorem W2_v1 (c : Dev nD) : W2 m c main_v1 = (R1.dat1 (V1 m) c).arrAt 2 cfg1.N := by
  unfold W2; exact Function.update_self ..
theorem W2_of (c : Dev nD) (r : Ref sig .tc) (h : r ≠ main_v1) : W2 m c r = W1 m c r := by
  unfold W2; exact Function.update_of_ne (StableHlo.devRef_ne_of_ne h) ..

/-- The prefetched tables' admissible contents: no pipeline has a table. -/
abbrev adm : (p : Fin 2) → (pcfgs (F := F) p).Adm := fun p => (cfgs p).toPCfg_adm
/-- Every pipeline's proof data, each at its region's entry contents. -/
def pdats : (p : Fin 2) → (c : Dev nD) → Dat τ (Elt F) Unit ℕ (UR sig nD τ) ℕ (Pipeline.pin (pcfgs (F := F)) adm p) c
  | ⟨0, _⟩ => fun c => R0.dat0 (V0 m) c
  | ⟨1, _⟩ => fun c => R1.dat1 (V1 m) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every segment: the generator register at some state and the core's `owes`, at nothing. -/
abbrev R (c : Dev nD) : sProp 𝕄 := iprop((∃ r, prngReg c r) ∗ ∃ W, owes (c : Thread nD τ) (0 : CellTallies nD τ sig Unit) W)

end Cert.Kernel.Whole
end
-- ==== Proof.Region0ArraysBits.lean ====
import proofs.«167459_j88605175316749_1_alg».proof.Proof.Gen.Kernel.Launch
import proofs.«167459_j88605175316749_1_alg».proof.Proof.Gen.Kernel.Skeleton
import proofs.«167459_j88605175316749_1_alg».proof.Proof.Gen.Kernel.Points
import proofs.«167459_j88605175316749_1_alg».proof.Proof.Region0DatBits
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.Kernel.R0

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

/-! # The accumulating region's arrays at entry and exit

Two windows read the weight array: it is held whole outside the region and in two halves, one per window, inside. -/

variable (V : (c : Dev nD) → (b : Ref sig .tc) → Buf (Elt F) ((c : Thread nD τ).loc b))

/-- The distinct buffers behind the region's four windows, listed. -/
theorem arrBufs0_eq (c : Dev nD) (W : (b : Ref sig .tc) → Buf (Elt F) ((c : Thread nD τ).loc b)) :
    (Pipeline.arrBufs (Ix := Unit) (Name := ℕ) (U := UR sig nD τ) (Lvl := ℕ) spec0 c W : sProp 𝕄)
      = iprop((((c : Thread nD τ).loc main_arg0) ↦{fullShare} W main_arg0) ∗ (((c : Thread nD τ).loc main_arg1) ↦{fullShare} W main_arg1)
          ∗ (((c : Thread nD τ).loc main_v0) ↦{fullShare} W main_v0)) := by
  unfold Pipeline.arrBufs
  exact Idealize.SL.BI.bigSep_eq_bigSepL_of_eq [main_arg0, main_arg1, main_v0] (by decide) (by decide) _

theorem arrays_in0 (c : Dev nD) (W : (b : Ref sig .tc) → Buf (Elt F) ((c : Thread nD τ).loc b))
    (G : (w : Fin cfg0.W) → Buf (Elt F) ((cfg0.win w).arr.view.loc (c : Thread nD τ)))
    (h0 : G 0 = W main_arg0) (h1 : G 1 = W main_arg1) (h2 : G 2 = W main_arg1) (h3 : G 3 = W main_v0) :
    (Pipeline.arrBufs (Ix := Unit) (Name := ℕ) (U := UR sig nD τ) (Lvl := ℕ) spec0 c W : sProp 𝕄) ⊢ (dat0 V c).arrays G := by
  rw [arrBufs0_eq]
  unfold Dat.arrays
  rw [bigSep_W0]
  rw [h0, h1, h2, h3]
  rw [show (dat0 V c).share 0 = fullShare from rfl, show (dat0 V c).share 1 = fullShare.left from rfl,
    show (dat0 V c).share 2 = fullShare.right from rfl, show (dat0 V c).share 3 = fullShare from rfl]
  try rw [show (cfg0.win 0).arr.view.set = Finset.univ from (arr_whole0 0).set_eq_univ]
  try rw [show (cfg0.win 1).arr.view.set = Finset.univ from (arr_whole0 1).set_eq_univ]
  try rw [show (cfg0.win 2).arr.view.set = Finset.univ from (arr_whole0 2).set_eq_univ]
  try rw [show (cfg0.win 3).arr.view.set = Finset.univ from (arr_whole0 3).set_eq_univ]
  have hsh : ((((c : Thread nD τ).loc main_arg1) ↦{fullShare} W main_arg1 : sProp 𝕄))
      ⊢ iprop((((c : Thread nD τ).loc main_arg1) ↦{fullShare.left} W main_arg1) ∗ (((c : Thread nD τ).loc main_arg1) ↦{fullShare.right} W main_arg1)) :=
    (pointsTo_share (PosShare.mem_left_op_right fullShare)).1
  iintro ⟨H0, H1, H3⟩
  ihave H1' := hsh $$ H1
  icases H1' with ⟨H1a, H1b⟩
  isplitl [H0]; · iexact H0
  isplitl [H1a]; · iexact H1a
  isplitl [H1b]; · iexact H1b
  iexact H3

theorem arrays_out0 (c : Dev nD) (W : (b : Ref sig .tc) → Buf (Elt F) ((c : Thread nD τ).loc b))
    (G : (w : Fin cfg0.W) → Buf (Elt F) ((cfg0.win w).arr.view.loc (c : Thread nD τ)))
    (h0 : G 0 = W main_arg0) (h1 : G 1 = W main_arg1) (h2 : G 2 = W main_arg1) (h3 : G 3 = W main_v0) :
    (dat0 V c).arrays G ⊢ (Pipeline.arrBufs (Ix := Unit) (Name := ℕ) (U := UR sig nD τ) (Lvl := ℕ) spec0 c W : sProp 𝕄) := by
  rw [arrBufs0_eq]
  unfold Dat.arrays
  rw [bigSep_W0]
  rw [h0, h1, h2, h3]
  rw [show (dat0 V c).share 0 = fullShare from rfl, show (dat0 V c).share 1 = fullShare.left from rfl,
    show (dat0 V c).share 2 = fullShare.right from rfl, show (dat0 V c).share 3 = fullShare from rfl]
  try rw [show (cfg0.win 0).arr.view.set = Finset.univ from (arr_whole0 0).set_eq_univ]
  try rw [show (cfg0.win 1).arr.view.set = Finset.univ from (arr_whole0 1).set_eq_univ]
  try rw [show (cfg0.win 2).arr.view.set = Finset.univ from (arr_whole0 2).set_eq_univ]
  try rw [show (cfg0.win 3).arr.view.set = Finset.univ from (arr_whole0 3).set_eq_univ]
  iintro ⟨H0, H1a, H1b, H3⟩
  isplitl [H0]; · iexact H0
  isplitl [H1a H1b]
  · have hjn : iprop((((c : Thread nD τ).loc main_arg1) ↦{fullShare.left} W main_arg1) ∗ (((c : Thread nD τ).loc main_arg1) ↦{fullShare.right} W main_arg1))
        ⊢ ((((c : Thread nD τ).loc main_arg1) ↦{fullShare} W main_arg1 : sProp 𝕄)) :=
      (pointsTo_share (PosShare.mem_left_op_right fullShare)).2
    iapply hjn
    isplitl [H1a]; · iexact H1a
    iexact H1b
  iexact H3

end Cert.Kernel.R0
end
-- ==== Proof.Reg0Bits.lean ====
import proofs.«167459_j88605175316749_1_alg».proof.Proof.Gen.Kernel.Launch
import proofs.«167459_j88605175316749_1_alg».proof.Proof.Gen.Kernel.Skeleton
import proofs.«167459_j88605175316749_1_alg».proof.Proof.Gen.Kernel.Points
import proofs.«167459_j88605175316749_1_alg».proof.Proof.FamilyBits
import proofs.«167459_j88605175316749_1_alg».proof.Proof.Region0ArraysBits
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.Kernel.Whole

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

/-! # The accumulating region as a segment of @main

Entered from every unscoped buffer at the launch contents, left with the activation array at what the write-backs made.
The weight array goes in whole and comes back whole; between, each of the two windows on it holds half. -/

variable (m : (ℓ : Loc nD τ sig) → Buf (Elt F) ℓ)

/-- The unscoped buffers, at contents `W`, are the region's arrays as its proof data hold them, and the rest. -/
theorem held_split0 (c : Dev nD) :
    (StableHlo.held (c : Thread nD τ) (Pipeline.ucRefs τ sig) (W0 m c) : sProp 𝕄)
      ⊢ iprop((R0.dat0 (V0 m) c).arrays (fun w => (R0.dat0 (V0 m) c).arrAt w 0)
          ∗ Pipeline.unscopedRest (Ix := Unit) (Name := ℕ) (U := UR sig nD τ) (Lvl := ℕ) spec0 c (V0 m c)) := by
  have e : (unscopedBufs (Ix := Unit) (Name := ℕ) (U := UR sig nD τ) (Lvl := ℕ) c (V0 m c) : sProp 𝕄)
      = iprop((Pipeline.arrBufs (Ix := Unit) (Name := ℕ) (U := UR sig nD τ) (Lvl := ℕ) spec0 c (V0 m c) : sProp 𝕄)
          ∗ Pipeline.unscopedRest (Ix := Unit) (Name := ℕ) (U := UR sig nD τ) (Lvl := ℕ) spec0 c (V0 m c)) :=
    Pipeline.PerCore.unscopedBufs_split₀ (fun _ : Dev nD => cfgs) 0 c winFacts₀0.arr_unscoped (V0 m c)
  rw [← Pipeline.unscopedBufs_held (Ix := Unit) (Name := ℕ) (U := UR sig nD τ) (Lvl := ℕ) c (W0 m c), e]
  iintro ⟨Ha, Hr⟩
  isplitl [Ha]
  · iapply (R0.arrays_in0 (V0 m) c (V0 m c) (fun w => (R0.dat0 (V0 m) c).arrAt w 0) rfl rfl rfl rfl)
    iexact Ha
  iexact Hr

/-- The other way, at the exit contents. -/
theorem held_join0 (c : Dev nD) :
    iprop((R0.dat0 (V0 m) c).arrays (fun w => (R0.dat0 (V0 m) c).arrAt w cfg0.N)
        ∗ Pipeline.unscopedRest (Ix := Unit) (Name := ℕ) (U := UR sig nD τ) (Lvl := ℕ) spec0 c (V0 m c))
      ⊢ (StableHlo.held (c : Thread nD τ) (Pipeline.ucRefs τ sig) (W1 m c) : sProp 𝕄) := by
  have e : (unscopedBufs (Ix := Unit) (Name := ℕ) (U := UR sig nD τ) (Lvl := ℕ) c (V1 m c) : sProp 𝕄)
      = iprop((Pipeline.arrBufs (Ix := Unit) (Name := ℕ) (U := UR sig nD τ) (Lvl := ℕ) spec0 c (V1 m c) : sProp 𝕄)
          ∗ Pipeline.unscopedRest (Ix := Unit) (Name := ℕ) (U := UR sig nD τ) (Lvl := ℕ) spec0 c (V1 m c)) :=
    Pipeline.PerCore.unscopedBufs_split₀ (fun _ : Dev nD => cfgs) 0 c winFacts₀0.arr_unscoped (V1 m c)
  rw [← Pipeline.unscopedBufs_held (Ix := Unit) (Name := ℕ) (U := UR sig nD τ) (Lvl := ℕ) c (W1 m c), e,
    unscopedRest0_eq, unscopedRest0_eq]
  rw [show V1 m c main_arg2 = V0 m c main_arg2 from W1_of m c main_arg2 (by decide),
    show V1 m c main_v1 = V0 m c main_v1 from W1_of m c main_v1 (by decide)]
  iintro ⟨Ha, Hr⟩
  isplitl [Ha]
  · iapply (R0.arrays_out0 (V0 m) c (V1 m c) (fun w => (R0.dat0 (V0 m) c).arrAt w cfg0.N)
      (((R0.dat0 (V0 m) c).arrAt_in 0 rfl _).trans ((R0.A_eq0 (V0 m) c 0).trans (W1_of m c main_arg0 (by decide)).symm))
      (((R0.dat0 (V0 m) c).arrAt_in 1 rfl _).trans ((R0.A_eq0 (V0 m) c 1).trans (W1_of m c main_arg1 (by decide)).symm))
      (((R0.dat0 (V0 m) c).arrAt_in 2 rfl _).trans ((R0.A_eq0 (V0 m) c 2).trans (W1_of m c main_arg1 (by decide)).symm))
      (W1_v0 m c).symm)
    iexact Ha
  iexact Hr

/-- The invariant at the first point, from the generator register and the scoped buffers no window stages. -/
theorem hin0 (c : Dev nD) (P : sProp 𝕄) :
    iprop((∃ r, prngReg c r) ∗ P ∗ Pipeline.scopedRest (Ix := Unit) (Name := ℕ) (U := UR sig nD τ) (Lvl := ℕ) (Val := Elt F) spec0 c)
      ⊢ (R0.inv0 (V0 m) c 0 : sProp 𝕄) := by
  unfold R0.inv0 R0.others
  rw [scopedRest0_eq]
  simp only [owns_whole]
  iintro ⟨Hp, -, ⟨%f0, H0⟩, ⟨%f1, H1⟩, Hrest⟩
  isplitl [H0 H1]
  · iexists f0, f1; isplitr; · ipureintro; intro h; exact absurd rfl h
    isplitl [H0] <;> iassumption
  isplitl [Hrest]; · iexact Hrest
  iexact Hp

/-- The invariant at the last point gives them back. -/
theorem hout0 (c : Dev nD) :
    (R0.inv0 (V0 m) c (Fin.last cfg0.N) : sProp 𝕄)
      ⊢ iprop((∃ r, prngReg c r) ∗ BI.emp ∗ Pipeline.scopedRest (Ix := Unit) (Name := ℕ) (U := UR sig nD τ) (Lvl := ℕ) (Val := Elt F) spec0 c) := by
  unfold R0.inv0 R0.others
  rw [scopedRest0_eq]
  simp only [owns_whole]
  iintro ⟨⟨%s0, %s1, -, H0, H1⟩, Hrest, Hp⟩
  isplitl [Hp]; · iexact Hp
  isplitr; · iempintro
  isplitl [H0]; · iexists _; iexact H0
  isplitl [H1]; · iexists _; iexact H1
  iexact Hrest

/-- The exit: the arrays at their final contents and the bypassing buffers make the next thread state. -/
theorem hexit0 (c : Dev nD) :
    iprop((R0.dat0 (V0 m) c).arrays (fun w => (R0.dat0 (V0 m) c).arrAt w cfg0.N) ∗ (R0.dat0 (V0 m) c).owesAt () (Fin.last cfg0.N)
        ∗ (∃ r, prngReg c r) ∗ Pipeline.unscopedRest (Ix := Unit) (Name := ℕ) (U := UR sig nD τ) (Lvl := ℕ) spec0 c (V0 m c))
      ⊢ |={Set.univ}=> iprop(StableHlo.held (c : Thread nD τ) (Pipeline.ucRefs τ sig) (W1 m c) ∗ R c) := by
  iintro ⟨Ha, HO, HY, Hrest⟩
  imodintro
  isplitl [Ha Hrest]
  · iapply (held_join0 m c); isplitl [Ha] <;> iassumption
  isplitl [HY]; · iexact HY
  unfold Pipeline.Dat.owesAt Pipeline.owesWithin
  icases HO with ⟨%W, -, HO⟩; iexists W; iexact HO

/-- The entry: the arrays split out of the unscoped buffers, the weight array in two halves. -/
theorem hentry0 (c : Dev nD) (P Q : sProp 𝕄) :
    iprop(iprop(StableHlo.held (c : Thread nD τ) (Pipeline.ucRefs τ sig) (W0 m c) ∗ R c) ∗ P ∗ Q)
      ⊢ |={Set.univ}=> iprop((R0.dat0 (V0 m) c).arrays (fun w => (R0.dat0 (V0 m) c).arrAt w 0)
        ∗ Pipeline.prefHeld (Ix := Unit) (Name := ℕ) (U := UR sig nD τ) (Lvl := ℕ) (pcfgs (F := F) 0).pre c (fun _ => fullShare) (adm (F := F) 0).1
        ∗ (R0.dat0 (V0 m) c).owesAt () 0 ∗ (∃ r, prngReg c r)
        ∗ Pipeline.unscopedRest (Ix := Unit) (Name := ℕ) (U := UR sig nD τ) (Lvl := ℕ) spec0 c (V0 m c)) := by
  iintro ⟨⟨Hub, Hp, HO⟩, -, -⟩
  ihave H := (held_split0 m c) $$ Hub
  icases H with ⟨Ha, Hrest⟩
  imodintro
  isplitl [Ha]; · iexact Ha
  isplitr; · unfold Pipeline.prefHeld; rw [show (Finset.univ : Finset (Fin 0)) = ∅ from rfl, BI.bigSep_empty]; iempintro
  isplitl [HO]
  · unfold Pipeline.Dat.owesAt Pipeline.owesWithin
    icases HO with ⟨%W, HO⟩; iexists W; isplitr; · ipureintro; exact fun _ _ => Or.inl trivial
    iexact HO
  isplitl [Hp]; · iexact Hp
  iexact Hrest

set_option backward.isDefEq.respectTransparency.types false in
/-- The accumulating region over the thread state. -/
def reg0 : Pipeline.RegionSeg (pcfgs (F := F)) adm (pdats m) () defs₀ 𝒱₀ L lv 0 where
  win := winFacts₀0
  block_pos := block_pos0
  stage_whole := stage_whole0
  K := PEmpty
  osem k := k.elim
  ho := Pipeline.OwnSemFacts.none _
  hbody c := (R0.body_obligation0 (V0 m) c).loose
  hwaits := Pipeline.hwaits_of_owed_zero _ _ _ _ L lv 0 fun _ _ => rfl
  pre c := iprop(StableHlo.held (c : Thread nD τ) (Pipeline.ucRefs τ sig) (W0 m c) ∗ R c)
  post c := iprop(StableHlo.held (c : Thread nD τ) (Pipeline.ucRefs τ sig) (W1 m c) ∗ R c)
  X c := iprop(∃ r, prngReg c r)
  Y c := iprop(∃ r, prngReg c r)
  Z c := Pipeline.unscopedRest (Ix := Unit) (Name := ℕ) (U := UR sig nD τ) (Lvl := ℕ) spec0 c (V0 m c)
  hentry c := hentry0 m c _ _
  hin c := hin0 m c _
  hout c := by rw [Pipeline.ownSems0_none]; exact hout0 m c
  hexit c := hexit0 m c

end Cert.Kernel.Whole
end
-- ==== Proof.Reg1Bits.lean ====
/- The product region (the second pallas_call) as a segment over the thread state: entered from every unscoped
   buffer at the contents the first region leaves, left with the result array at what this region's write-backs
   leave and every other buffer as entered; the generator register and the core's `owes` ride along. -/
import proofs.«167459_j88605175316749_1_alg».proof.Proof.FamilyBits
import proofs.«167459_j88605175316749_1_alg».proof.Proof.Region1Bits

set_option maxRecDepth 16384

noncomputable section

namespace Cert.Kernel.Whole

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ)

/-! ## The buffer contents at the region's exit -/

/-- At the region's exit each of its three arrays holds what the pipeline leaves: the result array its
    write-backs, by the definition of the exit contents; the two arrays it reads, which no write-back touches,
    what they held at entry. -/
theorem hF1 (c : Dev nD) (w : Fin cfg1.W) : (R1.dat1 (V1 m) c).arrAt w cfg1.N = V2 m c (Pipeline.arrRef spec1 w) :=
  match w with
  | ⟨0, _⟩ => ((R1.dat1 (V1 m) c).arrAt_in 0 rfl _).trans ((R1.A_eq1 (V1 m) c 0).trans (W2_of m c main_v0 (by decide)).symm)
  | ⟨1, _⟩ => ((R1.dat1 (V1 m) c).arrAt_in 1 rfl _).trans ((R1.A_eq1 (V1 m) c 1).trans (W2_of m c main_arg2 (by decide)).symm)
  | ⟨2, _⟩ => (W2_v1 m c).symm

/-- Every buffer that is none of the region's arrays holds at the exit what it held at entry. -/
theorem hrest1 (c : Dev nD) : ∀ b, b ∉ Finset.univ.image (Pipeline.arrRef spec1) → V2 m c b = V1 m c b :=
  fun b hb => W2_of m c b fun e => hb (e ▸ Finset.mem_image.mpr ⟨2, Finset.mem_univ _, rfl⟩)

/-! ## The region as a segment -/

set_option backward.isDefEq.respectTransparency.types false in
/-- The product region over the thread state: entered from every unscoped buffer at `W1`, left at `W2`. Its
    arrays split out of the unscoped buffers and are put back at the exit contents; the generator register goes
    into the class invariant and out; nothing owed; no semaphore of the kernel's own. -/
def reg1 : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (R1.body_obligation1 (V1 m) c).loose
  hwaits := Pipeline.hwaits_of_owed_zero _ _ _ _ L lv 1 fun _ _ => rfl
  pre c := iprop(StableHlo.held (c : Thread nD τ) (Pipeline.ucRefs τ sig) (W1 m c) ∗ R c)
  post c := iprop((iprop(StableHlo.held (c : Thread nD τ) (Pipeline.ucRefs τ sig) (W2 m c) ∗ ∃ r, prngReg c r)) ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (V1 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (V1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (V1 m c) (V2 m c) ((pdats m 1 c).arrAt · cfg1.N) (hF1 m c) (hrest1 m c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

end Cert.Kernel.Whole

end
-- ==== Proof.WholeBits.lean ====
import proofs.«167459_j88605175316749_1_alg».proof.Proof.Gen.Kernel.Launch
import proofs.«167459_j88605175316749_1_alg».proof.Proof.Gen.Kernel.Skeleton
import proofs.«167459_j88605175316749_1_alg».proof.Proof.Gen.Kernel.Points
import proofs.«167459_j88605175316749_1_alg».proof.Proof.Reg0Bits
import proofs.«167459_j88605175316749_1_alg».proof.Proof.Reg1Bits
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.Kernel.Whole

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

/-! # The whole run: both regions in sequence

Every weakly fair execution of @main terminates, and every unscoped buffer ends at the contents after the second region. -/

variable (m : (ℓ : Loc nD τ sig) → Buf (Elt F) ℓ) (ρ : Dev nD → PrngReg)

/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

/-- @main's two segments in order. -/
abbrev segs : List (Pipeline.Seg (pcfgs (F := F)) adm (pdats m) () defs₀ 𝒱₀ L lv) :=
  [ .region (reg0 m), .region (reg1 m) ]

set_option backward.isDefEq.respectTransparency.types false in
/-- The run: the launch over the two segments, the last thread state read against the final state. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W2 m c b) :=
  Pipeline.θ_run_regions_kit (pcfgs (F := F)) adm (pdats m) () cellOf_inj emb₁ defs₀ 𝒱₀ L lv m ρ main (segs m)
    (fun c Q => by rw [main_segs adm (pdats m) () 𝒱₀ L lv (reg0 m) (reg1 m) c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c))
    (Tₙ := fun c => iprop(StableHlo.held (c : Thread nD τ) (Pipeline.ucRefs τ sig) (W2 m c) ∗ ∃ r, prngReg c r))
    (hch := ⟨fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W2 m c b)
    (hfin := fun c s' => by
      iintro ⟨⟨Hh, -⟩, HSI⟩
      unfold StableHlo.held
      imodintro
      iapply (pointsTo_read_all (Pipeline.ucRefs τ sig) (fun b => (((c : Thread nD τ)).1, b)) (W2 m c) s')
      isplitl [Hh] <;> iassumption)
    (hQ := fun s h c => h c)

/-- No region writes an argument array. -/
theorem W2_arg0 (c : Dev nD) : W2 m c main_arg0 = m ((c : Thread nD τ).loc main_arg0) :=
  (W2_of m c main_arg0 (by decide)).trans ((W1_of m c main_arg0 (by decide)).trans rfl)
theorem W2_arg1 (c : Dev nD) : W2 m c main_arg1 = m ((c : Thread nD τ).loc main_arg1) :=
  (W2_of m c main_arg1 (by decide)).trans ((W1_of m c main_arg1 (by decide)).trans rfl)
theorem W2_arg2 (c : Dev nD) : W2 m c main_arg2 = m ((c : Thread nD τ).loc main_arg2) :=
  (W2_of m c main_arg2 (by decide)).trans ((W1_of m c main_arg2 (by decide)).trans rfl)

/-- The run with the result array named and the arguments as launched. -/
theorem run_named : θ_run defs (onTc (τ := τ) (main (F := F))) ⟨m, fun _ => 0, ρ⟩ (fun r => ∀ c : Dev nD,
      r.2.mem ((c.tc : Thread nD τ).loc main_v1) = W2 m c main_v1
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun r h c =>
    ⟨h c _ (mem_uc main_v1 (by decide)),
     (h c _ (mem_uc main_arg0 (by decide))).trans (W2_arg0 m c),
     (h c _ (mem_uc main_arg1 (by decide))).trans (W2_arg1 m c),
     (h c _ (mem_uc main_arg2 (by decide))).trans (W2_arg2 m c)⟩) (run_all m ρ)

/-- The frame: the program runs to the end, faults nowhere, and leaves its argument arrays as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun r h c => (h c).2) (run_named m ρ)

end Cert.Kernel.Whole
end
-- ==== Proof.Region0Body.lean ====
import proofs.«167459_j88605175316749_1_alg».proof.Proof.Gen.KernelIdeal.Launch
import proofs.«167459_j88605175316749_1_alg».proof.Proof.Gen.KernelIdeal.Skeleton
import proofs.«167459_j88605175316749_1_alg».proof.Proof.Gen.KernelIdeal.Points
import Idealize.ShloMosaic.Lib.Pipeline.FrameBody
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.KernelIdeal.R0

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

/-! # The accumulating kernel's body, one grid point at a time

The body at grid point (g, m, k): at k = 0 it first zeroes its two accumulators; at every k it adds to each accumulator
the product of the point's x-tile with the point's gate (resp. up) weight tile; at k = 3 it stores the gated product
of the two finished accumulators into its output block. Three cases of the two conditions meet on the grid. -/

/-- "k = 0", as the body computes it from the grid coordinates. -/
abbrev condFirst (i : grid0.Coords) : Prop := (Scalar.cmpi .ne (Scalar.extui (Scalar.cmpi .eq (BitVec.ofNat 32 (i 2).val) 0#32)) 0#32) = 1#1
/-- "k = 3", as the body computes it. -/
abbrev condLast (i : grid0.Coords) : Prop := k0_cond2 i = 1#1

theorem hz2 : (![0, 0] : Fin 2 → ℕ) = fun _ => 0 := by funext a; fin_cases a <;> rfl
theorem hz3 : (![0, 0, 0] : Fin 3 → ℕ) = fun _ => 0 := by funext a; fin_cases a <;> rfl

/-- A store through the whole-buffer rectangle, made last and read back, is its payload. -/
theorem read_store_whole {S : Shape} {κ : Kind} {sp : Space} {e : EltTy} (v : View sig κ sp S e) (f : v.ty.Contents (Elt F))
    {off : Fin S.rank → ℕ} (h : off = fun _ => 0) (inb : ∀ a, off a + S.size a ≤ S.size a) (w : S.Idx → Elt F e)
    (L : List (View.Piece (Elt F) S e)) :
    v.read (Elt F) (v.writes (Elt F) f (⟨Rect.unit (s := S) off S.size inb, w⟩ :: L)) = w := by
  subst h
  rw [View.read_writes_eq_canon _ _ _ (fun y => ⟨_, List.mem_cons_self, by
    show y ∈ (Rect.whole S).set; rw [Rect.set_whole]; exact Finset.mem_univ y⟩)]
  exact View.canon_cons_unit_zero rfl _ _ _

theorem read_store_whole2 {κ : Kind} {sp : Space} {e : EltTy} (v : View sig κ sp S512x1408 e) (f : v.ty.Contents (Elt F)) (w : S512x1408.Idx → Elt F e)
    (L : List (View.Piece (Elt F) S512x1408 e)) :
    v.read (Elt F) (v.writes (Elt F) f (⟨Rect.unit (s := S512x1408) ![0, 0] S512x1408.size inb_S512x1408_S512x1408_0_0, w⟩ :: L)) = w :=
  read_store_whole v f hz2 _ w L
theorem read_store_whole3 {κ : Kind} {sp : Space} {e : EltTy} (v : View sig κ sp S1x512x1408 e) (f : v.ty.Contents (Elt F)) (w : S1x512x1408.Idx → Elt F e)
    (L : List (View.Piece (Elt F) S1x512x1408 e)) :
    v.read (Elt F) (v.writes (Elt F) f (⟨Rect.unit (s := S1x512x1408) ![0, 0, 0] S1x512x1408.size inb_S1x512x1408_S1x512x1408_0_0_0, w⟩ :: L)) = w :=
  read_store_whole v f hz3 _ w L

set_option maxHeartbeats 1000000 in
/-- k = 0: the accumulators, whatever they held, end at the first tile's products added to zeros. -/
theorem run_first (c : Dev nD) (i : grid0.Coords)
    (arg3 : Memref sig .tc .vmem S1x512x512 .f32) (harg3 : arg3.IsWhole) (arg4 : Memref sig .tc .vmem S1x512x1408 .f32) (harg4 : arg4.IsWhole)
    (arg5 : Memref sig .tc .vmem S1x512x1408 .f32) (harg5 : arg5.IsWhole) (arg6 : Memref sig .tc .vmem S1x512x1408 .bf16) (harg6 : arg6.IsWhole)
    (arg7 : Memref sig .tc .vmem S512x1408 .f32) (harg7 : arg7.IsWhole) (arg8 : Memref sig .tc .vmem S512x1408 .f32) (harg8 : arg8.IsWhole)
    (hc0 : condFirst i) (hc1 : ¬ condLast i)
    (x0 : Vec F S1x512x512 .f32) (x1 x2 : Vec F S1x512x1408 .f32) (xi3 : Vec F S1x512x1408 .bf16)
    (E : Set ℕ) (K : PUnit → sProp 𝕄) :
    iprop(owns (c : Thread nD τ) arg3 fullShare x0 ∗ owns (c : Thread nD τ) arg4 fullShare x1 ∗ owns (c : Thread nD τ) arg5 fullShare x2
        ∗ owns (c : Thread nD τ) arg6 fullShare xi3 ∗ (∃ d, owns (c : Thread nD τ) arg7 fullShare d) ∗ (∃ d, owns (c : Thread nD τ) arg8 fullShare d)
        ∗ (iprop(owns (c : Thread nD τ) arg3 fullShare x0 ∗ owns (c : Thread nD τ) arg4 fullShare x1 ∗ owns (c : Thread nD τ) arg5 fullShare x2
            ∗ owns (c : Thread nD τ) arg6 fullShare xi3 ∗ owns (c : Thread nD τ) arg7 fullShare (k0_pay4 x0 x1 k0_pay1)
            ∗ owns (c : Thread nD τ) arg8 fullShare (k0_pay5 x0 x2 k0_pay2)) -∗ K ⟨⟩))
      ⊢ wp frame (wpE (defs₀ (F := F)) Variants.none c none) E (cc0__kernel_a i arg3 harg3 arg4 harg4 arg5 harg5 arg6 harg6 arg7 harg7 arg8 harg8) K := by
  simp only [cc0__kernel_a_eq_skeleton]; unfold cc0__kernel_a_skel
  unfold owns
  iintro ⟨⟨%f0, %hf0, H0⟩, ⟨%f1, %hf1, H1⟩, ⟨%f2, %hf2, H2⟩, ⟨%f3, %hf3, H3⟩, ⟨%d7, %f7, %hf7, H7⟩, ⟨%d8, %f8, %hf8, H8⟩, Hk⟩
  subst hf0; subst hf1; subst hf2; subst hf3
  sl_exec (disch := first | exact hc0 | exact hc1)
  sl_step
  iapply Hk
  isplitl [H0]
  · iexists _; isplitr; · ipureintro; rfl
    iexact H0
  isplitl [H1]
  · iexists _; isplitr; · ipureintro; rfl
    iexact H1
  isplitl [H2]
  · iexists _; isplitr; · ipureintro; rfl
    iexact H2
  isplitl [H3]
  · iexists _; isplitr; · ipureintro; rfl
    iexact H3
  isplitl [H7]
  · iexists _; isplitr
    swap; · iexact H7
    ipureintro
    refine (read_store_whole2 _ _ _ _).trans ?_
    sl_unfold_words
    simp only [View.readAt_eq_ld, View.ld_unit_zero (S := S1x512x512) hz3, View.ld_unit_zero (S := S1x512x1408) hz3,
      View.ld_unit_zero (S := S512x1408) hz2, View.readCov_unit_zero (S := S512x1408) _ hz2]
  iexists _; isplitr
  swap; · iexact H8
  · ipureintro
    refine (read_store_whole2 _ _ _ _).trans ?_
    sl_unfold_words
    simp only [View.readAt_eq_ld, View.ld_unit_zero (S := S1x512x512) hz3, View.ld_unit_zero (S := S1x512x1408) hz3,
      View.ld_unit_zero (S := S512x1408) hz2, View.readCov_unit_zero (S := S512x1408) _ hz2]

set_option maxHeartbeats 1000000 in
/-- 0 < k < 3: each accumulator gains the tile's product. -/
theorem run_mid (c : Dev nD) (i : grid0.Coords)
    (arg3 : Memref sig .tc .vmem S1x512x512 .f32) (harg3 : arg3.IsWhole) (arg4 : Memref sig .tc .vmem S1x512x1408 .f32) (harg4 : arg4.IsWhole)
    (arg5 : Memref sig .tc .vmem S1x512x1408 .f32) (harg5 : arg5.IsWhole) (arg6 : Memref sig .tc .vmem S1x512x1408 .bf16) (harg6 : arg6.IsWhole)
    (arg7 : Memref sig .tc .vmem S512x1408 .f32) (harg7 : arg7.IsWhole) (arg8 : Memref sig .tc .vmem S512x1408 .f32) (harg8 : arg8.IsWhole)
    (hc0 : ¬ condFirst i) (hc1 : ¬ condLast i)
    (x0 : Vec F S1x512x512 .f32) (x1 x2 : Vec F S1x512x1408 .f32) (xi3 : Vec F S1x512x1408 .bf16) (s0 s1 : Vec F S512x1408 .f32)
    (E : Set ℕ) (K : PUnit → sProp 𝕄) :
    iprop(owns (c : Thread nD τ) arg3 fullShare x0 ∗ owns (c : Thread nD τ) arg4 fullShare x1 ∗ owns (c : Thread nD τ) arg5 fullShare x2
        ∗ owns (c : Thread nD τ) arg6 fullShare xi3 ∗ owns (c : Thread nD τ) arg7 fullShare s0 ∗ owns (c : Thread nD τ) arg8 fullShare s1
        ∗ (iprop(owns (c : Thread nD τ) arg3 fullShare x0 ∗ owns (c : Thread nD τ) arg4 fullShare x1 ∗ owns (c : Thread nD τ) arg5 fullShare x2
            ∗ owns (c : Thread nD τ) arg6 fullShare xi3 ∗ owns (c : Thread nD τ) arg7 fullShare (k0_pay4 x0 x1 s0)
            ∗ owns (c : Thread nD τ) arg8 fullShare (k0_pay5 x0 x2 s1)) -∗ K ⟨⟩))
      ⊢ wp frame (wpE (defs₀ (F := F)) Variants.none c none) E (cc0__kernel_a i arg3 harg3 arg4 harg4 arg5 harg5 arg6 harg6 arg7 harg7 arg8 harg8) K := by
  simp only [cc0__kernel_a_eq_skeleton]; unfold cc0__kernel_a_skel
  unfold owns
  iintro ⟨⟨%f0, %hf0, H0⟩, ⟨%f1, %hf1, H1⟩, ⟨%f2, %hf2, H2⟩, ⟨%f3, %hf3, H3⟩, ⟨%f7, %hf7, H7⟩, ⟨%f8, %hf8, H8⟩, Hk⟩
  subst hf0; subst hf1; subst hf2; subst hf3; subst hf7; subst hf8
  sl_exec (disch := first | exact hc0 | exact hc1)
  sl_step
  iapply Hk
  isplitl [H0]
  · iexists _; isplitr; · ipureintro; rfl
    iexact H0
  isplitl [H1]
  · iexists _; isplitr; · ipureintro; rfl
    iexact H1
  isplitl [H2]
  · iexists _; isplitr; · ipureintro; rfl
    iexact H2
  isplitl [H3]
  · iexists _; isplitr; · ipureintro; rfl
    iexact H3
  isplitl [H7]
  · iexists _; isplitr
    swap; · iexact H7
    ipureintro
    refine (read_store_whole2 _ _ _ _).trans ?_
    sl_unfold_words
    simp only [View.readAt_eq_ld, View.ld_unit_zero (S := S1x512x512) hz3, View.ld_unit_zero (S := S1x512x1408) hz3,
      View.ld_unit_zero (S := S512x1408) hz2, View.readCov_unit_zero (S := S512x1408) _ hz2]
  iexists _; isplitr
  swap; · iexact H8
  · ipureintro
    refine (read_store_whole2 _ _ _ _).trans ?_
    sl_unfold_words
    simp only [View.readAt_eq_ld, View.ld_unit_zero (S := S1x512x512) hz3, View.ld_unit_zero (S := S1x512x1408) hz3,
      View.ld_unit_zero (S := S512x1408) hz2, View.readCov_unit_zero (S := S512x1408) _ hz2]

set_option maxHeartbeats 1000000 in
/-- k = 3: each accumulator gains the last tile's product, and the output block takes the gated product of the two. -/
theorem run_last (c : Dev nD) (i : grid0.Coords)
    (arg3 : Memref sig .tc .vmem S1x512x512 .f32) (harg3 : arg3.IsWhole) (arg4 : Memref sig .tc .vmem S1x512x1408 .f32) (harg4 : arg4.IsWhole)
    (arg5 : Memref sig .tc .vmem S1x512x1408 .f32) (harg5 : arg5.IsWhole) (arg6 : Memref sig .tc .vmem S1x512x1408 .bf16) (harg6 : arg6.IsWhole)
    (arg7 : Memref sig .tc .vmem S512x1408 .f32) (harg7 : arg7.IsWhole) (arg8 : Memref sig .tc .vmem S512x1408 .f32) (harg8 : arg8.IsWhole)
    (hc0 : ¬ condFirst i) (hc1 : condLast i)
    (x0 : Vec F S1x512x512 .f32) (x1 x2 : Vec F S1x512x1408 .f32) (s0 s1 : Vec F S512x1408 .f32)
    (E : Set ℕ) (K : PUnit → sProp 𝕄) :
    iprop(owns (c : Thread nD τ) arg3 fullShare x0 ∗ owns (c : Thread nD τ) arg4 fullShare x1 ∗ owns (c : Thread nD τ) arg5 fullShare x2
        ∗ (∃ d, owns (c : Thread nD τ) arg6 fullShare d) ∗ owns (c : Thread nD τ) arg7 fullShare s0 ∗ owns (c : Thread nD τ) arg8 fullShare s1
        ∗ (iprop(owns (c : Thread nD τ) arg3 fullShare x0 ∗ owns (c : Thread nD τ) arg4 fullShare x1 ∗ owns (c : Thread nD τ) arg5 fullShare x2
            ∗ owns (c : Thread nD τ) arg6 fullShare (k0_pay6 (k0_pay4 x0 x1 s0) (k0_pay5 x0 x2 s1)) ∗ owns (c : Thread nD τ) arg7 fullShare (k0_pay4 x0 x1 s0)
            ∗ owns (c : Thread nD τ) arg8 fullShare (k0_pay5 x0 x2 s1)) -∗ K ⟨⟩))
      ⊢ wp frame (wpE (defs₀ (F := F)) Variants.none c none) E (cc0__kernel_a i arg3 harg3 arg4 harg4 arg5 harg5 arg6 harg6 arg7 harg7 arg8 harg8) K := by
  simp only [cc0__kernel_a_eq_skeleton]; unfold cc0__kernel_a_skel
  unfold owns
  iintro ⟨⟨%f0, %hf0, H0⟩, ⟨%f1, %hf1, H1⟩, ⟨%f2, %hf2, H2⟩, ⟨%d3, %f3, %hf3, H3⟩, ⟨%f7, %hf7, H7⟩, ⟨%f8, %hf8, H8⟩, Hk⟩
  subst hf0; subst hf1; subst hf2; subst hf7; subst hf8
  sl_exec (disch := first | exact hc0 | exact hc1)
  sl_step
  iapply Hk
  isplitl [H0]
  · iexists _; isplitr; · ipureintro; rfl
    iexact H0
  isplitl [H1]
  · iexists _; isplitr; · ipureintro; rfl
    iexact H1
  isplitl [H2]
  · iexists _; isplitr; · ipureintro; rfl
    iexact H2
  isplitl [H3]
  · iexists _; isplitr
    swap; · iexact H3
    ipureintro
    refine (read_store_whole3 _ _ _ _).trans ?_
    sl_unfold_words
    simp only [View.readAt_eq_ld, View.ld_unit_zero (S := S1x512x512) hz3, View.ld_unit_zero (S := S1x512x1408) hz3,
      View.ld_unit_zero (S := S512x1408) hz2, View.readCov_unit_zero (S := S512x1408) _ hz2]
  isplitl [H7]
  · iexists _; isplitr
    swap; · iexact H7
    ipureintro
    refine (read_store_whole2 _ _ _ _).trans ?_
    sl_unfold_words
    simp only [View.readAt_eq_ld, View.ld_unit_zero (S := S1x512x512) hz3, View.ld_unit_zero (S := S1x512x1408) hz3,
      View.ld_unit_zero (S := S512x1408) hz2, View.readCov_unit_zero (S := S512x1408) _ hz2]
  iexists _; isplitr
  swap; · iexact H8
  · ipureintro
    refine (read_store_whole2 _ _ _ _).trans ?_
    sl_unfold_words
    simp only [View.readAt_eq_ld, View.ld_unit_zero (S := S1x512x512) hz3, View.ld_unit_zero (S := S1x512x1408) hz3,
      View.ld_unit_zero (S := S512x1408) hz2, View.readCov_unit_zero (S := S512x1408) _ hz2]

end Cert.KernelIdeal.R0
end
-- ==== Proof.Region0Dat.lean ====
import proofs.«167459_j88605175316749_1_alg».proof.Proof.Gen.KernelIdeal.Launch
import proofs.«167459_j88605175316749_1_alg».proof.Proof.Gen.KernelIdeal.Skeleton
import proofs.«167459_j88605175316749_1_alg».proof.Proof.Gen.KernelIdeal.Points
import proofs.«167459_j88605175316749_1_alg».proof.Proof.Region0Body
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.KernelIdeal.R0

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

/-! # The accumulating region's proof data

Grid point t = (g, m, k), k fastest. The two accumulators after point t hold the partial products over the tiles 0..k of
the point's row block; the output block is written (and written back) at k = 3 only. -/

variable (V : (c : Dev nD) → (b : Ref sig .tc) → Buf (Elt F) ((c : Thread nD τ).loc b))

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-! ## The conditions over the grid -/

theorem hcondFirst : ∀ t : Fin cfg0.N, condFirst (grid0.coords t) ↔ t.val % 4 = 0 :=
  (by decide +kernel : ∀ t : Fin grid0.N, condFirst (grid0.coords t) ↔ t.val % 4 = 0)
theorem hcondLast : ∀ t : Fin cfg0.N, condLast (grid0.coords t) ↔ t.val % 4 = 3 :=
  (by decide +kernel : ∀ t : Fin grid0.N, condLast (grid0.coords t) ↔ t.val % 4 = 3)
/-- Away from k = 3 the output window is idle and not written back; at k = 3 it is live. -/
theorem idleAt3 : ∀ t : Fin cfg0.N, ¬ condLast (grid0.coords t) → cfg0.idle 3 (grid0.coords t) = true := by decide +kernel
theorem noFlush3 : ∀ t : Fin cfg0.N, ¬ condLast (grid0.coords t) → (cfg0.win 3).flush t = false := by decide +kernel
theorem liveAt3 : ∀ t : Fin cfg0.N, condLast (grid0.coords t) → cfg0.idle 3 (grid0.coords t) = false := by decide +kernel

/-! ## The accumulators, point by point -/

/-- One point's contribution added to the gate accumulator `s`. -/
def stepG (c : Dev nD) (n : ℕ) (s : Vec F S512x1408 .f32) : Vec F S512x1408 .f32 :=
  if h : n < cfg0.N then k0_pay4 (iblk0 V c 0 ⟨n, h⟩) (iblk0 V c 1 ⟨n, h⟩) s else s
/-- One point's contribution added to the up accumulator `s`. -/
def stepU (c : Dev nD) (n : ℕ) (s : Vec F S512x1408 .f32) : Vec F S512x1408 .f32 :=
  if h : n < cfg0.N then k0_pay5 (iblk0 V c 0 ⟨n, h⟩) (iblk0 V c 2 ⟨n, h⟩) s else s

/-- The gate accumulator after point `n`: restarted from zeros where k = 0. -/
def accG (c : Dev nD) : ℕ → Vec F S512x1408 .f32
  | 0 => stepG V c 0 k0_pay1
  | n + 1 => if (n + 1) % 4 = 0 then stepG V c (n + 1) k0_pay1 else stepG V c (n + 1) (accG c n)
/-- The up accumulator after point `n`. -/
def accU (c : Dev nD) : ℕ → Vec F S512x1408 .f32
  | 0 => stepU V c 0 k0_pay2
  | n + 1 => if (n + 1) % 4 = 0 then stepU V c (n + 1) k0_pay2 else stepU V c (n + 1) (accU c n)

theorem accG_first (c : Dev nD) (t : Fin cfg0.N) (h : t.val % 4 = 0) :
    accG V c t.val = k0_pay4 (iblk0 V c 0 t) (iblk0 V c 1 t) k0_pay1 := by
  obtain ⟨n, hn⟩ := t
  cases n with
  | zero => unfold accG stepG; rw [dif_pos hn]
  | succ n => unfold accG stepG; rw [if_pos h, dif_pos hn]
theorem accG_next (c : Dev nD) (t : Fin cfg0.N) (h : t.val % 4 ≠ 0) :
    accG V c t.val = k0_pay4 (iblk0 V c 0 t) (iblk0 V c 1 t) (accG V c (t.val - 1)) := by
  obtain ⟨n, hn⟩ := t
  cases n with
  | zero => exact absurd rfl h
  | succ n => rw [accG]; unfold stepG; rw [if_neg h, dif_pos hn]; rfl
theorem accU_first (c : Dev nD) (t : Fin cfg0.N) (h : t.val % 4 = 0) :
    accU V c t.val = k0_pay5 (iblk0 V c 0 t) (iblk0 V c 2 t) k0_pay2 := by
  obtain ⟨n, hn⟩ := t
  cases n with
  | zero => unfold accU stepU; rw [dif_pos hn]
  | succ n => unfold accU stepU; rw [if_pos h, dif_pos hn]
theorem accU_next (c : Dev nD) (t : Fin cfg0.N) (h : t.val % 4 ≠ 0) :
    accU V c t.val = k0_pay5 (iblk0 V c 0 t) (iblk0 V c 2 t) (accU V c (t.val - 1)) := by
  obtain ⟨n, hn⟩ := t
  cases n with
  | zero => exact absurd rfl h
  | succ n => rw [accU]; unfold stepU; rw [if_neg h, dif_pos hn]; rfl

/-! ## The proof data -/

/-- The scoped buffers the kernel neither stages nor names (the other region's staging buffers), each at some contents. -/
def others (c : Dev nD) : sProp 𝕄 :=
  iprop((∃ f : Buf (Elt F) ((c : Thread nD τ).loc cc1_stg0_0), ((c : Thread nD τ).loc cc1_stg0_0) ↦{fullShare} f) ∗ (∃ f : Buf (Elt F) ((c : Thread nD τ).loc cc1_stg0_1), ((c : Thread nD τ).loc cc1_stg0_1) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg1_1), ((c : Thread nD τ).loc cc1_stg1_1) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg2_1), ((c : Thread nD τ).loc cc1_stg2_1) ↦{fullShare} f))

/-- The invariant before point `t`: the two accumulators hold what the point before left, unless `t` restarts them
    (k = 0), where they may hold anything; the other scoped buffers and the generator register ride along. -/
def inv0 (c : Dev nD) (t : Fin (cfg0.N + 1)) : sProp 𝕄 :=
  iprop((∃ s0 s1, ⌜t.val % 4 ≠ 0 → s0 = accG V c (t.val - 1) ∧ s1 = accU V c (t.val - 1)⌝
      ∗ owns (c : Thread nD τ) (Memref.whole cc0_scratch0 : Memref sig .tc .vmem S512x1408 .f32) fullShare s0
      ∗ owns (c : Thread nD τ) (Memref.whole cc0_scratch1 : Memref sig .tc .vmem S512x1408 .f32) fullShare s1)
    ∗ others (F := F) c ∗ ∃ r, prngReg c r)

/-- The proof data of the accumulating region on core `c`: the arrays as the region finds them; after the body each input
    buffer at its block, the output buffer at the gated product of the two accumulators; the two windows on the weight
    array each at half of it. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => k0_pay6 (accG V c t.val) (accU V c t.val)
  Φ t := inv0 V c t
  q w := match w with
    | ⟨0, _⟩ => fullShare
    | ⟨1, _⟩ => fullShare.left
    | ⟨2, _⟩ => fullShare.right
    | ⟨3, _⟩ => fullShare
  owed _ := 0

theorem A_eq0 (c : Dev nD) (w : Fin cfg0.W) : (dat0 V c).A w = V c (Pipeline.arrRef spec0 w) := by dsimp only [dat0]
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = k0_pay6 (accG V c t.val) (accU V c t.val) := by dsimp only [dat0]

/-- Each input's current staging buffer holds its block at every point. -/
theorem before0_0 (c : Dev nD) (t : Fin cfg0.N) (d) : (dat0 V c).before 0 t d = iblk0 V c 0 t :=
  ((dat0 V c).before_in_eq_fetched 0 rfl (fun _ => rfl) (fun _ _ _ => rfl) (fun t => by rw [after0_0]; unfold Dat.blockOf iblk0; rw [A_eq0]; try rfl) t d).trans
    (by unfold Dat.fetched Dat.blockOf iblk0; rw [A_eq0]; try rfl)
theorem before0_1 (c : Dev nD) (t : Fin cfg0.N) (d) : (dat0 V c).before 1 t d = iblk0 V c 1 t :=
  ((dat0 V c).before_in_eq_fetched 1 rfl (fun _ => rfl) (fun _ _ _ => rfl) (fun t => by rw [after0_1]; unfold Dat.blockOf iblk0; rw [A_eq0]; try rfl) t d).trans
    (by unfold Dat.fetched Dat.blockOf iblk0; rw [A_eq0]; try rfl)
theorem before0_2 (c : Dev nD) (t : Fin cfg0.N) (d) : (dat0 V c).before 2 t d = iblk0 V c 2 t :=
  ((dat0 V c).before_in_eq_fetched 2 rfl (fun _ => rfl) (fun _ _ _ => rfl) (fun t => by rw [after0_2]; unfold Dat.blockOf iblk0; rw [A_eq0]; try rfl) t d).trans
    (by unfold Dat.fetched Dat.blockOf iblk0; rw [A_eq0]; try rfl)

end Cert.KernelIdeal.R0
end
-- ==== Proof.Region0Obl.lean ====
import proofs.«167459_j88605175316749_1_alg».proof.Proof.Gen.KernelIdeal.Launch
import proofs.«167459_j88605175316749_1_alg».proof.Proof.Gen.KernelIdeal.Skeleton
import proofs.«167459_j88605175316749_1_alg».proof.Proof.Gen.KernelIdeal.Points
import proofs.«167459_j88605175316749_1_alg».proof.Proof.Region0Dat
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.KernelIdeal.R0

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

/-! # The accumulating region's body obligation -/

variable (V : (c : Dev nD) → (b : Ref sig .tc) → Buf (Elt F) ((c : Thread nD τ).loc b))

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d)))

/-- what it returns where the output window is idle (k ≠ 3): the output buffer as it was handed, -/
def bodyPostIdle0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ (∃ d, owns (c : Thread nD τ) (st0_3 t) fullShare ((dat0 V c).before 3 t d)))

/-- and where it is live (k = 3): the output buffer at the gated product. -/
def bodyPostLive0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t))

theorem succ_sub (t : Fin cfg0.N) : t.succ.val - 1 = t.val := by simp

/-- k = 0. -/
theorem sound_first (c : Dev nD) (t : Fin cfg0.N) (h0 : condFirst (grid0.coords t)) (h1 : ¬ condLast (grid0.coords t)) :
    bodyPre0 V c t ⊢ wp frame (wpE (defs₀ (F := F)) Variants.none c none) Set.univ (bodyAt0 t) (fun _ => bodyPostIdle0 V c t) := by
  have ht : t.val % 4 = 0 := (hcondFirst t).mp h0
  unfold bodyPre0 bodyPostIdle0 bodyAt0
  simp only [before0_0, before0_1, before0_2]
  rw [show (dat0 V c).Φ t.castSucc = inv0 V c t.castSucc from rfl, show (dat0 V c).Φ t.succ = inv0 V c t.succ from rfl,
    show (dat0 V c).owesAt () t.succ = (dat0 V c).owesAt () t.castSucc from rfl, after0_0, after0_1, after0_2]
  unfold inv0
  iintro ⟨⟨⟨%s0, %s1, %hs, HS0, HS1⟩, Hoth, Hp⟩, Ho, ⟨%d0, H0⟩, ⟨%d1, H1⟩, ⟨%d2, H2⟩, ⟨%d3, H3⟩⟩
  iapply (run_first c (grid0.coords t) _ _ _ _ _ _ _ _ _ _ _ _ h0 h1 (iblk0 V c 0 t) (iblk0 V c 1 t) (iblk0 V c 2 t) ((dat0 V c).before 3 t d3) Set.univ _)
  isplitl [H0]; · iexact H0
  isplitl [H1]; · iexact H1
  isplitl [H2]; · iexact H2
  isplitl [H3]; · iexact H3
  isplitl [HS0]; · iexists _; iexact HS0
  isplitl [HS1]; · iexists _; iexact HS1
  iintro ⟨H0, H1, H2, H3, HS0, HS1⟩
  isplitl [HS0 HS1 Hoth Hp]
  · isplitl [HS0 HS1]
    · iexists _, _; isplitr
      swap; · isplitl [HS0] <;> iassumption
      ipureintro; intro _; rw [succ_sub]; exact ⟨(accG_first V c t ht).symm, (accU_first V c t ht).symm⟩
    isplitl [Hoth] <;> iassumption
  isplitl [Ho]; · iexact Ho
  isplitl [H0]; · iexact H0
  isplitl [H1]; · iexact H1
  isplitl [H2]; · iexact H2
  iexists _; iexact H3

/-- 0 < k < 3. -/
theorem sound_mid (c : Dev nD) (t : Fin cfg0.N) (h0 : ¬ condFirst (grid0.coords t)) (h1 : ¬ condLast (grid0.coords t)) :
    bodyPre0 V c t ⊢ wp frame (wpE (defs₀ (F := F)) Variants.none c none) Set.univ (bodyAt0 t) (fun _ => bodyPostIdle0 V c t) := by
  have ht : t.val % 4 ≠ 0 := fun e => h0 ((hcondFirst t).mpr e)
  unfold bodyPre0 bodyPostIdle0 bodyAt0
  simp only [before0_0, before0_1, before0_2]
  rw [show (dat0 V c).Φ t.castSucc = inv0 V c t.castSucc from rfl, show (dat0 V c).Φ t.succ = inv0 V c t.succ from rfl,
    show (dat0 V c).owesAt () t.succ = (dat0 V c).owesAt () t.castSucc from rfl, after0_0, after0_1, after0_2]
  unfold inv0
  iintro ⟨⟨⟨%s0, %s1, %hs, HS0, HS1⟩, Hoth, Hp⟩, Ho, ⟨%d0, H0⟩, ⟨%d1, H1⟩, ⟨%d2, H2⟩, ⟨%d3, H3⟩⟩
  obtain ⟨rfl, rfl⟩ := hs ht
  iapply (run_mid c (grid0.coords t) _ _ _ _ _ _ _ _ _ _ _ _ h0 h1 (iblk0 V c 0 t) (iblk0 V c 1 t) (iblk0 V c 2 t) ((dat0 V c).before 3 t d3) (accG V c (t.val - 1)) (accU V c (t.val - 1)) Set.univ _)
  isplitl [H0]; · iexact H0
  isplitl [H1]; · iexact H1
  isplitl [H2]; · iexact H2
  isplitl [H3]; · iexact H3
  isplitl [HS0]; · iexact HS0
  isplitl [HS1]; · iexact HS1
  iintro ⟨H0, H1, H2, H3, HS0, HS1⟩
  isplitl [HS0 HS1 Hoth Hp]
  · isplitl [HS0 HS1]
    · iexists _, _; isplitr
      swap; · isplitl [HS0] <;> iassumption
      ipureintro; intro _; rw [succ_sub]; exact ⟨(accG_next V c t ht).symm, (accU_next V c t ht).symm⟩
    isplitl [Hoth] <;> iassumption
  isplitl [Ho]; · iexact Ho
  isplitl [H0]; · iexact H0
  isplitl [H1]; · iexact H1
  isplitl [H2]; · iexact H2
  iexists _; iexact H3

/-- k = 3. -/
theorem sound_last (c : Dev nD) (t : Fin cfg0.N) (h0 : ¬ condFirst (grid0.coords t)) (h1 : condLast (grid0.coords t)) :
    bodyPre0 V c t ⊢ wp frame (wpE (defs₀ (F := F)) Variants.none c none) Set.univ (bodyAt0 t) (fun _ => bodyPostLive0 V c t) := by
  have ht : t.val % 4 ≠ 0 := fun e => h0 ((hcondFirst t).mpr e)
  have ht3 : t.val % 4 = 3 := (hcondLast t).mp h1
  unfold bodyPre0 bodyPostLive0 bodyAt0
  simp only [before0_0, before0_1, before0_2]
  rw [show (dat0 V c).Φ t.castSucc = inv0 V c t.castSucc from rfl, show (dat0 V c).Φ t.succ = inv0 V c t.succ from rfl,
    show (dat0 V c).owesAt () t.succ = (dat0 V c).owesAt () t.castSucc from rfl, after0_0, after0_1, after0_2, after0_3,
    accG_next V c t ht, accU_next V c t ht]
  unfold inv0
  iintro ⟨⟨⟨%s0, %s1, %hs, HS0, HS1⟩, Hoth, Hp⟩, Ho, ⟨%d0, H0⟩, ⟨%d1, H1⟩, ⟨%d2, H2⟩, ⟨%d3, H3⟩⟩
  obtain ⟨rfl, rfl⟩ := hs ht
  iapply (run_last c (grid0.coords t) _ _ _ _ _ _ _ _ _ _ _ _ h0 h1 (iblk0 V c 0 t) (iblk0 V c 1 t) (iblk0 V c 2 t) (accG V c (t.val - 1)) (accU V c (t.val - 1)) Set.univ _)
  isplitl [H0]; · iexact H0
  isplitl [H1]; · iexact H1
  isplitl [H2]; · iexact H2
  isplitl [H3]; · iexists _; iexact H3
  isplitl [HS0]; · iexact HS0
  isplitl [HS1]; · iexact HS1
  iintro ⟨H0, H1, H2, H3, HS0, HS1⟩
  isplitl [HS0 HS1 Hoth Hp]
  · isplitl [HS0 HS1]
    · iexists _, _; isplitr
      swap; · isplitl [HS0] <;> iassumption
      ipureintro; intro hne; exact absurd (show t.succ.val % 4 = 0 by rw [Fin.val_succ]; omega) hne
    isplitl [Hoth] <;> iassumption
  isplitl [Ho]; · iexact Ho
  isplitl [H0]; · iexact H0
  isplitl [H1]; · iexact H1
  isplitl [H2]; · iexact H2
  iexact H3

/-- The library's body obligation, at every point. -/
theorem body_obligation0 (c : Dev nD) : BodyObligation (dat0 (F := F) V c) (defs₀ (F := F)) Variants.none () Set.univ := fun t => by
  rw [bigSep_W0, bigSep_W0]
  by_cases h1 : condLast (grid0.coords t)
  · have h0 : ¬ condFirst (grid0.coords t) := fun h => by
      have := (hcondFirst t).mp h; have := (hcondLast t).mp h1; omega
    rw [show cfg0.idle 3 (cfg0.grid.coords t) = false from liveAt3 t h1]
    exact sound_last V c t h0 h1
  · rw [show cfg0.idle 3 (cfg0.grid.coords t) = true from idleAt3 t h1, noFlush3 t h1]
    by_cases h0 : condFirst (grid0.coords t)
    · exact sound_first V c t h0 h1
    · exact sound_mid V c t h0 h1

end Cert.KernelIdeal.R0
end
-- ==== Proof.Region1.lean ====
/- Region 1 of the kernel program (the second pallas_call: the product of the activation block with
   the down-projection weights), at a PARAMETER `V` — the TensorCore's buffer contents when the region is
   entered — and generic in the float instance: each window's block at a grid point, what the body leaves in
   the output window's buffer as a function of the two input blocks, the body's triple, the pipeline's proof
   data and the body obligation at every point. -/
import proofs.«167459_j88605175316749_1_alg».proof.Proof.Gen.KernelIdeal.Launch
import proofs.«167459_j88605175316749_1_alg».proof.Proof.Gen.KernelIdeal.Skeleton
import proofs.«167459_j88605175316749_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.R1

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! ## The windows' blocks -/

/-- Window `w`'s block at point `t`, read off its array as the region finds it (`V`). -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's current staging buffer holds its block at every point, for any proof data whose array is
    `V`'s and whose body leaves the block in place. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- Input window 1's current staging buffer holds its block at every point, fetched there or not: where it is
    not fetched its block index has not moved, and the body left the block in place. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-! ## The body's accesses -/

abbrev r1_0 : Rect S1x512x1408 := Rect.unit (s := S1x512x1408) ![0, 0, 0] S1x512x1408.size inb_S1x512x1408_S1x512x1408_0_0_0
abbrev r1_1 : Rect S1x1408x2048 := Rect.unit (s := S1x1408x2048) ![0, 0, 0] S1x1408x2048.size inb_S1x1408x2048_S1x1408x2048_0_0_0
abbrev r1_2 : Rect S1x512x2048 := Rect.unit (s := S1x512x2048) ![0, 0, 0] S1x512x2048.size inb_S1x512x2048_S1x512x2048_0_0_0

/-! ## What the body leaves in the output window's buffer -/

/-- Window 2's staging buffer after the body, from the two input windows' blocks: its one store, of the
    payload over what the two loads read. -/
def out1_2 (x0 : Vec F S1x512x1408 .bf16) (x1 : Vec F S1x1408x2048 .f32) : Vec F S1x512x2048 .f32 :=
  View.canon [⟨r1_2, k1_pay1 (View.ld x0 r1_0) (View.ld x1 r1_1)⟩]

/-- The store's rectangle is the whole buffer, so it covers it. -/
theorem cover1_2 (p0 : Vec F S1x512x2048 .f32) (y : S1x512x2048.Idx) :
    ∃ pc ∈ ([⟨r1_2, p0⟩] : List (View.Piece (Elt F) S1x512x2048 .f32)), y ∈ pc.1.set :=
  View.cover_of_tiled [⟨r1_2, p0⟩] S1x512x2048.size (by rfl) y

/-! ## The body's triple -/

set_option maxHeartbeats 1000000 in
/-- The kernel body on whole staging memrefs, the inputs' at contents `x0`, `x1` and the output's at anything,
    runs to the continuation holding the inputs' as they were and the output's at `out1_2 x0 x1`. -/
theorem sound_kernel1 (c : Dev nD) (E : Set ℕ) (i : grid1.Coords) (arg2 : Memref sig .tc .vmem S1x512x1408 .bf16) (harg2 : arg2.IsWhole) (arg3 : Memref sig .tc .vmem S1x1408x2048 .f32) (harg3 : arg3.IsWhole) (arg4 : Memref sig .tc .vmem S1x512x2048 .f32) (harg4 : arg4.IsWhole)
    (x0 : Vec F S1x512x1408 .bf16) (x1 : Vec F S1x1408x2048 .f32) (K : PUnit → sProp 𝕄) :
    iprop(owns (c : Thread nD τ) arg2 fullShare x0 ∗ owns (c : Thread nD τ) arg3 fullShare x1 ∗ (∃ d, owns (c : Thread nD τ) arg4 fullShare d)
        ∗ (iprop(owns (c : Thread nD τ) arg2 fullShare x0 ∗ owns (c : Thread nD τ) arg3 fullShare x1 ∗ owns (c : Thread nD τ) arg4 fullShare (out1_2 x0 x1)) -∗ K ⟨⟩))
      ⊢ wp frame (wpE (defs₀ (F := F)) Variants.none c none) E (cc1__kernel_b i arg2 harg2 arg3 harg3 arg4 harg4) K := by
  simp only [cc1__kernel_b_eq_skeleton]; unfold cc1__kernel_b_skel
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover1_2 _)

/-! ## The pipeline's proof data -/

/-- The proof data of pipeline 1 on core `c`: the arrays as the region finds them (`V`); after the body at
    point `t` each input's buffer at its block and the output's at `out1_2` of the input blocks; the invariant
    the scoped rest and the generator register, untouched; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => out1_2 (iblk1 V c 0 t) (iblk1 V c 1 t)
  Φ _ := Pipeline.ΦA spec1 c
  q _ := fullShare
  owed _ := 0

/-- The proof data's arrays are the region-entry contents. -/
theorem A_eq1 (c : Dev nD) (w : Fin cfg1.W) : (dat1 V c).A w = V c (Pipeline.arrRef spec1 w) := by
  dsimp only [dat1]

/-- What the body leaves, window by window. -/
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = out1_2 (iblk1 V c 0 t) (iblk1 V c 1 t) := by dsimp only [dat1]

/-- Each input's current staging buffer holds its block at every point, fetched there or not. -/
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d

/-! ## The body obligation, at a generic point -/

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t))

/-- The body at any point: the inputs' memrefs hold their blocks, so `sound_kernel1` applies; the invariant and
    the core's `owes` pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1]
  rw [show (dat1 V c).Φ t.succ = (dat1 V c).Φ t.castSucc from rfl,
    show (dat1 V c).owesAt () t.succ = (dat1 V c).owesAt () t.castSucc from rfl,
    after1_0, after1_1, after1_2]
  iintro ⟨HΦ, Ho, ⟨%d0, H0⟩, ⟨%d1, H1⟩, ⟨%d2, H2⟩⟩
  iapply (sound_kernel1 c Set.univ _ _ _ _ _ _ _ (iblk1 V c 0 t) (iblk1 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The library's body obligation, at every point. -/
theorem body_obligation1 (c : Dev nD) : BodyObligation (dat1 (F := F) V c) (defs₀ (F := F)) Variants.none () Set.univ := fun t => by
  rw [bigSep_W1, bigSep_W1]
  exact sound_body1 V c t

end Cert.KernelIdeal.R1

end
-- ==== Proof.Family.lean ====
import proofs.«167459_j88605175316749_1_alg».proof.Proof.Gen.KernelIdeal.Launch
import proofs.«167459_j88605175316749_1_alg».proof.Proof.Gen.KernelIdeal.Skeleton
import proofs.«167459_j88605175316749_1_alg».proof.Proof.Gen.KernelIdeal.Points
import proofs.«167459_j88605175316749_1_alg».proof.Proof.Region0Obl
import proofs.«167459_j88605175316749_1_alg».proof.Proof.Region1
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.KernelIdeal.Whole

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

/-! # The program's two regions in sequence: the buffer contents at the boundaries, and the proof data family

@main is the accumulating region, which writes the activation array, then the product region, which reads it and writes
the result. Nothing else touches a buffer. -/

variable (m : (ℓ : Loc nD τ sig) → Buf (Elt F) ℓ)

/-- Core `c`'s buffers at launch; -/
abbrev W0 : Dev nD → Valuation τ sig (Elt F) := fun c b => m (c, b)
/-- the same read at the TensorCore's references (what the first region's proof data take). -/
abbrev V0 : (c : Dev nD) → (b : Ref sig .tc) → Buf (Elt F) ((c : Thread nD τ).loc b) := fun c b => W0 m c b
/-- After the first region: the activation array at what its write-backs leave, every other buffer as launched. -/
def W1 (c : Dev nD) : Valuation τ sig (Elt F) :=
  Function.update (W0 m c) main_v0 ((R0.dat0 (V0 m) c).arrAt 3 cfg0.N)
abbrev V1 : (c : Dev nD) → (b : Ref sig .tc) → Buf (Elt F) ((c : Thread nD τ).loc b) := fun c b => W1 m c b
/-- After the second region: the result array at what its write-backs leave. -/
def W2 (c : Dev nD) : Valuation τ sig (Elt F) :=
  Function.update (W1 m c) main_v1 ((R1.dat1 (V1 m) c).arrAt 2 cfg1.N)
abbrev V2 : (c : Dev nD) → (b : Ref sig .tc) → Buf (Elt F) ((c : Thread nD τ).loc b) := fun c b => W2 m c b

theorem W1_v0 (c : Dev nD) : W1 m c main_v0 = (R0.dat0 (V0 m) c).arrAt 3 cfg0.N := by
  unfold W1; exact Function.update_self ..
theorem W1_of (c : Dev nD) (r : Ref sig .tc) (h : r ≠ main_v0) : W1 m c r = W0 m c r := by
  unfold W1; exact Function.update_of_ne (StableHlo.devRef_ne_of_ne h) ..
theorem W2_v1 (c : Dev nD) : W2 m c main_v1 = (R1.dat1 (V1 m) c).arrAt 2 cfg1.N := by
  unfold W2; exact Function.update_self ..
theorem W2_of (c : Dev nD) (r : Ref sig .tc) (h : r ≠ main_v1) : W2 m c r = W1 m c r := by
  unfold W2; exact Function.update_of_ne (StableHlo.devRef_ne_of_ne h) ..

/-- The prefetched tables' admissible contents: no pipeline has a table. -/
abbrev adm : (p : Fin 2) → (pcfgs (F := F) p).Adm := fun p => (cfgs p).toPCfg_adm
/-- Every pipeline's proof data, each at its region's entry contents. -/
def pdats : (p : Fin 2) → (c : Dev nD) → Dat τ (Elt F) Unit ℕ (UR sig nD τ) ℕ (Pipeline.pin (pcfgs (F := F)) adm p) c
  | ⟨0, _⟩ => fun c => R0.dat0 (V0 m) c
  | ⟨1, _⟩ => fun c => R1.dat1 (V1 m) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every segment: the generator register at some state and the core's `owes`, at nothing. -/
abbrev R (c : Dev nD) : sProp 𝕄 := iprop((∃ r, prngReg c r) ∗ ∃ W, owes (c : Thread nD τ) (0 : CellTallies nD τ sig Unit) W)

end Cert.KernelIdeal.Whole
end
-- ==== Proof.Region0Arrays.lean ====
import proofs.«167459_j88605175316749_1_alg».proof.Proof.Gen.KernelIdeal.Launch
import proofs.«167459_j88605175316749_1_alg».proof.Proof.Gen.KernelIdeal.Skeleton
import proofs.«167459_j88605175316749_1_alg».proof.Proof.Gen.KernelIdeal.Points
import proofs.«167459_j88605175316749_1_alg».proof.Proof.Region0Dat
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.KernelIdeal.R0

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

/-! # The accumulating region's arrays at entry and exit

Two windows read the weight array: it is held whole outside the region and in two halves, one per window, inside. -/

variable (V : (c : Dev nD) → (b : Ref sig .tc) → Buf (Elt F) ((c : Thread nD τ).loc b))

/-- The distinct buffers behind the region's four windows, listed. -/
theorem arrBufs0_eq (c : Dev nD) (W : (b : Ref sig .tc) → Buf (Elt F) ((c : Thread nD τ).loc b)) :
    (Pipeline.arrBufs (Ix := Unit) (Name := ℕ) (U := UR sig nD τ) (Lvl := ℕ) spec0 c W : sProp 𝕄)
      = iprop((((c : Thread nD τ).loc main_arg0) ↦{fullShare} W main_arg0) ∗ (((c : Thread nD τ).loc main_arg1) ↦{fullShare} W main_arg1)
          ∗ (((c : Thread nD τ).loc main_v0) ↦{fullShare} W main_v0)) := by
  unfold Pipeline.arrBufs
  exact Idealize.SL.BI.bigSep_eq_bigSepL_of_eq [main_arg0, main_arg1, main_v0] (by decide) (by decide) _

theorem arrays_in0 (c : Dev nD) (W : (b : Ref sig .tc) → Buf (Elt F) ((c : Thread nD τ).loc b))
    (G : (w : Fin cfg0.W) → Buf (Elt F) ((cfg0.win w).arr.view.loc (c : Thread nD τ)))
    (h0 : G 0 = W main_arg0) (h1 : G 1 = W main_arg1) (h2 : G 2 = W main_arg1) (h3 : G 3 = W main_v0) :
    (Pipeline.arrBufs (Ix := Unit) (Name := ℕ) (U := UR sig nD τ) (Lvl := ℕ) spec0 c W : sProp 𝕄) ⊢ (dat0 V c).arrays G := by
  rw [arrBufs0_eq]
  unfold Dat.arrays
  rw [bigSep_W0]
  rw [h0, h1, h2, h3]
  rw [show (dat0 V c).share 0 = fullShare from rfl, show (dat0 V c).share 1 = fullShare.left from rfl,
    show (dat0 V c).share 2 = fullShare.right from rfl, show (dat0 V c).share 3 = fullShare from rfl]
  try rw [show (cfg0.win 0).arr.view.set = Finset.univ from (arr_whole0 0).set_eq_univ]
  try rw [show (cfg0.win 1).arr.view.set = Finset.univ from (arr_whole0 1).set_eq_univ]
  try rw [show (cfg0.win 2).arr.view.set = Finset.univ from (arr_whole0 2).set_eq_univ]
  try rw [show (cfg0.win 3).arr.view.set = Finset.univ from (arr_whole0 3).set_eq_univ]
  have hsh : ((((c : Thread nD τ).loc main_arg1) ↦{fullShare} W main_arg1 : sProp 𝕄))
      ⊢ iprop((((c : Thread nD τ).loc main_arg1) ↦{fullShare.left} W main_arg1) ∗ (((c : Thread nD τ).loc main_arg1) ↦{fullShare.right} W main_arg1)) :=
    (pointsTo_share (PosShare.mem_left_op_right fullShare)).1
  iintro ⟨H0, H1, H3⟩
  ihave H1' := hsh $$ H1
  icases H1' with ⟨H1a, H1b⟩
  isplitl [H0]; · iexact H0
  isplitl [H1a]; · iexact H1a
  isplitl [H1b]; · iexact H1b
  iexact H3

theorem arrays_out0 (c : Dev nD) (W : (b : Ref sig .tc) → Buf (Elt F) ((c : Thread nD τ).loc b))
    (G : (w : Fin cfg0.W) → Buf (Elt F) ((cfg0.win w).arr.view.loc (c : Thread nD τ)))
    (h0 : G 0 = W main_arg0) (h1 : G 1 = W main_arg1) (h2 : G 2 = W main_arg1) (h3 : G 3 = W main_v0) :
    (dat0 V c).arrays G ⊢ (Pipeline.arrBufs (Ix := Unit) (Name := ℕ) (U := UR sig nD τ) (Lvl := ℕ) spec0 c W : sProp 𝕄) := by
  rw [arrBufs0_eq]
  unfold Dat.arrays
  rw [bigSep_W0]
  rw [h0, h1, h2, h3]
  rw [show (dat0 V c).share 0 = fullShare from rfl, show (dat0 V c).share 1 = fullShare.left from rfl,
    show (dat0 V c).share 2 = fullShare.right from rfl, show (dat0 V c).share 3 = fullShare from rfl]
  try rw [show (cfg0.win 0).arr.view.set = Finset.univ from (arr_whole0 0).set_eq_univ]
  try rw [show (cfg0.win 1).arr.view.set = Finset.univ from (arr_whole0 1).set_eq_univ]
  try rw [show (cfg0.win 2).arr.view.set = Finset.univ from (arr_whole0 2).set_eq_univ]
  try rw [show (cfg0.win 3).arr.view.set = Finset.univ from (arr_whole0 3).set_eq_univ]
  iintro ⟨H0, H1a, H1b, H3⟩
  isplitl [H0]; · iexact H0
  isplitl [H1a H1b]
  · have hjn : iprop((((c : Thread nD τ).loc main_arg1) ↦{fullShare.left} W main_arg1) ∗ (((c : Thread nD τ).loc main_arg1) ↦{fullShare.right} W main_arg1))
        ⊢ ((((c : Thread nD τ).loc main_arg1) ↦{fullShare} W main_arg1 : sProp 𝕄)) :=
      (pointsTo_share (PosShare.mem_left_op_right fullShare)).2
    iapply hjn
    isplitl [H1a]; · iexact H1a
    iexact H1b
  iexact H3

end Cert.KernelIdeal.R0
end
-- ==== Proof.Reg0.lean ====
import proofs.«167459_j88605175316749_1_alg».proof.Proof.Gen.KernelIdeal.Launch
import proofs.«167459_j88605175316749_1_alg».proof.Proof.Gen.KernelIdeal.Skeleton
import proofs.«167459_j88605175316749_1_alg».proof.Proof.Gen.KernelIdeal.Points
import proofs.«167459_j88605175316749_1_alg».proof.Proof.Family
import proofs.«167459_j88605175316749_1_alg».proof.Proof.Region0Arrays
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.KernelIdeal.Whole

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

/-! # The accumulating region as a segment of @main

Entered from every unscoped buffer at the launch contents, left with the activation array at what the write-backs made.
The weight array goes in whole and comes back whole; between, each of the two windows on it holds half. -/

variable (m : (ℓ : Loc nD τ sig) → Buf (Elt F) ℓ)

/-- The unscoped buffers, at contents `W`, are the region's arrays as its proof data hold them, and the rest. -/
theorem held_split0 (c : Dev nD) :
    (StableHlo.held (c : Thread nD τ) (Pipeline.ucRefs τ sig) (W0 m c) : sProp 𝕄)
      ⊢ iprop((R0.dat0 (V0 m) c).arrays (fun w => (R0.dat0 (V0 m) c).arrAt w 0)
          ∗ Pipeline.unscopedRest (Ix := Unit) (Name := ℕ) (U := UR sig nD τ) (Lvl := ℕ) spec0 c (V0 m c)) := by
  have e : (unscopedBufs (Ix := Unit) (Name := ℕ) (U := UR sig nD τ) (Lvl := ℕ) c (V0 m c) : sProp 𝕄)
      = iprop((Pipeline.arrBufs (Ix := Unit) (Name := ℕ) (U := UR sig nD τ) (Lvl := ℕ) spec0 c (V0 m c) : sProp 𝕄)
          ∗ Pipeline.unscopedRest (Ix := Unit) (Name := ℕ) (U := UR sig nD τ) (Lvl := ℕ) spec0 c (V0 m c)) :=
    Pipeline.PerCore.unscopedBufs_split₀ (fun _ : Dev nD => cfgs) 0 c winFacts₀0.arr_unscoped (V0 m c)
  rw [← Pipeline.unscopedBufs_held (Ix := Unit) (Name := ℕ) (U := UR sig nD τ) (Lvl := ℕ) c (W0 m c), e]
  iintro ⟨Ha, Hr⟩
  isplitl [Ha]
  · iapply (R0.arrays_in0 (V0 m) c (V0 m c) (fun w => (R0.dat0 (V0 m) c).arrAt w 0) rfl rfl rfl rfl)
    iexact Ha
  iexact Hr

/-- The other way, at the exit contents. -/
theorem held_join0 (c : Dev nD) :
    iprop((R0.dat0 (V0 m) c).arrays (fun w => (R0.dat0 (V0 m) c).arrAt w cfg0.N)
        ∗ Pipeline.unscopedRest (Ix := Unit) (Name := ℕ) (U := UR sig nD τ) (Lvl := ℕ) spec0 c (V0 m c))
      ⊢ (StableHlo.held (c : Thread nD τ) (Pipeline.ucRefs τ sig) (W1 m c) : sProp 𝕄) := by
  have e : (unscopedBufs (Ix := Unit) (Name := ℕ) (U := UR sig nD τ) (Lvl := ℕ) c (V1 m c) : sProp 𝕄)
      = iprop((Pipeline.arrBufs (Ix := Unit) (Name := ℕ) (U := UR sig nD τ) (Lvl := ℕ) spec0 c (V1 m c) : sProp 𝕄)
          ∗ Pipeline.unscopedRest (Ix := Unit) (Name := ℕ) (U := UR sig nD τ) (Lvl := ℕ) spec0 c (V1 m c)) :=
    Pipeline.PerCore.unscopedBufs_split₀ (fun _ : Dev nD => cfgs) 0 c winFacts₀0.arr_unscoped (V1 m c)
  rw [← Pipeline.unscopedBufs_held (Ix := Unit) (Name := ℕ) (U := UR sig nD τ) (Lvl := ℕ) c (W1 m c), e,
    unscopedRest0_eq, unscopedRest0_eq]
  rw [show V1 m c main_arg2 = V0 m c main_arg2 from W1_of m c main_arg2 (by decide),
    show V1 m c main_v1 = V0 m c main_v1 from W1_of m c main_v1 (by decide)]
  iintro ⟨Ha, Hr⟩
  isplitl [Ha]
  · iapply (R0.arrays_out0 (V0 m) c (V1 m c) (fun w => (R0.dat0 (V0 m) c).arrAt w cfg0.N)
      (((R0.dat0 (V0 m) c).arrAt_in 0 rfl _).trans ((R0.A_eq0 (V0 m) c 0).trans (W1_of m c main_arg0 (by decide)).symm))
      (((R0.dat0 (V0 m) c).arrAt_in 1 rfl _).trans ((R0.A_eq0 (V0 m) c 1).trans (W1_of m c main_arg1 (by decide)).symm))
      (((R0.dat0 (V0 m) c).arrAt_in 2 rfl _).trans ((R0.A_eq0 (V0 m) c 2).trans (W1_of m c main_arg1 (by decide)).symm))
      (W1_v0 m c).symm)
    iexact Ha
  iexact Hr

/-- The invariant at the first point, from the generator register and the scoped buffers no window stages. -/
theorem hin0 (c : Dev nD) (P : sProp 𝕄) :
    iprop((∃ r, prngReg c r) ∗ P ∗ Pipeline.scopedRest (Ix := Unit) (Name := ℕ) (U := UR sig nD τ) (Lvl := ℕ) (Val := Elt F) spec0 c)
      ⊢ (R0.inv0 (V0 m) c 0 : sProp 𝕄) := by
  unfold R0.inv0 R0.others
  rw [scopedRest0_eq]
  simp only [owns_whole]
  iintro ⟨Hp, -, ⟨%f0, H0⟩, ⟨%f1, H1⟩, Hrest⟩
  isplitl [H0 H1]
  · iexists f0, f1; isplitr; · ipureintro; intro h; exact absurd rfl h
    isplitl [H0] <;> iassumption
  isplitl [Hrest]; · iexact Hrest
  iexact Hp

/-- The invariant at the last point gives them back. -/
theorem hout0 (c : Dev nD) :
    (R0.inv0 (V0 m) c (Fin.last cfg0.N) : sProp 𝕄)
      ⊢ iprop((∃ r, prngReg c r) ∗ BI.emp ∗ Pipeline.scopedRest (Ix := Unit) (Name := ℕ) (U := UR sig nD τ) (Lvl := ℕ) (Val := Elt F) spec0 c) := by
  unfold R0.inv0 R0.others
  rw [scopedRest0_eq]
  simp only [owns_whole]
  iintro ⟨⟨%s0, %s1, -, H0, H1⟩, Hrest, Hp⟩
  isplitl [Hp]; · iexact Hp
  isplitr; · iempintro
  isplitl [H0]; · iexists _; iexact H0
  isplitl [H1]; · iexists _; iexact H1
  iexact Hrest

/-- The exit: the arrays at their final contents and the bypassing buffers make the next thread state. -/
theorem hexit0 (c : Dev nD) :
    iprop((R0.dat0 (V0 m) c).arrays (fun w => (R0.dat0 (V0 m) c).arrAt w cfg0.N) ∗ (R0.dat0 (V0 m) c).owesAt () (Fin.last cfg0.N)
        ∗ (∃ r, prngReg c r) ∗ Pipeline.unscopedRest (Ix := Unit) (Name := ℕ) (U := UR sig nD τ) (Lvl := ℕ) spec0 c (V0 m c))
      ⊢ |={Set.univ}=> iprop(StableHlo.held (c : Thread nD τ) (Pipeline.ucRefs τ sig) (W1 m c) ∗ R c) := by
  iintro ⟨Ha, HO, HY, Hrest⟩
  imodintro
  isplitl [Ha Hrest]
  · iapply (held_join0 m c); isplitl [Ha] <;> iassumption
  isplitl [HY]; · iexact HY
  unfold Pipeline.Dat.owesAt Pipeline.owesWithin
  icases HO with ⟨%W, -, HO⟩; iexists W; iexact HO

/-- The entry: the arrays split out of the unscoped buffers, the weight array in two halves. -/
theorem hentry0 (c : Dev nD) (P Q : sProp 𝕄) :
    iprop(iprop(StableHlo.held (c : Thread nD τ) (Pipeline.ucRefs τ sig) (W0 m c) ∗ R c) ∗ P ∗ Q)
      ⊢ |={Set.univ}=> iprop((R0.dat0 (V0 m) c).arrays (fun w => (R0.dat0 (V0 m) c).arrAt w 0)
        ∗ Pipeline.prefHeld (Ix := Unit) (Name := ℕ) (U := UR sig nD τ) (Lvl := ℕ) (pcfgs (F := F) 0).pre c (fun _ => fullShare) (adm (F := F) 0).1
        ∗ (R0.dat0 (V0 m) c).owesAt () 0 ∗ (∃ r, prngReg c r)
        ∗ Pipeline.unscopedRest (Ix := Unit) (Name := ℕ) (U := UR sig nD τ) (Lvl := ℕ) spec0 c (V0 m c)) := by
  iintro ⟨⟨Hub, Hp, HO⟩, -, -⟩
  ihave H := (held_split0 m c) $$ Hub
  icases H with ⟨Ha, Hrest⟩
  imodintro
  isplitl [Ha]; · iexact Ha
  isplitr; · unfold Pipeline.prefHeld; rw [show (Finset.univ : Finset (Fin 0)) = ∅ from rfl, BI.bigSep_empty]; iempintro
  isplitl [HO]
  · unfold Pipeline.Dat.owesAt Pipeline.owesWithin
    icases HO with ⟨%W, HO⟩; iexists W; isplitr; · ipureintro; exact fun _ _ => Or.inl trivial
    iexact HO
  isplitl [Hp]; · iexact Hp
  iexact Hrest

set_option backward.isDefEq.respectTransparency.types false in
/-- The accumulating region over the thread state. -/
def reg0 : Pipeline.RegionSeg (pcfgs (F := F)) adm (pdats m) () defs₀ 𝒱₀ L lv 0 where
  win := winFacts₀0
  block_pos := block_pos0
  stage_whole := stage_whole0
  K := PEmpty
  osem k := k.elim
  ho := Pipeline.OwnSemFacts.none _
  hbody c := (R0.body_obligation0 (V0 m) c).loose
  hwaits := Pipeline.hwaits_of_owed_zero _ _ _ _ L lv 0 fun _ _ => rfl
  pre c := iprop(StableHlo.held (c : Thread nD τ) (Pipeline.ucRefs τ sig) (W0 m c) ∗ R c)
  post c := iprop(StableHlo.held (c : Thread nD τ) (Pipeline.ucRefs τ sig) (W1 m c) ∗ R c)
  X c := iprop(∃ r, prngReg c r)
  Y c := iprop(∃ r, prngReg c r)
  Z c := Pipeline.unscopedRest (Ix := Unit) (Name := ℕ) (U := UR sig nD τ) (Lvl := ℕ) spec0 c (V0 m c)
  hentry c := hentry0 m c _ _
  hin c := hin0 m c _
  hout c := by rw [Pipeline.ownSems0_none]; exact hout0 m c
  hexit c := hexit0 m c

end Cert.KernelIdeal.Whole
end
-- ==== Proof.Reg1.lean ====
/- The product region (the second pallas_call) as a segment over the thread state: entered from every unscoped
   buffer at the contents the first region leaves, left with the result array at what this region's write-backs
   leave and every other buffer as entered; the generator register and the core's `owes` ride along. -/
import proofs.«167459_j88605175316749_1_alg».proof.Proof.Family
import proofs.«167459_j88605175316749_1_alg».proof.Proof.Region1

set_option maxRecDepth 16384

noncomputable section

namespace Cert.KernelIdeal.Whole

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ)

/-! ## The buffer contents at the region's exit -/

/-- At the region's exit each of its three arrays holds what the pipeline leaves: the result array its
    write-backs, by the definition of the exit contents; the two arrays it reads, which no write-back touches,
    what they held at entry. -/
theorem hF1 (c : Dev nD) (w : Fin cfg1.W) : (R1.dat1 (V1 m) c).arrAt w cfg1.N = V2 m c (Pipeline.arrRef spec1 w) :=
  match w with
  | ⟨0, _⟩ => ((R1.dat1 (V1 m) c).arrAt_in 0 rfl _).trans ((R1.A_eq1 (V1 m) c 0).trans (W2_of m c main_v0 (by decide)).symm)
  | ⟨1, _⟩ => ((R1.dat1 (V1 m) c).arrAt_in 1 rfl _).trans ((R1.A_eq1 (V1 m) c 1).trans (W2_of m c main_arg2 (by decide)).symm)
  | ⟨2, _⟩ => (W2_v1 m c).symm

/-- Every buffer that is none of the region's arrays holds at the exit what it held at entry. -/
theorem hrest1 (c : Dev nD) : ∀ b, b ∉ Finset.univ.image (Pipeline.arrRef spec1) → V2 m c b = V1 m c b :=
  fun b hb => W2_of m c b fun e => hb (e ▸ Finset.mem_image.mpr ⟨2, Finset.mem_univ _, rfl⟩)

/-! ## The region as a segment -/

set_option backward.isDefEq.respectTransparency.types false in
/-- The product region over the thread state: entered from every unscoped buffer at `W1`, left at `W2`. Its
    arrays split out of the unscoped buffers and are put back at the exit contents; the generator register goes
    into the class invariant and out; nothing owed; no semaphore of the kernel's own. -/
def reg1 : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (R1.body_obligation1 (V1 m) c).loose
  hwaits := Pipeline.hwaits_of_owed_zero _ _ _ _ L lv 1 fun _ _ => rfl
  pre c := iprop(StableHlo.held (c : Thread nD τ) (Pipeline.ucRefs τ sig) (W1 m c) ∗ R c)
  post c := iprop((iprop(StableHlo.held (c : Thread nD τ) (Pipeline.ucRefs τ sig) (W2 m c) ∗ ∃ r, prngReg c r)) ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (V1 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (V1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (V1 m c) (V2 m c) ((pdats m 1 c).arrAt · cfg1.N) (hF1 m c) (hrest1 m c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

end Cert.KernelIdeal.Whole

end
-- ==== Proof.Whole.lean ====
import proofs.«167459_j88605175316749_1_alg».proof.Proof.Gen.KernelIdeal.Launch
import proofs.«167459_j88605175316749_1_alg».proof.Proof.Gen.KernelIdeal.Skeleton
import proofs.«167459_j88605175316749_1_alg».proof.Proof.Gen.KernelIdeal.Points
import proofs.«167459_j88605175316749_1_alg».proof.Proof.Reg0
import proofs.«167459_j88605175316749_1_alg».proof.Proof.Reg1
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.KernelIdeal.Whole

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

/-! # The whole run: both regions in sequence

Every weakly fair execution of @main terminates, and every unscoped buffer ends at the contents after the second region. -/

variable (m : (ℓ : Loc nD τ sig) → Buf (Elt F) ℓ) (ρ : Dev nD → PrngReg)

/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

/-- @main's two segments in order. -/
abbrev segs : List (Pipeline.Seg (pcfgs (F := F)) adm (pdats m) () defs₀ 𝒱₀ L lv) :=
  [ .region (reg0 m), .region (reg1 m) ]

set_option backward.isDefEq.respectTransparency.types false in
/-- The run: the launch over the two segments, the last thread state read against the final state. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W2 m c b) :=
  Pipeline.θ_run_regions_kit (pcfgs (F := F)) adm (pdats m) () cellOf_inj emb₁ defs₀ 𝒱₀ L lv m ρ main (segs m)
    (fun c Q => by rw [main_segs adm (pdats m) () 𝒱₀ L lv (reg0 m) (reg1 m) c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c))
    (Tₙ := fun c => iprop(StableHlo.held (c : Thread nD τ) (Pipeline.ucRefs τ sig) (W2 m c) ∗ ∃ r, prngReg c r))
    (hch := ⟨fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W2 m c b)
    (hfin := fun c s' => by
      iintro ⟨⟨Hh, -⟩, HSI⟩
      unfold StableHlo.held
      imodintro
      iapply (pointsTo_read_all (Pipeline.ucRefs τ sig) (fun b => (((c : Thread nD τ)).1, b)) (W2 m c) s')
      isplitl [Hh] <;> iassumption)
    (hQ := fun s h c => h c)

/-- No region writes an argument array. -/
theorem W2_arg0 (c : Dev nD) : W2 m c main_arg0 = m ((c : Thread nD τ).loc main_arg0) :=
  (W2_of m c main_arg0 (by decide)).trans ((W1_of m c main_arg0 (by decide)).trans rfl)
theorem W2_arg1 (c : Dev nD) : W2 m c main_arg1 = m ((c : Thread nD τ).loc main_arg1) :=
  (W2_of m c main_arg1 (by decide)).trans ((W1_of m c main_arg1 (by decide)).trans rfl)
theorem W2_arg2 (c : Dev nD) : W2 m c main_arg2 = m ((c : Thread nD τ).loc main_arg2) :=
  (W2_of m c main_arg2 (by decide)).trans ((W1_of m c main_arg2 (by decide)).trans rfl)

/-- The run with the result array named and the arguments as launched. -/
theorem run_named : θ_run defs (onTc (τ := τ) (main (F := F))) ⟨m, fun _ => 0, ρ⟩ (fun r => ∀ c : Dev nD,
      r.2.mem ((c.tc : Thread nD τ).loc main_v1) = W2 m c main_v1
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun r h c =>
    ⟨h c _ (mem_uc main_v1 (by decide)),
     (h c _ (mem_uc main_arg0 (by decide))).trans (W2_arg0 m c),
     (h c _ (mem_uc main_arg1 (by decide))).trans (W2_arg1 m c),
     (h c _ (mem_uc main_arg2 (by decide))).trans (W2_arg2 m c)⟩) (run_all m ρ)

/-- The frame: the program runs to the end, faults nowhere, and leaves its argument arrays as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun r h c => (h c).2) (run_named m ρ)

end Cert.KernelIdeal.Whole
end
-- ==== Proof.LibFinGroups.lean ====
/-
  A sum over a·b consecutive naturals, grouped into a groups of b: ∑_{n < a·b} f n = ∑_{g < a} ∑_{j < b} f (b·g + j),
  in any commutative additive monoid.
-/
import Mathlib.Algebra.BigOperators.Fin
import Mathlib.Logic.Equiv.Fin.Basic

open scoped BigOperators

namespace Cert.Lib.FinGroups

/-- The sum over n < a·b of f n is the sum over the a groups of the sums over each group's b members. -/
theorem sum_fin_groups {M : Type*} [AddCommMonoid M] (a b : ℕ) (f : ℕ → M) :
    ∑ n : Fin (a * b), f n.val = ∑ g : Fin a, ∑ j : Fin b, f (b * g.val + j.val) := by
  rw [← Fintype.sum_prod_type']
  refine (Fintype.sum_equiv (finProdFinEquiv (m := a) (n := b)) _ (fun n => f n.val) fun x => ?_).symm
  show f (b * x.1.val + x.2.val) = f (x.2.val + b * x.1.val)
  rw [Nat.add_comm]

end Cert.Lib.FinGroups
-- ==== Proof.Spec.lean ====
/-
  The gated feed-forward block on the extended reals, index by index.

  For x : [8, 1536, 2048], w : [8, 2048, 2816], wd : [8, 1408, 2048]:
    proj x w (g, m, n)   = ∑ k < 2048, x (g, m, k) · w (g, k, n)
    swish v              = v · (1 / (1 + exp (−v)))
    act x w (g, m, e)    = swish (proj x w (g, m, e)) · proj x w (g, m, 1408 + e)
    out x w wd (g, m, j) = ∑ e < 1408, act x w (g, m, e) · wd (g, e, j)
  Every operation is the extended reals' own: the sums are sums in an additive commutative monoid, the
  quotient is the one with the documented values at a zero divisor, and the word of the float one is
  kept as the extended real that word denotes. Nothing here is assumed finite.

  Also here: the contraction over 2048 split into four consecutive blocks of 512 and accumulated
  from zero, block after block, is the whole contraction (`tile_sum`, `tile_sum'`).
-/
import Idealize.ShloMosaic.PureOps.Ideal
import Idealize.ShloMosaic.PureOps.Ideal.Laws
import Idealize.ShloMosaic.Lib.ValueIdx
import Idealize.ShloMosaic.Lib.Pipeline.Value
import proofs.«167459_j88605175316749_1_alg».proof.Proof.LibFinGroups

noncomputable section

open scoped BigOperators

namespace Cert.GatedFfn

open Idealize.ShloMosaic Idealize.ShloMosaic.ValueIdx

/-! ## The shapes -/

abbrev SX : Shape := ⟨3, ![8, 1536, 2048]⟩
abbrev SW : Shape := ⟨3, ![8, 2048, 2816]⟩
abbrev SD : Shape := ⟨3, ![8, 1408, 2048]⟩
abbrev SH : Shape := ⟨3, ![8, 1536, 2816]⟩
abbrev SA : Shape := ⟨3, ![8, 1536, 1408]⟩
/-- The result's shape (the same literal as `SX`). -/
abbrev SO : Shape := ⟨3, ![8, 1536, 2048]⟩

/-! ## The scalar function -/

/-- The extended real the float word of one denotes. -/
abbrev one : EReal := Ideal.ofBits .f32 0x3F800000#32

/-- `v · (1 / (1 + exp (−v)))` on the extended reals. -/
def swish (v : EReal) : EReal := v * Ideal.div one (one + Ideal.exp (-v))

theorem swish_def (v : EReal) : swish v = v * Ideal.div one (one + Ideal.exp (-v)) := rfl

/-- Subtracting from zero is negation on the extended reals. -/
theorem zero_sub_eq (v : EReal) : (0 : EReal) - v = -v := by
  rw [sub_eq_add_neg, zero_add]

/-- The same function with the negation written as a difference from zero. -/
theorem swish_zero_sub (v : EReal) :
    v * Ideal.div one (one + Ideal.exp ((0 : EReal) - v)) = swish v := by
  rw [zero_sub_eq]; rfl

/-! ## The arrays, by coordinates and by index -/

/-- The first product at the coordinates `(g, m, n)`. -/
def projAt (x : SX.Idx → EReal) (w : SW.Idx → EReal) (g : Fin 8) (m : Fin 1536) (n : Fin 2816) : EReal :=
  ∑ k : Fin 2048, x (ix3 g m k) * w (ix3 g k n)

/-- The first product, the [8, 1536, 2816] array. -/
def proj (x : SX.Idx → EReal) (w : SW.Idx → EReal) : SH.Idx → EReal :=
  fun i => projAt x w (i 0) (i 1) (i 2)

theorem proj_ix3 (x : SX.Idx → EReal) (w : SW.Idx → EReal) (g : Fin 8) (m : Fin 1536) (n : Fin 2816) :
    proj x w (ix3 g m n) = ∑ k : Fin 2048, x (ix3 g m k) * w (ix3 g k n) := rfl

/-- The gate column `e` of the first product's 2816 columns. -/
abbrev gateCol (e : Fin 1408) : Fin 2816 := ⟨e.val, by omega⟩
/-- The up column `1408 + e` of the first product's 2816 columns. -/
abbrev upCol (e : Fin 1408) : Fin 2816 := ⟨1408 + e.val, by omega⟩

/-- The activation at the coordinates `(g, m, e)`. -/
def actAt (x : SX.Idx → EReal) (w : SW.Idx → EReal) (g : Fin 8) (m : Fin 1536) (e : Fin 1408) : EReal :=
  swish (projAt x w g m (gateCol e)) * projAt x w g m (upCol e)

/-- The activation, the [8, 1536, 1408] array. -/
def act (x : SX.Idx → EReal) (w : SW.Idx → EReal) : SA.Idx → EReal :=
  fun i => actAt x w (i 0) (i 1) (i 2)

theorem act_ix3 (x : SX.Idx → EReal) (w : SW.Idx → EReal) (g : Fin 8) (m : Fin 1536) (e : Fin 1408) :
    act x w (ix3 g m e) = swish (proj x w (ix3 g m (gateCol e))) * proj x w (ix3 g m (upCol e)) := rfl

/-- The result at the coordinates `(g, m, j)`. -/
def outAt (x : SX.Idx → EReal) (w : SW.Idx → EReal) (wd : SD.Idx → EReal) (g : Fin 8) (m : Fin 1536) (j : Fin 2048) : EReal :=
  ∑ e : Fin 1408, actAt x w g m e * wd (ix3 g e j)

/-- The result, the [8, 1536, 2048] array. -/
def out (x : SX.Idx → EReal) (w : SW.Idx → EReal) (wd : SD.Idx → EReal) : SO.Idx → EReal :=
  fun i => outAt x w wd (i 0) (i 1) (i 2)

theorem out_ix3 (x : SX.Idx → EReal) (w : SW.Idx → EReal) (wd : SD.Idx → EReal) (g : Fin 8) (m : Fin 1536) (j : Fin 2048) :
    out x w wd (ix3 g m j) = ∑ e : Fin 1408, act x w (ix3 g m e) * wd (ix3 g e j) := rfl

/-! ## Four blocks of 512 make the contraction over 2048 -/

/-- The four consecutive blocks of 512, added left to right, are the whole sum. -/
theorem tile_sum' (f : Fin 2048 → EReal) :
    (((∑ j : Fin 512, f ⟨j.val, by omega⟩) + ∑ j : Fin 512, f ⟨512 + j.val, by omega⟩)
        + ∑ j : Fin 512, f ⟨1024 + j.val, by omega⟩) + ∑ j : Fin 512, f ⟨1536 + j.val, by omega⟩
      = ∑ k : Fin 2048, f k := by
  let F : ℕ → EReal := fun n => if h : n < 2048 then f ⟨n, h⟩ else 0
  have hF : ∀ (n : ℕ) (h : n < 2048), F n = f ⟨n, h⟩ := fun n h => dif_pos h
  have key := Cert.Lib.FinGroups.sum_fin_groups 4 512 F
  have whole : ∑ n : Fin (4 * 512), F n.val = ∑ k : Fin 2048, f k :=
    Finset.sum_congr rfl fun k _ => hF k.val k.isLt
  rw [← whole, key, Fin.sum_univ_four]
  have b0 : ∑ j : Fin 512, F (512 * (0 : Fin 4).val + j.val) = ∑ j : Fin 512, f ⟨j.val, by omega⟩ :=
    Finset.sum_congr rfl fun j _ =>
      (congrArg F (show 512 * (0 : Fin 4).val + j.val = j.val by simp)).trans (hF _ _)
  have b1 : ∑ j : Fin 512, F (512 * (1 : Fin 4).val + j.val) = ∑ j : Fin 512, f ⟨512 + j.val, by omega⟩ :=
    Finset.sum_congr rfl fun j _ => hF _ _
  have b2 : ∑ j : Fin 512, F (512 * (2 : Fin 4).val + j.val) = ∑ j : Fin 512, f ⟨1024 + j.val, by omega⟩ :=
    Finset.sum_congr rfl fun j _ => hF _ _
  have b3 : ∑ j : Fin 512, F (512 * (3 : Fin 4).val + j.val) = ∑ j : Fin 512, f ⟨1536 + j.val, by omega⟩ :=
    Finset.sum_congr rfl fun j _ => hF _ _
  rw [b0, b1, b2, b3]

/-- The same accumulated from zero, each block's sum itself started from zero. -/
theorem tile_sum (f : Fin 2048 → EReal) :
    (((((0 : EReal) + ((0 : EReal) + ∑ j : Fin 512, f ⟨j.val, by omega⟩))
          + ((0 : EReal) + ∑ j : Fin 512, f ⟨512 + j.val, by omega⟩))
        + ((0 : EReal) + ∑ j : Fin 512, f ⟨1024 + j.val, by omega⟩))
      + ((0 : EReal) + ∑ j : Fin 512, f ⟨1536 + j.val, by omega⟩))
      = ∑ k : Fin 2048, f k := by
  simp only [zero_add]
  exact tile_sum' f

end Cert.GatedFfn

end
-- ==== Proof.LibBlockReads.lean ====
/-
  Vector operations of a kernel body read at an index, on the extended reals: a matrix product accumulated into
  zeros as the sum over the contracted coordinate (both operand orders), a sum along the first or the last axis
  of a rank-3 block as a sum over that axis's coordinate, and the re-shapings and broadcasts that put a row
  vector or a matrix of per-row scales beside a block. Nothing here mentions a program.
-/
import Idealize.ShloMosaic.PureOps.Ideal.Laws
import Idealize.ShloMosaic.Lib.ValueIdx
import Idealize.ShloMosaic.Lib.Pipeline.Value

open scoped BigOperators

namespace Cert.Lib.BlockReads

open Idealize.ShloMosaic Idealize.ShloMosaic.ValueIdx

/-! ## Matrix products into a zero accumulator -/

section Matmul
variable {m k n : Nat} {φ₁ φ₂ : FTy}

/-- A product of an m×k by a k×n matrix (contracting the left operand's columns with the right operand's rows),
    accumulated into zeros, is at (a, b) the sum over c of A(a, c) · B(c, b). -/
theorem matmul_zero_rows_apply (d : DotDims ⟨2, ![m, k]⟩ ⟨2, ![k, n]⟩ ⟨2, ![m, n]⟩)
    (hlc : d.lhsContracting = [1]) (hrc : d.rhsContracting = [0]) (hln : d.lhsNonContracting = [0])
    (hrn : d.rhsNonContracting = [1]) (hlb : d.lhsBatch = []) (hrb : d.rhsBatch = [])
    (prec : Option ContractPrecision) (A : FVec Ideal ⟨2, ![m, k]⟩ φ₁) (B : FVec Ideal ⟨2, ![k, n]⟩ φ₂)
    (a : Fin m) (b : Fin n) :
    matmul d prec A B (constant ⟨2, ![m, n]⟩ .f32 0x00000000#32) (ix2 a b) = ∑ c : Fin k, A (ix2 a c) * B (ix2 c b) := by
  obtain ⟨lc, rc, ln, rn, lb, rb, w⟩ := d
  dsimp only at hlc hrc hln hrn hlb hrb
  subst hlc hrc hln hrn hlb hrb
  show FloatOps.matmul _ prec A B _ (ix2 a b) = _
  rw [Ideal.matmul_constant_zero_apply,
    ← Equiv.sum_comp (contrEquiv1 (⟨[1], [0], [0], [1], [], [], w⟩ : DotDims _ _ _) k rfl rfl).symm]
  refine Finset.sum_congr rfl fun c _ => ?_
  have c2 := contrEquiv1_symm_val
    (⟨[1], [0], [0], [1], [], [], w⟩ : DotDims ⟨2, ![m, k]⟩ ⟨2, ![k, n]⟩ ⟨2, ![m, n]⟩) k rfl rfl c
  have l2 : (⟨[1], [0], [0], [1], [], [], w⟩ : DotDims ⟨2, ![m, k]⟩ ⟨2, ![k, n]⟩ ⟨2, ![m, n]⟩).lhsIdx (ix2 a b)
      ((contrEquiv1 _ k rfl rfl).symm c) = ix2 a c := by
    funext ax; apply Fin.ext
    match ax with
    | ⟨0, _⟩ => simp [DotDims.lhsIdx]; rfl
    | ⟨1, _⟩ => simp [DotDims.lhsIdx]; exact c2
  have r2 : (⟨[1], [0], [0], [1], [], [], w⟩ : DotDims ⟨2, ![m, k]⟩ ⟨2, ![k, n]⟩ ⟨2, ![m, n]⟩).rhsIdx (ix2 a b)
      ((contrEquiv1 _ k rfl rfl).symm c) = ix2 c b := by
    funext ax; apply Fin.ext
    match ax with
    | ⟨0, _⟩ => simp [DotDims.rhsIdx]; exact c2
    | ⟨1, _⟩ => simp [DotDims.rhsIdx]; rfl
  rw [l2, r2]

/-- A product of an m×k matrix by the TRANSPOSE of an n×k matrix (both operands contracted along their columns),
    accumulated into zeros, is at (a, b) the sum over c of A(a, c) · B(b, c). -/
theorem matmul_zero_cols_apply (d : DotDims ⟨2, ![m, k]⟩ ⟨2, ![n, k]⟩ ⟨2, ![m, n]⟩)
    (hlc : d.lhsContracting = [1]) (hrc : d.rhsContracting = [1]) (hln : d.lhsNonContracting = [0])
    (hrn : d.rhsNonContracting = [0]) (hlb : d.lhsBatch = []) (hrb : d.rhsBatch = [])
    (prec : Option ContractPrecision) (A : FVec Ideal ⟨2, ![m, k]⟩ φ₁) (B : FVec Ideal ⟨2, ![n, k]⟩ φ₂)
    (a : Fin m) (b : Fin n) :
    matmul d prec A B (constant ⟨2, ![m, n]⟩ .f32 0x00000000#32) (ix2 a b) = ∑ c : Fin k, A (ix2 a c) * B (ix2 b c) := by
  obtain ⟨lc, rc, ln, rn, lb, rb, w⟩ := d
  dsimp only at hlc hrc hln hrn hlb hrb
  subst hlc hrc hln hrn hlb hrb
  show FloatOps.matmul _ prec A B _ (ix2 a b) = _
  rw [Ideal.matmul_constant_zero_apply,
    ← Equiv.sum_comp (contrEquiv1 (⟨[1], [1], [0], [0], [], [], w⟩ : DotDims _ _ _) k rfl rfl).symm]
  refine Finset.sum_congr rfl fun c _ => ?_
  have c2 := contrEquiv1_symm_val
    (⟨[1], [1], [0], [0], [], [], w⟩ : DotDims ⟨2, ![m, k]⟩ ⟨2, ![n, k]⟩ ⟨2, ![m, n]⟩) k rfl rfl c
  have l2 : (⟨[1], [1], [0], [0], [], [], w⟩ : DotDims ⟨2, ![m, k]⟩ ⟨2, ![n, k]⟩ ⟨2, ![m, n]⟩).lhsIdx (ix2 a b)
      ((contrEquiv1 _ k rfl rfl).symm c) = ix2 a c := by
    funext ax; apply Fin.ext
    match ax with
    | ⟨0, _⟩ => simp [DotDims.lhsIdx]; rfl
    | ⟨1, _⟩ => simp [DotDims.lhsIdx]; exact c2
  have r2 : (⟨[1], [1], [0], [0], [], [], w⟩ : DotDims ⟨2, ![m, k]⟩ ⟨2, ![n, k]⟩ ⟨2, ![m, n]⟩).rhsIdx (ix2 a b)
      ((contrEquiv1 _ k rfl rfl).symm c) = ix2 b c := by
    funext ax; apply Fin.ext
    match ax with
    | ⟨0, _⟩ => simp [DotDims.rhsIdx]; rfl
    | ⟨1, _⟩ => simp [DotDims.rhsIdx]; exact c2
  rw [l2, r2]

end Matmul

/-! ## Sums along one axis of a rank-3 block -/

section AxisSums
variable {a b c : Nat} {φ : FTy}

/-- The sum along the FIRST axis of an a×b×c block is at (q, r) the sum over p of the block at (p, q, r). -/
theorem sum_first_axis_apply (src : FVec Ideal ⟨3, ![a, b, c]⟩ φ) (acc : BitVec φ.bits)
    (h : (⟨3, ![a, b, c]⟩ : Shape).Reduces [0] ⟨2, ![b, c]⟩) (hφ : FKind.Formats φ) (hacc : acc = FKind.add.neutral φ hφ)
    (q : Fin b) (r : Fin c) :
    multiReduction .add [0] ⟨2, ![b, c]⟩ src acc h hφ hacc (ix2 q r) = ∑ p : Fin a, src (ix3 p q r) := by
  rw [Ideal.multiReduction_add_single]
  refine Finset.sum_congr rfl fun p _ => congrArg src ?_
  funext ax; apply Fin.ext
  match ax with
  | ⟨0, _⟩ => rfl
  | ⟨1, _⟩ => rfl
  | ⟨2, _⟩ => rfl

/-- The sum along the LAST axis of an a×b×c block is at (p, q) the sum over r of the block at (p, q, r). -/
theorem sum_last_axis_apply (src : FVec Ideal ⟨3, ![a, b, c]⟩ φ) (acc : BitVec φ.bits)
    (h : (⟨3, ![a, b, c]⟩ : Shape).Reduces [2] ⟨2, ![a, b]⟩) (hφ : FKind.Formats φ) (hacc : acc = FKind.add.neutral φ hφ)
    (p : Fin a) (q : Fin b) :
    multiReduction .add [2] ⟨2, ![a, b]⟩ src acc h hφ hacc (ix2 p q) = ∑ r : Fin c, src (ix3 p q r) := by
  rw [Ideal.multiReduction_add_single]
  refine Finset.sum_congr rfl fun r _ => congrArg src ?_
  funext ax; apply Fin.ext
  match ax with
  | ⟨0, _⟩ => rfl
  | ⟨1, _⟩ => rfl
  | ⟨2, _⟩ => rfl

end AxisSums

/-! ## Re-shapings and broadcasts of per-row values -/

section Layout
variable {α : Type} {a b c : Nat}

/-- A 1×b row broadcast down a rows reads its entry b. -/
theorem broadcast_row_apply (x : (⟨2, ![1, b]⟩ : Shape).Idx → α) (h : (⟨2, ![1, b]⟩ : Shape).Broadcasts ⟨2, ![a, b]⟩)
    (p : Fin a) (q : Fin b) : broadcastTo ⟨2, ![a, b]⟩ x h (ix2 p q) = x (ix2 0 q) :=
  broadcastTo_apply x h _ _ fun ax => by
    match ax with
    | ⟨0, _⟩ => rfl
    | ⟨1, _⟩ =>
      show q.val = if b = 1 then 0 else q.val
      split_ifs with hb
      · have := q.isLt; omega
      · rfl

/-- A b×c matrix viewed as one 1×b×c slab and broadcast along a new leading axis of extent a reads the matrix. -/
theorem broadcast_slab_apply (x : (⟨2, ![b, c]⟩ : Shape).Idx → α)
    (h₁ : (⟨2, ![b, c]⟩ : Shape).ShapeCasts ⟨3, ![1, b, c]⟩)
    (h₂ : (⟨3, ![1, b, c]⟩ : Shape).Broadcasts ⟨3, ![a, b, c]⟩) (p : Fin a) (q : Fin b) (r : Fin c) :
    broadcastTo ⟨3, ![a, b, c]⟩ (shapeCast ⟨3, ![1, b, c]⟩ x h₁) h₂ (ix3 p q r) = x (ix2 q r) := by
  refine (broadcastTo_apply _ h₂ _ (ix3 0 q r) fun ax => ?_).trans ?_
  · match ax with
    | ⟨0, _⟩ => rfl
    | ⟨1, _⟩ =>
      show q.val = if b = 1 then 0 else q.val
      split_ifs with hb
      · have := q.isLt; omega
      · rfl
    | ⟨2, _⟩ =>
      show r.val = if c = 1 then 0 else r.val
      split_ifs with hc
      · have := r.isLt; omega
      · rfl
  · refine shapeCast_apply x h₁ _ _ ?_
    rw [Shape.rowMajor_val_two, Shape.rowMajor_val_three]
    show q.val * c + r.val = ((0 : Nat) * b + q.val) * c + r.val
    rw [Nat.zero_mul, Nat.zero_add]

/-- An a×b matrix viewed as a×b×1 columns and broadcast along a new trailing axis of extent c reads the matrix. -/
theorem broadcast_cols_apply (x : (⟨2, ![a, b]⟩ : Shape).Idx → α)
    (h₁ : (⟨2, ![a, b]⟩ : Shape).ShapeCasts ⟨3, ![a, b, 1]⟩)
    (h₂ : (⟨3, ![a, b, 1]⟩ : Shape).Broadcasts ⟨3, ![a, b, c]⟩) (p : Fin a) (q : Fin b) (r : Fin c) :
    broadcastTo ⟨3, ![a, b, c]⟩ (shapeCast ⟨3, ![a, b, 1]⟩ x h₁) h₂ (ix3 p q r) = x (ix2 p q) := by
  refine (broadcastTo_apply _ h₂ _ (ix3 p q 0) fun ax => ?_).trans ?_
  · match ax with
    | ⟨0, _⟩ =>
      show p.val = if a = 1 then 0 else p.val
      split_ifs with ha
      · have := p.isLt; omega
      · rfl
    | ⟨1, _⟩ =>
      show q.val = if b = 1 then 0 else q.val
      split_ifs with hb
      · have := q.isLt; omega
      · rfl
    | ⟨2, _⟩ => rfl
  · refine shapeCast_apply x h₁ _ _ ?_
    rw [Shape.rowMajor_val_two, Shape.rowMajor_val_three]
    show p.val * b + q.val = (p.val * b + q.val) * 1 + 0
    omega

end Layout

end Cert.Lib.BlockReads
-- ==== Proof.Region0Pay.lean ====
/-
  The accumulating region's payloads read at an index, on the extended reals.

  The reset block is zero everywhere. One accumulation step adds, at (r, e), the sum over j < 512 of the row block's
  (r, j) times the weight block's (j, e) to what the accumulator held: a change of format is the identity on the
  extended reals, and the product into a zero accumulator is the sum over the contracted coordinate. The stored block
  is, at (0, r, e), the gate accumulator's value v sent to v · (1 / (1 + exp (0 − v))) times the up accumulator's value.
-/
import proofs.«167459_j88605175316749_1_alg».proof.Proof.Gen.KernelIdeal.Skeleton
import proofs.«167459_j88605175316749_1_alg».proof.Proof.Spec
import proofs.«167459_j88605175316749_1_alg».proof.Proof.LibBlockReads
import Idealize.ShloMosaic.Lib.Pipeline.Value
import Idealize.ShloMosaic.Lib.ValueIdx
import Idealize.ShloMosaic.PureOps.Ideal.Laws

noncomputable section

open scoped BigOperators

namespace Cert.KernelIdeal.R0Pay

open Idealize.ShloMosaic Idealize.ShloMosaic.ValueIdx Cert.KernelIdeal Cert.KernelIdeal.Gen Cert.GatedFfn

/-- A [1, 512, n] block viewed as a [512, n] matrix reads (r, j) at (0, r, j). -/
theorem dropUnit_apply {n : Nat} {α : Type} (v : (⟨3, ![1, 512, n]⟩ : Shape).Idx → α)
    (h : (⟨3, ![1, 512, n]⟩ : Shape).ShapeCasts ⟨2, ![512, n]⟩) (r : Fin 512) (j : Fin n) :
    shapeCast ⟨2, ![512, n]⟩ v h (ix2 r j) = v (ix3 0 r j) := by
  refine shapeCast_apply v h (ix2 r j) (ix3 0 r j) ?_
  rw [Shape.rowMajor_val_three, Shape.rowMajor_val_two]
  show ((0 : Nat) * 512 + r.val) * n + j.val = r.val * n + j.val
  rw [Nat.zero_mul, Nat.zero_add]

/-- A [512, n] matrix stored as a [1, 512, n] block reads (0, r, j) at (r, j). -/
theorem addUnit_apply {n : Nat} {α : Type} (v : (⟨2, ![512, n]⟩ : Shape).Idx → α)
    (h : (⟨2, ![512, n]⟩ : Shape).ShapeCasts ⟨3, ![1, 512, n]⟩) (r : Fin 512) (j : Fin n) :
    shapeCast ⟨3, ![1, 512, n]⟩ v h (ix3 0 r j) = v (ix2 r j) := by
  refine shapeCast_apply v h (ix3 0 r j) (ix2 r j) ?_
  rw [Shape.rowMajor_val_three, Shape.rowMajor_val_two]
  show r.val * n + j.val = ((0 : Nat) * 512 + r.val) * n + j.val
  rw [Nat.zero_mul, Nat.zero_add]

/-- The reset block is zero. -/
theorem pay1_apply (r : Fin 512) (e : Fin 1408) : k0_pay1 (F := Ideal) (ix2 r e) = 0 := by
  unfold k0_pay1
  rw [shapeCast_self]
  exact Ideal.ofBits_zero_f32

/-- The second accumulator's reset block is zero. -/
theorem pay2_apply (r : Fin 512) (e : Fin 1408) : k0_pay2 (F := Ideal) (ix2 r e) = 0 := by
  unfold k0_pay2
  rw [shapeCast_self]
  exact Ideal.ofBits_zero_f32

/-- One step of the gate accumulator at (r, e). -/
theorem pay4_apply (x0 : Vec Ideal S1x512x512 .f32) (x1 : Vec Ideal S1x512x1408 .f32) (s : Vec Ideal S512x1408 .f32)
    (r : Fin 512) (e : Fin 1408) :
    k0_pay4 x0 x1 s (ix2 r e) = s (ix2 r e) + ∑ j : Fin 512, x0 (ix3 0 r j) * x1 (ix3 0 j e) := by
  unfold k0_pay4 k0_pay3
  dsimp only
  rw [shapeCast_self]
  refine congrArg (s (ix2 r e) + ·) ?_
  refine (Cert.Lib.BlockReads.matmul_zero_rows_apply dot_S512x512_S512x1408_S512x1408_1_0_0_1_n_n rfl rfl rfl rfl rfl rfl
    none _ _ r e).trans ?_
  refine Finset.sum_congr rfl fun j _ => ?_
  exact congrArg₂ (· * ·) (dropUnit_apply x0 _ r j) (dropUnit_apply x1 _ j e)

/-- One step of the up accumulator at (r, e). -/
theorem pay5_apply (x0 : Vec Ideal S1x512x512 .f32) (x1 : Vec Ideal S1x512x1408 .f32) (s : Vec Ideal S512x1408 .f32)
    (r : Fin 512) (e : Fin 1408) :
    k0_pay5 x0 x1 s (ix2 r e) = s (ix2 r e) + ∑ j : Fin 512, x0 (ix3 0 r j) * x1 (ix3 0 j e) := by
  unfold k0_pay5 k0_pay3
  dsimp only
  rw [shapeCast_self]
  refine congrArg (s (ix2 r e) + ·) ?_
  refine (Cert.Lib.BlockReads.matmul_zero_rows_apply dot_S512x512_S512x1408_S512x1408_1_0_0_1_n_n rfl rfl rfl rfl rfl rfl
    none _ _ r e).trans ?_
  refine Finset.sum_congr rfl fun j _ => ?_
  exact congrArg₂ (· * ·) (dropUnit_apply x0 _ r j) (dropUnit_apply x1 _ j e)

/-- The stored block at (0, r, e): the gated product of the two accumulators' values. -/
theorem pay6_apply (a b : Vec Ideal S512x1408 .f32) (r : Fin 512) (e : Fin 1408) :
    k0_pay6 a b (ix3 0 r e) = swish (a (ix2 r e)) * b (ix2 r e) := by
  unfold k0_pay6
  refine (addUnit_apply _ _ r e).trans ?_
  refine congrArg (· * b (ix2 r e)) ?_
  show a (ix2 r e) * Ideal.div one (one + Ideal.exp (Ideal.ofBits .f32 0x00000000#32 - a (ix2 r e))) = _
  rw [Ideal.ofBits_zero_f32]
  exact swish_zero_sub (a (ix2 r e))

end Cert.KernelIdeal.R0Pay

end
-- ==== Proof.Region0Value.lean ====
/-
  The accumulating region's output array is the activation of the specification.

  Grid point t = 12·g + 4·m + k. At t the row block of x is rows 512·m … of batch g, columns 512·k …; the two weight
  blocks are rows 512·k … of batch g, columns 0 … 1407 and 1408 … 2815. Over the four points of one (g, m) each
  accumulator, restarted from zeros at k = 0, adds one block product per point; at k = 3 it holds, at (r, e), the
  contraction over all 2048 of row 512·m + r of x with column e (or 1408 + e) of w. The block stored at k = 3 is the
  gated product of the two, so what is written back there is that block of the activation array, and the blocks
  written back at the points with k = 3 cover the array.
-/
import proofs.«167459_j88605175316749_1_alg».proof.Proof.Region0Dat
import proofs.«167459_j88605175316749_1_alg».proof.Proof.Region0Pay
import proofs.«167459_j88605175316749_1_alg».proof.Proof.Spec

set_option maxRecDepth 16384

noncomputable section

open scoped BigOperators

namespace Cert.KernelIdeal.R0

open Idealize.ShloMosaic Idealize.ShloMosaic.TcCoe Idealize.SL.Sem
open Idealize.ShloMosaic.Pipeline (Dat Cfg Window)
open Idealize.ShloMosaic.ValueIdx
open Cert.KernelIdeal Cert.KernelIdeal.Gen Cert.GatedFfn Cert.KernelIdeal.R0Pay

/-! ## The index maps over the grid -/

/-- The four windows' block indices at grid point t = 12·g + 4·m + k. -/
theorem idx_facts : ∀ t : Fin cfg0.N,
    win0_0.index t (0 : Fin 3) = t.val / 12 ∧ win0_0.index t (1 : Fin 3) = (t.val / 4) % 3 ∧ win0_0.index t (2 : Fin 3) = t.val % 4
    ∧ win0_1.index t (0 : Fin 3) = t.val / 12 ∧ win0_1.index t (1 : Fin 3) = t.val % 4 ∧ win0_1.index t (2 : Fin 3) = 0
    ∧ win0_2.index t (0 : Fin 3) = t.val / 12 ∧ win0_2.index t (1 : Fin 3) = t.val % 4 ∧ win0_2.index t (2 : Fin 3) = 1
    ∧ win0_3.index t (0 : Fin 3) = t.val / 12 ∧ win0_3.index t (1 : Fin 3) = (t.val / 4) % 3 ∧ win0_3.index t (2 : Fin 3) = 0 :=
  (by decide +kernel : ∀ t : Fin grid0.N, _)

/-! ## The input blocks, read where they sit -/

section Reads
variable {F : FTy → Type} [FloatOps F]
variable (V : (c : Dev nD) → (b : Ref sig .tc) → Buf (Elt F) ((c : Thread nD τ).loc b))

/-- The row block of x at point t. -/
theorem read_x (c : Dev nD) (t : Fin cfg0.N) (y : S1x512x512.Idx) (k : S8x1536x2048.Idx)
    (h0 : (k 0).val = t.val / 12) (h1 : (k 1).val = 512 * ((t.val / 4) % 3) + (y 1).val)
    (h2 : (k 2).val = 512 * (t.val % 4) + (y 2).val) :
    (iblk0 V c 0 t : Vec F S1x512x512 .f32) y = (V c main_arg0 : S8x1536x2048.Idx → Elt F .f32) k := by
  obtain ⟨e0, e1, e2, -⟩ := idx_facts t
  have hy : (y 0).val < 1 := (y 0).isLt
  unfold iblk0
  rw [View.read_apply]
  show V c main_arg0 _ = V c main_arg0 _
  congr 1
  funext a
  apply Fin.ext
  match a with
  | ⟨0, _⟩ => show win0_0.index t 0 * 1 + 1 * (y 0).val = (k 0).val; rw [e0, h0]; omega
  | ⟨1, _⟩ => show win0_0.index t 1 * 512 + 1 * (y 1).val = (k 1).val; rw [e1, h1]; omega
  | ⟨2, _⟩ => show win0_0.index t 2 * 512 + 1 * (y 2).val = (k 2).val; rw [e2, h2]; omega

/-- The gate half of the weight block at point t. -/
theorem read_wg (c : Dev nD) (t : Fin cfg0.N) (y : S1x512x1408.Idx) (k : S8x2048x2816.Idx)
    (h0 : (k 0).val = t.val / 12) (h1 : (k 1).val = 512 * (t.val % 4) + (y 1).val)
    (h2 : (k 2).val = (y 2).val) :
    (iblk0 V c 1 t : Vec F S1x512x1408 .f32) y = (V c main_arg1 : S8x2048x2816.Idx → Elt F .f32) k := by
  obtain ⟨-, -, -, e0, e1, e2, -⟩ := idx_facts t
  have hy : (y 0).val < 1 := (y 0).isLt
  unfold iblk0
  rw [View.read_apply]
  show V c main_arg1 _ = V c main_arg1 _
  congr 1
  funext a
  apply Fin.ext
  match a with
  | ⟨0, _⟩ => show win0_1.index t 0 * 1 + 1 * (y 0).val = (k 0).val; rw [e0, h0]; omega
  | ⟨1, _⟩ => show win0_1.index t 1 * 512 + 1 * (y 1).val = (k 1).val; rw [e1, h1]; omega
  | ⟨2, _⟩ => show win0_1.index t 2 * 1408 + 1 * (y 2).val = (k 2).val; rw [e2, h2]; omega

/-- The up half of the weight block at point t. -/
theorem read_wu (c : Dev nD) (t : Fin cfg0.N) (y : S1x512x1408.Idx) (k : S8x2048x2816.Idx)
    (h0 : (k 0).val = t.val / 12) (h1 : (k 1).val = 512 * (t.val % 4) + (y 1).val)
    (h2 : (k 2).val = 1408 + (y 2).val) :
    (iblk0 V c 2 t : Vec F S1x512x1408 .f32) y = (V c main_arg1 : S8x2048x2816.Idx → Elt F .f32) k := by
  obtain ⟨-, -, -, -, -, -, e0, e1, e2, -⟩ := idx_facts t
  have hy : (y 0).val < 1 := (y 0).isLt
  unfold iblk0
  rw [View.read_apply]
  show V c main_arg1 _ = V c main_arg1 _
  congr 1
  funext a
  apply Fin.ext
  match a with
  | ⟨0, _⟩ => show win0_2.index t 0 * 1 + 1 * (y 0).val = (k 0).val; rw [e0, h0]; omega
  | ⟨1, _⟩ => show win0_2.index t 1 * 512 + 1 * (y 1).val = (k 1).val; rw [e1, h1]; omega
  | ⟨2, _⟩ => show win0_2.index t 2 * 1408 + 1 * (y 2).val = (k 2).val; rw [e2, h2]; omega

end Reads

/-! ## The accumulators over the four points of one row block -/

section Unroll
variable {F : FTy → Type} [FloatOps F]
variable (V : (c : Dev nD) → (b : Ref sig .tc) → Buf (Elt F) ((c : Thread nD τ).loc b))

/-- The gate accumulator after the point b + 3 (b ≡ 0 mod 4): four steps from the reset block. -/
theorem accG_four (c : Dev nD) (b : ℕ) (hb : b % 4 = 0) (h3 : b + 3 < cfg0.N) :
    accG V c (b + 3) = k0_pay4 (iblk0 V c 0 ⟨b + 3, h3⟩) (iblk0 V c 1 ⟨b + 3, h3⟩)
      (k0_pay4 (iblk0 V c 0 ⟨b + 2, by omega⟩) (iblk0 V c 1 ⟨b + 2, by omega⟩)
        (k0_pay4 (iblk0 V c 0 ⟨b + 1, by omega⟩) (iblk0 V c 1 ⟨b + 1, by omega⟩)
          (k0_pay4 (iblk0 V c 0 ⟨b, by omega⟩) (iblk0 V c 1 ⟨b, by omega⟩) k0_pay1))) := by
  have e3 := accG_next V c ⟨b + 3, h3⟩ (by show (b + 3) % 4 ≠ 0; omega)
  have e2 := accG_next V c ⟨b + 2, by omega⟩ (by show (b + 2) % 4 ≠ 0; omega)
  have e1 := accG_next V c ⟨b + 1, by omega⟩ (by show (b + 1) % 4 ≠ 0; omega)
  have e0 := accG_first V c ⟨b, by omega⟩ hb
  exact e3.trans (congrArg _ (e2.trans (congrArg _ (e1.trans (congrArg _ e0)))))

/-- The up accumulator after the point b + 3 (b ≡ 0 mod 4): four steps from the reset block. -/
theorem accU_four (c : Dev nD) (b : ℕ) (hb : b % 4 = 0) (h3 : b + 3 < cfg0.N) :
    accU V c (b + 3) = k0_pay5 (iblk0 V c 0 ⟨b + 3, h3⟩) (iblk0 V c 2 ⟨b + 3, h3⟩)
      (k0_pay5 (iblk0 V c 0 ⟨b + 2, by omega⟩) (iblk0 V c 2 ⟨b + 2, by omega⟩)
        (k0_pay5 (iblk0 V c 0 ⟨b + 1, by omega⟩) (iblk0 V c 2 ⟨b + 1, by omega⟩)
          (k0_pay5 (iblk0 V c 0 ⟨b, by omega⟩) (iblk0 V c 2 ⟨b, by omega⟩) k0_pay2))) := by
  have e3 := accU_next V c ⟨b + 3, h3⟩ (by show (b + 3) % 4 ≠ 0; omega)
  have e2 := accU_next V c ⟨b + 2, by omega⟩ (by show (b + 2) % 4 ≠ 0; omega)
  have e1 := accU_next V c ⟨b + 1, by omega⟩ (by show (b + 1) % 4 ≠ 0; omega)
  have e0 := accU_first V c ⟨b, by omega⟩ hb
  exact e3.trans (congrArg _ (e2.trans (congrArg _ (e1.trans (congrArg _ e0)))))

end Unroll

/-! ## At the extended reals: the accumulators are the first product's entries -/

section Ideal
variable (V : (c : Dev nD) → (b : Ref sig .tc) → Buf (Elt Ideal) ((c : Thread nD τ).loc b))

/-- The three input blocks at a point, at their literal types. -/
abbrev xblk (c : Dev nD) (p : Fin cfg0.N) : Vec Ideal S1x512x512 .f32 := iblk0 V c 0 p
abbrev gblk (c : Dev nD) (p : Fin cfg0.N) : Vec Ideal S1x512x1408 .f32 := iblk0 V c 1 p
abbrev ublk (c : Dev nD) (p : Fin cfg0.N) : Vec Ideal S1x512x1408 .f32 := iblk0 V c 2 p
/-- The two argument arrays the region reads, at their literal types. -/
abbrev xarr (c : Dev nD) : S8x1536x2048.Idx → EReal := V c main_arg0
abbrev warr (c : Dev nD) : S8x2048x2816.Idx → EReal := V c main_arg1

/-- One point's block product for the gate half, as a sum over that point's 512 columns of x. -/
theorem blockG (c : Dev nD) (p : Fin cfg0.N) (r : Fin 512) (e : Fin 1408) (g : Fin 8) (M : Fin 1536)
    (hg : g.val = p.val / 12) (hM : M.val = 512 * ((p.val / 4) % 3) + r.val)
    (K : Fin 512 → Fin 2048) (hK : ∀ j, (K j).val = 512 * (p.val % 4) + j.val) :
    ∑ j : Fin 512, xblk V c p (ix3 0 r j) * gblk V c p (ix3 0 j e)
      = ∑ j : Fin 512, xarr V c (ix3 g M (K j))
          * warr V c (ix3 g (K j) (gateCol e)) :=
  Finset.sum_congr rfl fun j _ => congrArg₂ (fun a b : EReal => a * b)
    (read_x V c p (ix3 0 r j) (ix3 g M (K j)) hg hM (hK j))
    (read_wg V c p (ix3 0 j e) (ix3 g (K j) (gateCol e)) hg (hK j) rfl)

/-- One point's block product for the up half. -/
theorem blockU (c : Dev nD) (p : Fin cfg0.N) (r : Fin 512) (e : Fin 1408) (g : Fin 8) (M : Fin 1536)
    (hg : g.val = p.val / 12) (hM : M.val = 512 * ((p.val / 4) % 3) + r.val)
    (K : Fin 512 → Fin 2048) (hK : ∀ j, (K j).val = 512 * (p.val % 4) + j.val) :
    ∑ j : Fin 512, xblk V c p (ix3 0 r j) * ublk V c p (ix3 0 j e)
      = ∑ j : Fin 512, xarr V c (ix3 g M (K j))
          * warr V c (ix3 g (K j) (upCol e)) :=
  Finset.sum_congr rfl fun j _ => congrArg₂ (fun a b : EReal => a * b)
    (read_x V c p (ix3 0 r j) (ix3 g M (K j)) hg hM (hK j))
    (read_wu V c p (ix3 0 j e) (ix3 g (K j) (upCol e)) hg (hK j) rfl)

/-- At a point with k = 3 the gate accumulator holds, at (r, e), the contraction over all 2048 of row 512·m + r of x
    with column e of w. -/
theorem accG_flush_at (c : Dev nD) (n : ℕ) (hn : n < cfg0.N) (h : n % 4 = 3) (r : Fin 512) (e : Fin 1408)
    (g : Fin 8) (M : Fin 1536) (hg : g.val = n / 12) (hM : M.val = 512 * ((n / 4) % 3) + r.val) :
    accG V c n (ix2 r e) = projAt (V c main_arg0) (V c main_arg1) g M (gateCol e) := by
  obtain ⟨b, rfl⟩ : ∃ b, n = b + 3 := ⟨n - 3, by omega⟩
  have hb : b % 4 = 0 := by omega
  rw [accG_four V c b hb hn]
  rw [pay4_apply (iblk0 V c 0 ⟨b + 3, hn⟩) (iblk0 V c 1 ⟨b + 3, hn⟩) _ r e,
    pay4_apply (iblk0 V c 0 ⟨b + 2, by omega⟩) (iblk0 V c 1 ⟨b + 2, by omega⟩) _ r e,
    pay4_apply (iblk0 V c 0 ⟨b + 1, by omega⟩) (iblk0 V c 1 ⟨b + 1, by omega⟩) _ r e,
    pay4_apply (iblk0 V c 0 ⟨b, by omega⟩) (iblk0 V c 1 ⟨b, by omega⟩) _ r e, pay1_apply, zero_add]
  refine (congrArg₂ (· + ·) (congrArg₂ (· + ·) (congrArg₂ (· + ·)
    (blockG V c ⟨b, by omega⟩ r e g M (by show g.val = b / 12; omega) (by show M.val = 512 * ((b / 4) % 3) + r.val; omega)
      (fun j => ⟨j.val, by omega⟩) (fun j => by show j.val = 512 * (b % 4) + j.val; omega))
    (blockG V c ⟨b + 1, by omega⟩ r e g M (by show g.val = (b + 1) / 12; omega) (by show M.val = 512 * (((b + 1) / 4) % 3) + r.val; omega)
      (fun j => ⟨512 + j.val, by omega⟩) (fun j => by show 512 + j.val = 512 * ((b + 1) % 4) + j.val; omega)))
    (blockG V c ⟨b + 2, by omega⟩ r e g M (by show g.val = (b + 2) / 12; omega) (by show M.val = 512 * (((b + 2) / 4) % 3) + r.val; omega)
      (fun j => ⟨1024 + j.val, by omega⟩) (fun j => by show 1024 + j.val = 512 * ((b + 2) % 4) + j.val; omega)))
    (blockG V c ⟨b + 3, hn⟩ r e g M hg hM
      (fun j => ⟨1536 + j.val, by omega⟩) (fun j => by show 1536 + j.val = 512 * ((b + 3) % 4) + j.val; omega))).trans ?_
  exact tile_sum' (fun k => xarr V c (ix3 g M k)
    * warr V c (ix3 g k (gateCol e)))

/-- At a point with k = 3 the up accumulator holds, at (r, e), the contraction with column 1408 + e of w. -/
theorem accU_flush_at (c : Dev nD) (n : ℕ) (hn : n < cfg0.N) (h : n % 4 = 3) (r : Fin 512) (e : Fin 1408)
    (g : Fin 8) (M : Fin 1536) (hg : g.val = n / 12) (hM : M.val = 512 * ((n / 4) % 3) + r.val) :
    accU V c n (ix2 r e) = projAt (V c main_arg0) (V c main_arg1) g M (upCol e) := by
  obtain ⟨b, rfl⟩ : ∃ b, n = b + 3 := ⟨n - 3, by omega⟩
  have hb : b % 4 = 0 := by omega
  rw [accU_four V c b hb hn]
  rw [pay5_apply (iblk0 V c 0 ⟨b + 3, hn⟩) (iblk0 V c 2 ⟨b + 3, hn⟩) _ r e,
    pay5_apply (iblk0 V c 0 ⟨b + 2, by omega⟩) (iblk0 V c 2 ⟨b + 2, by omega⟩) _ r e,
    pay5_apply (iblk0 V c 0 ⟨b + 1, by omega⟩) (iblk0 V c 2 ⟨b + 1, by omega⟩) _ r e,
    pay5_apply (iblk0 V c 0 ⟨b, by omega⟩) (iblk0 V c 2 ⟨b, by omega⟩) _ r e, pay2_apply, zero_add]
  refine (congrArg₂ (· + ·) (congrArg₂ (· + ·) (congrArg₂ (· + ·)
    (blockU V c ⟨b, by omega⟩ r e g M (by show g.val = b / 12; omega) (by show M.val = 512 * ((b / 4) % 3) + r.val; omega)
      (fun j => ⟨j.val, by omega⟩) (fun j => by show j.val = 512 * (b % 4) + j.val; omega))
    (blockU V c ⟨b + 1, by omega⟩ r e g M (by show g.val = (b + 1) / 12; omega) (by show M.val = 512 * (((b + 1) / 4) % 3) + r.val; omega)
      (fun j => ⟨512 + j.val, by omega⟩) (fun j => by show 512 + j.val = 512 * ((b + 1) % 4) + j.val; omega)))
    (blockU V c ⟨b + 2, by omega⟩ r e g M (by show g.val = (b + 2) / 12; omega) (by show M.val = 512 * (((b + 2) / 4) % 3) + r.val; omega)
      (fun j => ⟨1024 + j.val, by omega⟩) (fun j => by show 1024 + j.val = 512 * ((b + 2) % 4) + j.val; omega)))
    (blockU V c ⟨b + 3, hn⟩ r e g M hg hM
      (fun j => ⟨1536 + j.val, by omega⟩) (fun j => by show 1536 + j.val = 512 * ((b + 3) % 4) + j.val; omega))).trans ?_
  exact tile_sum' (fun k => xarr V c (ix3 g M k)
    * warr V c (ix3 g k (upCol e)))

/-! ## What is written back, and where -/

/-- What a point with k = 3 writes back is its block of the activation array. -/
theorem flushed_eq (c : Dev nD) (t : Fin cfg0.N) (hf : (cfg0.win 3).flush t = true) :
    (dat0 V c).flushed 3 t
      = ((cfg0.win 3).blk t).view.read (Elt Ideal) (act (V c main_arg0) (V c main_arg1)) := by
  have ht : t.val % 4 = 3 := (flush0_3 t).mp hf
  have hN : cfg0.N = 96 := N_0
  have htl : t.val < cfg0.N := t.isLt
  obtain ⟨-, -, -, -, -, -, -, -, -, e0, e1, e2⟩ := idx_facts t
  funext y
  have h0 : (y 0).val < 1 := (y 0).isLt
  have h1 : (y 1).val < 512 := (y 1).isLt
  have h2 : (y 2).val < 1408 := (y 2).isLt
  rw [View.read_apply]
  show (cfg0.win 3).cut (grid0.coords t) ((dat0 V c).after 3 t) y
    = act (V c main_arg0) (V c main_arg1) (((cfg0.win 3).blk t).view.emb y)
  rw [after0_3]
  have eL : (cfg0.win 3).xinj (grid0.coords t) y = ix3 (0 : Fin 1) (⟨(y 1).val, h1⟩ : Fin 512) (⟨(y 2).val, h2⟩ : Fin 1408) :=
    funext fun a => Fin.ext (match a with
      | ⟨0, _⟩ => by show (y 0).val = 0; omega
      | ⟨1, _⟩ => rfl
      | ⟨2, _⟩ => rfl)
  have eR : ((cfg0.win 3).blk t).view.emb y
      = ix3 (⟨t.val / 12, by omega⟩ : Fin 8) (⟨512 * ((t.val / 4) % 3) + (y 1).val, by omega⟩ : Fin 1536) (⟨(y 2).val, h2⟩ : Fin 1408) :=
    funext fun a => Fin.ext (match a with
      | ⟨0, _⟩ => by show win0_3.index t 0 * 1 + 1 * (y 0).val = t.val / 12; rw [e0]; omega
      | ⟨1, _⟩ => by show win0_3.index t 1 * 512 + 1 * (y 1).val = 512 * ((t.val / 4) % 3) + (y 1).val; rw [e1]; omega
      | ⟨2, _⟩ => by show win0_3.index t 2 * 1408 + 1 * (y 2).val = (y 2).val; rw [e2]; omega)
  show k0_pay6 (accG V c t.val) (accU V c t.val) ((cfg0.win 3).xinj (grid0.coords t) y) = _
  refine (congrArg (k0_pay6 (accG V c t.val) (accU V c t.val)) eL).trans ?_
  refine Eq.trans ?_ (congrArg (act (V c main_arg0) (V c main_arg1)) eR).symm
  refine (pay6_apply (accG V c t.val) (accU V c t.val) _ _).trans ?_
  rw [accG_flush_at V c t.val htl ht ⟨(y 1).val, h1⟩ ⟨(y 2).val, h2⟩ ⟨t.val / 12, by omega⟩
      ⟨512 * ((t.val / 4) % 3) + (y 1).val, by omega⟩ rfl rfl,
    accU_flush_at V c t.val htl ht ⟨(y 1).val, h1⟩ ⟨(y 2).val, h2⟩ ⟨t.val / 12, by omega⟩
      ⟨512 * ((t.val / 4) % 3) + (y 1).val, by omega⟩ rfl rfl]
  rfl

/-- An index of the activation array is in point t's block iff each coordinate is in the block's range on its axis. -/
theorem mem_blk3 (t : Fin cfg0.N) (i : S8x1536x1408.Idx) :
    i ∈ ((cfg0.win 3).blk t).view.set ↔ ∀ a : Fin 3, win0_3.index t a * S1x512x1408.size a ≤ (i a).val
      ∧ (i a).val < win0_3.index t a * S1x512x1408.size a + S1x512x1408.size a := by
  show i ∈ ((View.whole main_v0).slice (win0_3.rect t)).set ↔ _
  rw [View.set_slice_whole, Rect.mem_set_unit]
  exact Iff.rfl

/-- Every index (g, M, e) of the activation array is in the block written back at the point 12·g + 4·(M / 512) + 3. -/
theorem cover3 (i : S8x1536x1408.Idx) :
    ∃ t : Fin cfg0.N, (cfg0.win 3).flush t = true ∧ i ∈ ((cfg0.win 3).blk t).view.set := by
  have hN : cfg0.N = 96 := N_0
  have h0 : (i 0).val < 8 := (i 0).isLt
  have h1 : (i 1).val < 1536 := (i 1).isLt
  have h2 : (i 2).val < 1408 := (i 2).isLt
  obtain ⟨t, htv⟩ : ∃ t : Fin cfg0.N, t.val = 12 * (i 0).val + 4 * ((i 1).val / 512) + 3 :=
    ⟨⟨12 * (i 0).val + 4 * ((i 1).val / 512) + 3, by omega⟩, rfl⟩
  obtain ⟨-, -, -, -, -, -, -, -, -, e0, e1, e2⟩ := idx_facts t
  refine ⟨t, (flush0_3 t).mpr (by omega), ?_⟩
  rw [mem_blk3]
  intro a
  match a with
  | ⟨0, _⟩ => show win0_3.index t 0 * 1 ≤ (i 0).val ∧ (i 0).val < win0_3.index t 0 * 1 + 1; rw [e0]; omega
  | ⟨1, _⟩ => show win0_3.index t 1 * 512 ≤ (i 1).val ∧ (i 1).val < win0_3.index t 1 * 512 + 512; rw [e1]; omega
  | ⟨2, _⟩ => show win0_3.index t 2 * 1408 ≤ (i 2).val ∧ (i 2).val < win0_3.index t 2 * 1408 + 1408; rw [e2]; omega

/-- THE ACTIVATION ARRAY after the region: the specification's activation of the two argument arrays. -/
theorem final0 (c : Dev nD) : (dat0 V c).arrAt 3 cfg0.N = act (V c main_arg0) (V c main_arg1) :=
  (dat0 V c).arrAt_eq_of_cover 3 (act (V c main_arg0) (V c main_arg1)) (fun t hf => flushed_eq V c t hf) cover3

end Ideal

/-! ## The inputs are not written -/

section Inputs
variable {F : FTy → Type} [FloatOps F]
variable (V : (c : Dev nD) → (b : Ref sig .tc) → Buf (Elt F) ((c : Thread nD τ).loc b))

theorem arr_in0 (c : Dev nD) : (dat0 V c).arrAt 0 cfg0.N = V c main_arg0 :=
  ((dat0 V c).arrAt_in 0 rfl _).trans (A_eq0 V c 0)
theorem arr_in1 (c : Dev nD) : (dat0 V c).arrAt 1 cfg0.N = V c main_arg1 :=
  ((dat0 V c).arrAt_in 1 rfl _).trans (A_eq0 V c 1)
theorem arr_in2 (c : Dev nD) : (dat0 V c).arrAt 2 cfg0.N = V c main_arg1 :=
  ((dat0 V c).arrAt_in 2 rfl _).trans (A_eq0 V c 2)

end Inputs

end Cert.KernelIdeal.R0

end
-- ==== Proof.Region1Value.lean ====
/- Region 1 of the kernel program at the extended reals: what the output array holds after the region, as ONE
   function of the two arrays the region reads — entry (g, r, n) is the sum over e of act(g, r, e) · wd(g, e, n) —
   and the two arrays it reads, unchanged. The body's payload at an index is that sum over the loaded blocks; each
   grid point's write-back is its block of the whole-array function; the blocks cover the array. -/
import proofs.«167459_j88605175316749_1_alg».proof.Proof.Region1
import proofs.«167459_j88605175316749_1_alg».proof.Proof.LibBlockReads
import Idealize.ShloMosaic.Lib.Pipeline.Value
import Idealize.ShloMosaic.Lib.ValueIdx
import Idealize.ShloMosaic.PureOps.Ideal.Laws

set_option maxRecDepth 16384

open scoped BigOperators

noncomputable section

namespace Cert.KernelIdeal.R1

open Cert.KernelIdeal Cert.KernelIdeal.Gen
open Idealize.ShloMosaic Idealize.ShloMosaic.TcCoe Idealize.ShloMosaic.ValueIdx Idealize.SL.Sem
open Idealize.ShloMosaic.Pipeline (Dat)

/-! ## The whole-array function -/

/-- The batched product of an [8,1536,1408] array with an [8,1408,2048] array along the shared axis of
    extent 1408: entry (g, r, n) is the sum over e of A(g, r, e) · W(g, e, n). -/
def prod1 (A : Vec Ideal S8x1536x1408 .bf16) (W : Vec Ideal S8x1408x2048 .f32) : Vec Ideal S8x1536x2048 .f32 :=
  fun i => ∑ e : Fin 1408, A (ix3 (i 0) (i 1) e) * W (ix3 (i 0) e (i 2))

theorem prod1_apply (A : Vec Ideal S8x1536x1408 .bf16) (W : Vec Ideal S8x1408x2048 .f32) (i : S8x1536x2048.Idx) :
    prod1 A W i = ∑ e : Fin 1408, A (ix3 (i 0) (i 1) e) * W (ix3 (i 0) e (i 2)) := rfl

/-! ## The body's payload at an index -/

theorem hz3 : (![0, 0, 0] : Fin 3 → Nat) = fun _ => 0 := funext fun a => by fin_cases a <;> rfl

/-- The payload of the one store, at row r and column n of its block: the sum over e of the first block at
    (r, e) times the second at (e, n). A change of format is the identity on the extended reals, the unit
    leading axis is dropped and restored, and the product is accumulated into zeros. -/
theorem pay1_apply (x0 : Vec Ideal S1x512x1408 .bf16) (x1 : Vec Ideal S1x1408x2048 .f32) (r : Fin 512) (n : Fin 2048) :
    k1_pay1 (F := Ideal) x0 x1 (ix3 (0 : Fin 1) r n) = ∑ e : Fin 1408, x0 (ix3 (0 : Fin 1) r e) * x1 (ix3 (0 : Fin 1) e n) := by
  unfold k1_pay1
  refine (shapeCast_apply _ shapeCasts_S512x2048_S1x512x2048 (ix3 (0 : Fin 1) r n) (ix2 r n) ?_).trans ?_
  · rw [Shape.rowMajor_val_two, Shape.rowMajor_val_three]
    show r.val * 2048 + n.val = ((0 : Nat) * 512 + r.val) * 2048 + n.val
    omega
  refine (Cert.Lib.BlockReads.matmul_zero_rows_apply (m := 512) (k := 1408) (n := 2048) dot_S512x1408_S1408x2048_S512x2048_1_0_0_1_n_n rfl rfl rfl rfl rfl rfl none _ _ r n).trans ?_
  refine Finset.sum_congr rfl fun e _ => ?_
  have hl : shapeCast S512x1408 x0 shapeCasts_S1x512x1408_S512x1408 (ix2 r e) = x0 (ix3 (0 : Fin 1) r e) :=
    shapeCast_apply x0 shapeCasts_S1x512x1408_S512x1408 (ix2 r e) (ix3 (0 : Fin 1) r e) (by
      rw [Shape.rowMajor_val_three, Shape.rowMajor_val_two]
      show ((0 : Nat) * 512 + r.val) * 1408 + e.val = r.val * 1408 + e.val
      omega)
  have hr : shapeCast S1408x2048 x1 shapeCasts_S1x1408x2048_S1408x2048 (ix2 e n) = x1 (ix3 (0 : Fin 1) e n) :=
    shapeCast_apply x1 shapeCasts_S1x1408x2048_S1408x2048 (ix2 e n) (ix3 (0 : Fin 1) e n) (by
      rw [Shape.rowMajor_val_three, Shape.rowMajor_val_two]
      show ((0 : Nat) * 1408 + e.val) * 2048 + n.val = e.val * 2048 + n.val
      omega)
  exact congrArg₂ (· * ·) hl hr

/-- An index of a [1,512,2048] block is (0, its row, its column). -/
theorem eq_ix3_unit (j : S1x512x2048.Idx) : j = ix3 (0 : Fin 1) (j 1) (j 2) := by
  funext a
  match a with
  | ⟨0, _⟩ => exact Fin.ext (by have h : (j 0).val < 1 := (j 0).isLt; show (j 0).val = 0; omega)
  | ⟨1, _⟩ => rfl
  | ⟨2, _⟩ => rfl

/-- The payload on blocks that are rows of A and the slab of W of one group is, at block index j, the product of
    the whole arrays at the array index i the block index sits at. -/
theorem pay1_block (x0 : Vec Ideal S1x512x1408 .bf16) (x1 : Vec Ideal S1x1408x2048 .f32)
    (A : Vec Ideal S8x1536x1408 .bf16) (W : Vec Ideal S8x1408x2048 .f32) (j : S1x512x2048.Idx) (i : S8x1536x2048.Idx)
    (h0 : ∀ e : Fin 1408, x0 (ix3 (0 : Fin 1) (j 1) e) = A (ix3 (i 0) (i 1) e))
    (h1 : ∀ e : Fin 1408, x1 (ix3 (0 : Fin 1) e (j 2)) = W (ix3 (i 0) e (i 2))) :
    k1_pay1 (F := Ideal) x0 x1 j = prod1 A W i := by
  refine (congrArg (k1_pay1 (F := Ideal) x0 x1) (eq_ix3_unit j)).trans ?_
  refine (pay1_apply x0 x1 (j 1) (j 2)).trans ?_
  rw [prod1_apply]
  exact Finset.sum_congr rfl fun e _ => by rw [h0 e, h1 e]

/-! ## From blocks to the array -/

variable (V : (c : Dev nD) → (b : Ref sig .tc) → Buf (Elt Ideal) ((c : Thread nD τ).loc b))

/-- The printed index maps over the grid of 24 points: the first input's block moves with the output's along
    the group and row-block axes and is whole along the shared axis; the second input's is the group's whole
    slab; the output's block indices at point t are (t / 3, t % 3, 0). -/
theorem idx_facts1 : ∀ t : Fin cfg1.N,
    win1_0.index t (0 : Fin 3) = win1_2.index t (0 : Fin 3) ∧ win1_0.index t (1 : Fin 3) = win1_2.index t (1 : Fin 3)
    ∧ win1_0.index t (2 : Fin 3) = 0
    ∧ win1_1.index t (0 : Fin 3) = win1_2.index t (0 : Fin 3) ∧ win1_1.index t (1 : Fin 3) = 0 ∧ win1_1.index t (2 : Fin 3) = 0
    ∧ win1_2.index t (0 : Fin 3) = t.val / 3 ∧ win1_2.index t (1 : Fin 3) = t.val % 3 ∧ win1_2.index t (2 : Fin 3) = 0 :=
  (by decide +kernel : ∀ t : Fin grid1.N, _)

/-- What point t writes back is block t of the product of the two arrays as the region finds them. -/
theorem flushed1_eq (c : Dev nD) (t : Fin cfg1.N) :
    (dat1 (F := Ideal) V c).flushed 2 t = ((cfg1.win 2).blk t).view.read (Elt Ideal) (prod1 (V c main_v0) (V c main_arg2)) := by
  show (cfg1.win 2).cut (grid1.coords t) ((dat1 (F := Ideal) V c).after 2 t) = _
  rw [after1_2]
  unfold out1_2
  rw [View.canon_unit_zero hz3]
  simp only [View.ld_unit_zero (S := S1x512x1408) hz3, View.ld_unit_zero (S := S1x1408x2048) hz3]
  obtain ⟨a0, a1, a2, b0, b1, b2, o0, o1, o2⟩ := idx_facts1 t
  funext j
  show k1_pay1 (F := Ideal) (iblk1 V c 0 t) (iblk1 V c 1 t) j = prod1 (V c main_v0) (V c main_arg2) (((cfg1.win 2).blk t).view.emb j)
  have hj0 : (j 0).val = 0 := by have h : (j 0).val < 1 := (j 0).isLt; omega
  refine pay1_block (iblk1 V c 0 t) (iblk1 V c 1 t) (V c main_v0) (V c main_arg2) j (((cfg1.win 2).blk t).view.emb j) (fun e => ?_) (fun e => ?_)
  · show V c main_v0 (((cfg1.win 0).blk t).view.emb (ix3 (0 : Fin 1) (j 1) e)) = V c main_v0 _
    refine congrArg (V c main_v0) ?_
    funext a; apply Fin.ext
    match a with
    | ⟨0, _⟩ => show win1_0.index t (0 : Fin 3) * 1 + 1 * 0 = win1_2.index t (0 : Fin 3) * 1 + 1 * (j 0).val; omega
    | ⟨1, _⟩ => show win1_0.index t (1 : Fin 3) * 512 + 1 * (j 1).val = win1_2.index t (1 : Fin 3) * 512 + 1 * (j 1).val; omega
    | ⟨2, _⟩ => show win1_0.index t (2 : Fin 3) * 1408 + 1 * e.val = e.val; omega
  · show V c main_arg2 (((cfg1.win 1).blk t).view.emb (ix3 (0 : Fin 1) e (j 2))) = V c main_arg2 _
    refine congrArg (V c main_arg2) ?_
    funext a; apply Fin.ext
    match a with
    | ⟨0, _⟩ => show win1_1.index t (0 : Fin 3) * 1 + 1 * 0 = win1_2.index t (0 : Fin 3) * 1 + 1 * (j 0).val; omega
    | ⟨1, _⟩ => show win1_1.index t (1 : Fin 3) * 1408 + 1 * e.val = e.val; omega
    | ⟨2, _⟩ => show win1_1.index t (2 : Fin 3) * 2048 + 1 * (j 2).val = win1_2.index t (2 : Fin 3) * 2048 + 1 * (j 2).val; omega

/-- An index of the output array is in point t's block iff each coordinate is in the block's range on its axis. -/
theorem mem_blk1 (t : Fin cfg1.N) (i : S8x1536x2048.Idx) :
    i ∈ ((cfg1.win 2).blk t).view.set ↔ ∀ a : Fin 3, win1_2.index t a * S1x512x2048.size a ≤ (i a).val ∧ (i a).val < win1_2.index t a * S1x512x2048.size a + S1x512x2048.size a := by
  show i ∈ ((View.whole main_v1).slice (win1_2.rect t)).set ↔ _
  rw [View.set_slice_whole, Rect.mem_set_unit]
  exact Iff.rfl

/-- Every index (g, r, n) of the output array is in the block of the point 3 g + r / 512. -/
theorem cover1 (i : S8x1536x2048.Idx) : ∃ t : Fin cfg1.N, (cfg1.win 2).flush t = true ∧ i ∈ ((cfg1.win 2).blk t).view.set := by
  have h0 : (i 0).val < 8 := (i 0).isLt
  have h1 : (i 1).val < 1536 := (i 1).isLt
  have h2 : (i 2).val < 2048 := (i 2).isLt
  obtain ⟨t, ht⟩ : ∃ t : Fin cfg1.N, t.val = 3 * (i 0).val + (i 1).val / 512 :=
    ⟨⟨3 * (i 0).val + (i 1).val / 512, by rw [show cfg1.N = 24 from N_1]; omega⟩, rfl⟩
  refine ⟨t, flush1_2 t, ?_⟩
  rw [mem_blk1]
  obtain ⟨-, -, -, -, -, -, o0, o1, o2⟩ := idx_facts1 t
  intro a
  match a with
  | ⟨0, _⟩ => show win1_2.index t (0 : Fin 3) * 1 ≤ (i 0).val ∧ (i 0).val < win1_2.index t (0 : Fin 3) * 1 + 1; omega
  | ⟨1, _⟩ => show win1_2.index t (1 : Fin 3) * 512 ≤ (i 1).val ∧ (i 1).val < win1_2.index t (1 : Fin 3) * 512 + 512; omega
  | ⟨2, _⟩ => show win1_2.index t (2 : Fin 3) * 2048 ≤ (i 2).val ∧ (i 2).val < win1_2.index t (2 : Fin 3) * 2048 + 2048; omega

/-- THE OUTPUT ARRAY after the region: the product of the two arrays the region reads, as it finds them. -/
theorem final1 (c : Dev nD) : (dat1 (F := Ideal) V c).arrAt 2 cfg1.N = prod1 (V c main_v0) (V c main_arg2) :=
  (dat1 (F := Ideal) V c).arrAt_eq_of_cover 2 (prod1 (V c main_v0) (V c main_arg2)) (fun t _ => flushed1_eq V c t) (fun i => cover1 i)

/-- The two arrays the region reads end as it found them. -/
theorem final1_in0 (c : Dev nD) : (dat1 (F := Ideal) V c).arrAt 0 cfg1.N = V c main_v0 :=
  ((dat1 (F := Ideal) V c).arrAt_in 0 rfl cfg1.N).trans (A_eq1 V c 0)
theorem final1_in1 (c : Dev nD) : (dat1 (F := Ideal) V c).arrAt 1 cfg1.N = V c main_arg2 :=
  ((dat1 (F := Ideal) V c).arrAt_in 1 rfl cfg1.N).trans (A_eq1 V c 1)

end Cert.KernelIdeal.R1

end
-- ==== Proof.ProdAct.lean ====
/- The product region's whole-array function applied to the activation array is the gated feed-forward block's
   result: both are, entry by entry, the sum over e of act(g, r, e) · wd(g, e, n). -/
import proofs.«167459_j88605175316749_1_alg».proof.Proof.Region1Value
import proofs.«167459_j88605175316749_1_alg».proof.Proof.Spec

open scoped BigOperators

noncomputable section

namespace Cert.KernelIdeal.R1

open Cert.KernelIdeal
open Idealize.ShloMosaic Idealize.ShloMosaic.ValueIdx

/-- The product of the activation array with the down-projection weights along the axis of extent 1408 is the
    block's result array. -/
theorem prod1_act (x : Cert.GatedFfn.SX.Idx → EReal) (w : Cert.GatedFfn.SW.Idx → EReal) (wd : Cert.GatedFfn.SD.Idx → EReal) :
    prod1 (Cert.GatedFfn.act x w) wd = Cert.GatedFfn.out x w wd := by
  funext i
  rfl

end Cert.KernelIdeal.R1

end
-- ==== Proof.Value.lean ====
/- The kernel program's run at the extended reals, read: the result array ends holding the gated feed-forward
   block's result of the three argument arrays, and the arguments end as launched. The first region leaves the
   activation array, the second its product with the down-projection weights; nothing else is written. -/
import proofs.«167459_j88605175316749_1_alg».proof.Proof.Whole
import proofs.«167459_j88605175316749_1_alg».proof.Proof.Region0Value
import proofs.«167459_j88605175316749_1_alg».proof.Proof.Region1Value
import proofs.«167459_j88605175316749_1_alg».proof.Proof.ProdAct

set_option maxRecDepth 16384

noncomputable section

namespace Cert.KernelIdeal.Whole

open Idealize.ShloMosaic Idealize.ShloMosaic.TcCoe Idealize.SL.Sem
open Cert.KernelIdeal Cert.KernelIdeal.Gen

variable (m : (ℓ : Loc nD τ sig) → Buf (Elt Ideal) ℓ) (ρ : Dev nD → PrngReg)

/-- After the first region the activation array holds the block's activation of the first two arguments. -/
theorem V1_v0 (c : Dev nD) :
    V1 m c main_v0 = Cert.GatedFfn.act (m ((c.tc : Thread nD τ).loc main_arg0)) (m ((c.tc : Thread nD τ).loc main_arg1)) :=
  (W1_v0 m c).trans (R0.final0 (V0 m) c)

/-- The first region does not write the down-projection weights. -/
theorem V1_arg2 (c : Dev nD) : V1 m c main_arg2 = m ((c.tc : Thread nD τ).loc main_arg2) :=
  (W1_of m c main_arg2 (by decide)).trans rfl

/-- After the second region the result array holds the block's result of the three arguments. -/
theorem W2_v1_out (c : Dev nD) :
    W2 m c main_v1 = Cert.GatedFfn.out (m ((c.tc : Thread nD τ).loc main_arg0)) (m ((c.tc : Thread nD τ).loc main_arg1)) (m ((c.tc : Thread nD τ).loc main_arg2)) :=
  (W2_v1 m c).trans ((R1.final1 (V1 m) c).trans
    ((congrArg₂ R1.prod1 (V1_v0 m c) (V1_arg2 m c)).trans (R1.prod1_act _ _ _)))

/-- The run, read: the result array at the block's result of the arguments, the arguments unchanged. -/
theorem value : θ_run (defs (F := Ideal)) (onTc (τ := τ) (main (F := Ideal))) ⟨m, fun _ => 0, ρ⟩ (fun r => ∀ c : Dev nD,
      r.2.mem ((c.tc : Thread nD τ).loc main_v1) = Cert.GatedFfn.out (m ((c.tc : Thread nD τ).loc main_arg0)) (m ((c.tc : Thread nD τ).loc main_arg1)) (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun r h c => ⟨(h c).1.trans (W2_v1_out m c), (h c).2⟩) (run_named m ρ)

end Cert.KernelIdeal.Whole

end
-- ==== Proof.RefIsSpec.lean ====
/-
  The reference program computes the specification.

  The reference's run ends with its result array at the composed term of its fourteen host operations applied to
  the argument arrays (the generated run). Read index by index at the extended reals, that term is
  `Cert.GatedFfn.out`: the first product's element at `(g, m, n)` is the sum over `k < 2048` of
  `x (g, m, k) · w (g, k, n)`; the two slices read it at the columns `e` and `1408 + e`; the outlined function is
  `v · (1 / (1 + exp (−v)))` element by element, its constant one broadcast from a scalar; and the second product's
  element at `(g, m, j)` is the sum over `e < 1408` of the activation at `(g, m, e)` times `wd (g, e, j)`.
  The two claim-level statements about the reference follow: it runs and leaves its arguments unchanged
  (`frame_ri`), and it ends with its result at `Cert.GatedFfn.out` of its arguments (`ref_run`).
-/
import proofs.«167459_j88605175316749_1_alg».proof.Defs
import proofs.«167459_j88605175316749_1_alg».proof.Proof.Gen.ReferenceIdeal
import proofs.«167459_j88605175316749_1_alg».proof.Proof.Gen.Pre_finite_inputs
import proofs.«167459_j88605175316749_1_alg».proof.Proof.Gen.ReferenceIdeal.Read
import proofs.«167459_j88605175316749_1_alg».proof.Proof.Spec

noncomputable section

open scoped BigOperators

open Idealize.ShloMosaic Idealize.ShloMosaic.TcCoe Idealize.SL.Sem

namespace Cert.ReferenceIdeal.RefValue

open Cert.ReferenceIdeal Cert.ReferenceIdeal.Gen Cert.ReferenceIdeal.Value Cert.ReferenceIdeal.Read
open Idealize.ShloMosaic.StableHlo Idealize.ShloMosaic.ValueIdx Cert.GatedFfn

/-- The first product's element at `(g, m, n)` is the specification's. -/
theorem v0_at (x : (⟨S8x1536x2048, .f32⟩ : BufTy).Contents (Elt Ideal)) (w : (⟨S8x2048x2816, .f32⟩ : BufTy).Contents (Elt Ideal))
    (g : Fin 8) (m : Fin 1536) (n : Fin 2816) :
    val_main_v0 (F := Ideal) x w (ix3 g m n) = projAt x w g m n := by
  rw [val_main_v0_apply]
  refine Finset.sum_congr rfl fun k _ => ?_
  have eA : lidx_main_v0 (ix3 g m n) k = ix3 g m k :=
    funext fun a => match a with | ⟨0, _⟩ => rfl | ⟨1, _⟩ => rfl | ⟨2, _⟩ => rfl
  have eB : ridx_main_v0 (ix3 g m n) k = ix3 g k n :=
    funext fun a => match a with | ⟨0, _⟩ => rfl | ⟨1, _⟩ => rfl | ⟨2, _⟩ => rfl
  rw [eA, eB]

/-- The activation's element at `(g, m, e)`: the outlined function of the gate column times the up column. -/
theorem v4_at (x : (⟨S8x1536x2048, .f32⟩ : BufTy).Contents (Elt Ideal)) (w : (⟨S8x2048x2816, .f32⟩ : BufTy).Contents (Elt Ideal))
    (g : Fin 8) (m : Fin 1536) (e : Fin 1408) :
    val_main_v4 (F := Ideal) x w (ix3 g m e) = actAt x w g m e := by
  have i1 : idx_main_v1 (ix3 g m e) = ix3 g m (gateCol e) :=
    funext fun a => match a with | ⟨0, _⟩ => rfl | ⟨1, _⟩ => rfl | ⟨2, _⟩ => rfl
  have i2 : idx_main_v2 (ix3 g m e) = ix3 g m (upCol e) :=
    funext fun a => match a with | ⟨0, _⟩ => rfl | ⟨1, _⟩ => rfl | ⟨2, _⟩ => rfl
  rw [val_main_v4_apply, val_main_v3_apply, val_main_call0_v5_apply, val_main_call0_v4_apply,
    val_main_call0_cst_0_apply, val_main_call0_v3_apply, val_main_call0_v2_apply, val_main_call0_cst_apply,
    val_main_call0_v1_apply, val_main_call0_v0_apply, val_main_v1_apply, val_main_v2_apply, i1, i2, v0_at, v0_at]
  simp only [Ideal.mulf_def, Ideal.hostDivf_def, Ideal.addf_def, Ideal.hostUnary_exp_def, Ideal.hostNegf_def,
    Ideal.negf_def, Ideal.ofBits_def]
  rfl

/-- The result's element at `(g, m, j)` is the specification's. -/
theorem v5_at (x : (⟨S8x1536x2048, .f32⟩ : BufTy).Contents (Elt Ideal)) (w : (⟨S8x2048x2816, .f32⟩ : BufTy).Contents (Elt Ideal))
    (wd : (⟨S8x1408x2048, .f32⟩ : BufTy).Contents (Elt Ideal)) (g : Fin 8) (m : Fin 1536) (j : Fin 2048) :
    val_main_v5 (F := Ideal) x w wd (ix3 g m j) = outAt x w wd g m j := by
  rw [val_main_v5_apply]
  refine Finset.sum_congr rfl fun e _ => ?_
  have eA : lidx_main_v5 (ix3 g m j) e = ix3 g m e :=
    funext fun a => match a with | ⟨0, _⟩ => rfl | ⟨1, _⟩ => rfl | ⟨2, _⟩ => rfl
  have eB : ridx_main_v5 (ix3 g m j) e = ix3 g e j :=
    funext fun a => match a with | ⟨0, _⟩ => rfl | ⟨1, _⟩ => rfl | ⟨2, _⟩ => rfl
  rw [eA, eB, v4_at]

/-- The reference run's result term, at the extended reals, is the specification of the argument arrays. -/
theorem ref_eq (x : FVec Ideal S8x1536x2048 .f32) (w : FVec Ideal S8x2048x2816 .f32) (wd : FVec Ideal S8x1408x2048 .f32) :
    Host.dotGeneral dot_S8x1536x1408_S8x1408x2048_S8x1536x2048_2_1_1_2_0_0 none (mulf (mulf (extractStridedSlice S8x1536x1408 ![0, 0, 0] (Host.dotGeneral dot_S8x1536x2048_S8x2048x2816_S8x1536x2816_2_1_1_2_0_0 none (x) (w)) slices_S8x1536x2816_S8x1536x1408_0_0_0) (Host.divf (broadcastInDim S8x1536x1408 ![] bcast_S_S8x1536x1408 (constant S_ .f32 0x3F800000#32)) (addf (broadcastInDim S8x1536x1408 ![] bcast_S_S8x1536x1408 (constant S_ .f32 0x3F800000#32)) (Host.exp (Host.negf (extractStridedSlice S8x1536x1408 ![0, 0, 0] (Host.dotGeneral dot_S8x1536x2048_S8x2048x2816_S8x1536x2816_2_1_1_2_0_0 none (x) (w)) slices_S8x1536x2816_S8x1536x1408_0_0_0)))))) (extractStridedSlice S8x1536x1408 ![0, 0, 1408] (Host.dotGeneral dot_S8x1536x2048_S8x2048x2816_S8x1536x2816_2_1_1_2_0_0 none (x) (w)) slices_S8x1536x2816_S8x1536x1408_0_0_1408)) (wd)
      = Cert.GatedFfn.out x w wd := by
  rw [val_main_v5_eq (F := Ideal) x w wd]
  funext i
  obtain ⟨g, m, j, rfl⟩ : ∃ (g : Fin 8) (m : Fin 1536) (j : Fin 2048), i = ix3 g m j := ⟨i 0, i 1, i 2, eq_ix3 i⟩
  exact v5_at x w wd g m j

end Cert.ReferenceIdeal.RefValue

/-! ## The reference's two claim-level statements -/

namespace Cert.Proof.RefClaims

/-- The reference runs and leaves its arguments unchanged. -/
theorem frame_ri : Cert.frame_ReferenceIdeal := fun m ρ _ =>
  (θ_run Cert.ReferenceIdeal.defs _ _).mono (fun _ h c => (h c).2) (Cert.ReferenceIdeal.Value.run (F := Ideal) m ρ)

/-- The reference runs, ends with its result at the specification of its argument arrays, and leaves its
    arguments unchanged. -/
theorem ref_run (m' : (ℓ : Loc Cert.ReferenceIdeal.nD Cert.ReferenceIdeal.τ Cert.ReferenceIdeal.sig) → Buf (Elt Ideal) ℓ) (g' : Dev Cert.ReferenceIdeal.nD → PrngReg) :
    θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v5)
            = Cert.GatedFfn.out (m' ((c.tc : Thread Cert.ReferenceIdeal.nD Cert.ReferenceIdeal.τ).loc Cert.ReferenceIdeal.main_arg0)) (m' ((c.tc : Thread Cert.ReferenceIdeal.nD Cert.ReferenceIdeal.τ).loc Cert.ReferenceIdeal.main_arg1)) (m' ((c.tc : Thread Cert.ReferenceIdeal.nD Cert.ReferenceIdeal.τ).loc Cert.ReferenceIdeal.main_arg2))
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)) :=
  (θ_run Cert.ReferenceIdeal.defs _ _).mono
    (fun _ h c => ⟨(h c).1.trans (Cert.ReferenceIdeal.RefValue.ref_eq _ _ _), (h c).2⟩)
    (Cert.ReferenceIdeal.Value.run (F := Ideal) m' g')

end Cert.Proof.RefClaims

end
-- ==== Proof.lean ====
/- The certificate of a grouped gated feed-forward layer: for each of 8 groups, out = ((g · (1 / (1 + exp(−g)))) · u) · w_down with
   (g | u) = x · w_up_gate split into its two column halves. The kernel program computes it in two regions: the first
   accumulates g and u over four tiles of the contracted axis in two scratch accumulators (reset at the first tile) and writes the
   gated product at the last; the second multiplies the activation by w_down, one row block at a time. The reference does
   the same with two whole products. On the extended reals the two agree index by index: a sum over 2048 terms is the sum
   of its four tiles' sums added to zero in order (addition there is associative and commutative, and 0 is neutral: no
   finiteness is used), 0 − g is −g, a change of float format is the identity.
   The frames (each program terminates, faults nowhere, leaves its arguments unchanged) come from running both regions in
   sequence: the first region holds the weight array in two halves, one per window that reads it, and the two accumulators'
   contents are carried from grid point to grid point in the region's invariant. -/
import proofs.«167459_j88605175316749_1_alg».proof.Defs
import proofs.«167459_j88605175316749_1_alg».proof.Proof.Gen.Kernel
import proofs.«167459_j88605175316749_1_alg».proof.Proof.Gen.KernelIdeal
import proofs.«167459_j88605175316749_1_alg».proof.Proof.Gen.ReferenceIdeal
import proofs.«167459_j88605175316749_1_alg».proof.Proof.Gen.Pre_finite_inputs
import proofs.«167459_j88605175316749_1_alg».proof.Proof.Gen.ReferenceIdeal.Run
import proofs.«167459_j88605175316749_1_alg».proof.Proof.Gen.ReferenceIdeal.Read
import proofs.«167459_j88605175316749_1_alg».proof.Proof.WholeBits
import proofs.«167459_j88605175316749_1_alg».proof.Proof.Whole
import proofs.«167459_j88605175316749_1_alg».proof.Proof.Value
import proofs.«167459_j88605175316749_1_alg».proof.Proof.RefIsSpec
import Idealize.ShloMosaic.Adequacy
import Idealize.ShloMosaic.Init

noncomputable section

namespace Cert.Proof

open Idealize.ShloMosaic Idealize.ShloMosaic.TcCoe Idealize.SL.Sem

/-- The word-level program runs to the end and leaves its arguments unchanged. -/
theorem frame_k : Cert.frame_Kernel := fun m ρ _ => Cert.Kernel.Whole.frame m ρ
/-- So does its reading on the extended reals. -/
theorem frame_ki : Cert.frame_KernelIdeal := fun m ρ _ => Cert.KernelIdeal.Whole.frame m ρ

/-- On the extended reals the kernel program and the reference, run from memories agreeing on the arguments, both end
    with the result array at the one whole-array function `Cert.GatedFfn.out` of the arguments. -/
theorem algebraic : Cert.algebraic_KernelIdeal_ReferenceIdeal := by
  intro m ρ m' ρ' _ hagree
  refine ⟨fun c => Cert.GatedFfn.out (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2)),
    Cert.KernelIdeal.Whole.value m ρ, ?_⟩
  refine (θ_run Cert.ReferenceIdeal.defs _ _).mono (fun _ h c => ?_) (Cert.Proof.RefClaims.ref_run m' ρ')
  refine ⟨(h c).1.trans ?_, (h c).2⟩
  rw [(hagree c).1, (hagree c).2.1, (hagree c).2.2]

theorem claim : Cert.Claim := ⟨Cert.Kernel.Gen.facts, Cert.KernelIdeal.Gen.facts, Cert.ReferenceIdeal.Gen.facts, Cert.Pre_finite_inputs.Gen.facts,
  frame_k, frame_ki, Cert.Proof.RefClaims.frame_ri, trivial, algebraic⟩

end Cert.Proof

end
